-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x1024 .f32) (main_arg6 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x1024 .f32) (main_arg1 : FVec F S64x1024 .f32) (main_arg2 : FVec F S64 .f32) (main_arg3 : FVec F S64x1024 .f32) (main_arg4 : FVec F S64 .f32) (main_arg5 : FVec F S64x1024 .f32) (main_arg6 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S8x2048x1024 : Shape := ⟨3, ![8, 2048, 1024]⟩
abbrev S64x1024 : Shape := ⟨2, ![64, 1024]⟩
abbrev S64 : Shape := ⟨1, ![64]⟩
abbrev S_ : Shape := ⟨0, ![]⟩
abbrev S128x1024 : Shape := ⟨2, ![128, 1024]⟩
abbrev S128 : Shape := ⟨1, ![128]⟩
abbrev S1024x128 : Shape := ⟨2, ![1024, 128]⟩
abbrev S1024x384 : Shape := ⟨2, ![1024, 384]⟩
abbrev S384 : Shape := ⟨1, ![384]⟩
abbrev S1x384 : Shape := ⟨2, ![1, 384]⟩
abbrev S16384x1024 : Shape := ⟨2, ![16384, 1024]⟩
abbrev S16384x384 : Shape := ⟨2, ![16384, 384]⟩
abbrev S2048x1024 : Shape := ⟨2, ![2048, 1024]⟩
abbrev S2048x384 : Shape := ⟨2, ![2048, 384]⟩
abbrev S8x2048x384 : Shape := ⟨3, ![8, 2048, 384]⟩
abbrev S8x2048x64 : Shape := ⟨3, ![8, 2048, 64]⟩
abbrev S1x256x128 : Shape := ⟨3, ![1, 256, 128]⟩
abbrev S1x256x64 : Shape := ⟨3, ![1, 256, 64]⟩
abbrev S256x1 : Shape := ⟨2, ![256, 1]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S256x64 : Shape := ⟨2, ![256, 64]⟩

abbrev nBuf : Space → Nat
  | .hbm => 36
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S_, .i32⟩
  | .hbm, ⟨11, _⟩ => ⟨S_, .f32⟩
  | .hbm, ⟨12, _⟩ => ⟨S128x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S1024x384, .f32⟩
  | .hbm, ⟨29, _⟩ => ⟨S1024x384, .bf16⟩
  | .hbm, ⟨30, _⟩ => ⟨S384, .f32⟩
  | .hbm, ⟨31, _⟩ => ⟨S1x384, .f32⟩
  | .hbm, ⟨32, _⟩ => ⟨S16384x1024, .f32⟩
  | .hbm, ⟨33, _⟩ => ⟨S16384x384, .f32⟩
  | .hbm, ⟨34, _⟩ => ⟨S8x2048x384, .f32⟩
  | .hbm, ⟨35, _⟩ => ⟨S8x2048x64, .f32⟩
  | .local _ .vmem, ⟨0, _⟩ => ⟨S2048x1024, .f32⟩
  | .local _ .vmem, ⟨1, _⟩ => ⟨S2048x1024, .f32⟩
  | .local _ .vmem, ⟨2, _⟩ => ⟨S1024x384, .bf16⟩
  | .local _ .vmem, ⟨3, _⟩ => ⟨S1x384, .f32⟩
  | .local _ .vmem, ⟨4, _⟩ => ⟨S2048x384, .f32⟩
  | .local _ .vmem, ⟨5, _⟩ => ⟨S2048x384, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x64, .f32⟩
  | .local _ .vmem, ⟨13, _⟩ => ⟨S1x256x64, .f32⟩
  | .local _ .vmem, ⟨14, _⟩ => ⟨S256x1, .f32⟩
  | .local _ .vmem, ⟨15, _⟩ => ⟨S256x1, .f32⟩
  | .local _ .vmem, ⟨16, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_c_4 : Ref sig .tc := ⟨.hbm, 22, rfl⟩
abbrev main_call5_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S64x1024_S128x1024_0640_000 : S64x1024.Pads (![0, 0] : Fin 2 → Nat) ![64, 0] ![0, 0] S128x1024
  h_S_ : 0 < S_.numel
  pads_S64_S128_0640 : S64.Pads (![0] : Fin 1 → Nat) ![64] ![0] S128
  transposes_S128x1024_S1024x128_1_0 : S128x1024.Transposes [1, 0] S1024x128
  concatenates_S1024x128_S1024x128_S1024x128_S1024x384_d1 : Shape.Concatenates [S1024x128, S1024x128, S1024x128] S1024x384 1
  bitsLt_bf16_f32 : FTy.bits .bf16 < FTy.bits .f32
  concatenates_S128_S128_S128_S384_d0 : Shape.Concatenates [S128, S128, S128] S384 0
  shapeCasts_S384_S1x384 : S384.ShapeCasts S1x384
  shapeCasts_S8x2048x1024_S16384x1024 : S8x2048x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  inb_S2048x384_S2048x384_0_0 : ∀ a, (![0, 0] : Fin 2 → Nat) a + S2048x384.size a ≤ S2048x384.size a
  h_S2048x384 : 0 < S2048x384.numel
  shapeCasts_S16384x384_S8x2048x384 : S16384x384.ShapeCasts S8x2048x384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  transposes_S256x128_p1_0_S128x256 : S256x128.Transposes [1, 0] S128x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x128 : S256x1.Broadcasts S256x128
  inb_S256x128_S256x64_0_0 : ∀ a, (![0, 0] : Fin 2 → Nat) a + S256x64.size a ≤ S256x128.size a
  h_S256x64 : 0 < S256x64.numel
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x384_S2048x384_1_0_0_1_n_n_wf : DotDims.WF S2048x1024 S1024x384 S2048x384 [1] [0] [0] [1] [] []
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x384.size a ≤ S16384x384.size a
  hwx0_3 : ∀ i : grid0.Coords, EltTy.bits .f32 = 32 ∨ (Rect.block (s := S16384x384) S2048x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S8x2048x384.size a
  hwx1_0 : ∀ i : grid1.Coords, EltTy.bits .f32 = 32 ∨ (Rect.block (s := S8x2048x384) S1x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S8x2048x384.size a
  hwx1_1 : ∀ i : grid1.Coords, EltTy.bits .f32 = 32 ∨ (Rect.block (s := S8x2048x384) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x2048x384.size a
  hwx1_2 : ∀ i : grid1.Coords, EltTy.bits .f32 = 32 ∨ (Rect.block (s := S8x2048x384) S1x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S8x2048x64.size a
  hwx1_3 : ∀ i : grid1.Coords, EltTy.bits .f32 = 32 ∨ (Rect.block (s := S8x2048x64) S1x256x64.size (cc1_transform_3 i) (hinb1_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v13) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S8x2048x64, .f32⟩
  | .hbm, ⟨8, _⟩ => ⟨S1x1x64, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .hbm, ⟨12, _⟩ => ⟨S1x1x64, .f32⟩
  | .hbm, ⟨13, _⟩ => ⟨S8x2048x64, .f32⟩
  | .hbm, ⟨14, _⟩ => ⟨S8x2048x64, .f32⟩
  | .hbm, ⟨15, _⟩ => ⟨S8x2048x64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .i1⟩
  | .hbm, ⟨33, _⟩ => ⟨S2048x2048, .i1⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.ProjRegionI.lean ====
/-
  The projection region (the first kernel launch) of the program, at a parameter `V`: the contents of the core's
  buffers when the region is entered. One grid point `t` of eight reads rows `2048 t … 2048 t + 2047` of the
  flattened activations (window 0), the whole concatenated weight matrix (window 1) and the whole concatenated
  bias row (window 2), and writes the same rows of the result (window 3): the matrix product plus the bias row
  broadcast down the rows. Stated for every float instance.
-/
import proofs.«156562_j19267223290409_2_alg».proof.Proof.Gen.KernelIdeal.Launch
import proofs.«156562_j19267223290409_2_alg».proof.Proof.Gen.KernelIdeal.Skeleton
import proofs.«156562_j19267223290409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section ProjRegion
variable (V : (c : Dev nD) → (b : Ref sig .tc) → Buf (Elt F) ((c : Thread nD τ).loc b))

/-- Window `w`'s block at grid point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (the
    block index did not move since the fetch). -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-- The whole-buffer rectangles the body loads and stores through. -/
abbrev pr0 : Rect S2048x1024 := Rect.unit (s := S2048x1024) ![0, 0] S2048x1024.size inb_S2048x1024_S2048x1024_0_0
abbrev pr1 : Rect S1024x384 := Rect.unit (s := S1024x384) ![0, 0] S1024x384.size inb_S1024x384_S1024x384_0_0
abbrev pr2 : Rect S1x384 := Rect.unit (s := S1x384) ![0, 0] S1x384.size inb_S1x384_S1x384_0_0
abbrev pr3 : Rect S2048x384 := Rect.unit (s := S2048x384) ![0, 0] S2048x384.size inb_S2048x384_S2048x384_0_0

/-- What the body leaves in the result window's buffer: its one whole-buffer store of the product plus bias. -/
def pout (x0 : Vec F S2048x1024 .f32) (x1 : Vec F S1024x384 .bf16) (x2 : Vec F S1x384 .f32) : Vec F S2048x384 .f32 :=
  View.canon [⟨pr3, k0_pay1 (View.ld x0 pr0) (View.ld x1 pr1) (View.ld x2 pr2)⟩]

theorem pcover (p0 : Vec F S2048x384 .f32) (y : S2048x384.Idx) :
    ∃ pc ∈ ([⟨pr3, p0⟩] : List (View.Piece (Elt F) S2048x384 .f32)), y ∈ pc.1.set :=
  View.cover_of_tiled [⟨pr3, p0⟩] S2048x384.size (by rfl) y

set_option maxHeartbeats 1000000 in
/-- The body on whole staging buffers: the three inputs are read and left as they were, the result buffer ends at
    `pout` of them. -/
theorem psound (c : Dev nD) (i : grid0.Coords) (E : Set ℕ) (arg1 : Memref sig .tc .vmem S2048x1024 .f32) (harg1 : arg1.IsWhole) (arg2 : Memref sig .tc .vmem S1024x384 .bf16) (harg2 : arg2.IsWhole)
    (arg3 : Memref sig .tc .vmem S1x384 .f32) (harg3 : arg3.IsWhole) (arg4 : Memref sig .tc .vmem S2048x384 .f32) (harg4 : arg4.IsWhole)
    (x0 : Vec F S2048x1024 .f32) (x1 : Vec F S1024x384 .bf16) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (pout x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (pcover _)

/-- The region's proof data: the arrays as found; after each point every input buffer at its block and the result
    buffer at `pout` of the three blocks; nothing carried between points. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pout (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]
theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) : (pdat V c).after 3 t = pout (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d)))

def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t))

theorem psound_body (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (psound c _ Set.univ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem pbody_obligation (c : Dev nD) : BodyObligation (pdat (F := F) V c) (defs₀ (F := F)) Variants.none () Set.univ := fun t => by
  rw [bigSep_W0, bigSep_W0]
  exact psound_body V c t

end ProjRegion

end Cert.KernelIdeal.Gen

end
-- ==== Proof.FlashSharedI.lean ====
/-
  The attention region (the second kernel launch), the part every control case shares, at a parameter `V`: the
  contents of the core's buffers when the region is entered. The grid is 8 × 8 × 8: batch entry `b`, query tile
  `qi`, key tile `ki` (innermost), each tile 256 positions. Windows 0, 1, 2 read the query tile `(b, qi)`, the
  key tile `(b, min ki qi)` and the value tile `(b, min ki qi)` out of ONE array (its three column groups of
  128); window 3 is the result tile `(b, qi)`, written back after `ki = 7`. The body branches three times on the
  coordinates: `ki = 0` (reset the running maximum, denominator and accumulator), `ki ≤ qi` (fold the key tile
  in), `ki = 7` (divide and store the result tile). Here: the blocks, the three conditions in closed form over
  the grid, where the result window is idle, and the buffers' names.
-/
import proofs.«156562_j19267223290409_2_alg».proof.Proof.Gen.KernelIdeal.Launch
import proofs.«156562_j19267223290409_2_alg».proof.Proof.Gen.KernelIdeal.Skeleton
import proofs.«156562_j19267223290409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Window `w`'s block at grid point `t`, read off its array as the region finds it. -/
def fblk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (V : (c : Dev nD) → (b : Ref sig .tc) → Buf (Elt F) ((c : Thread nD τ).loc b))

/-- An input window's staging buffer holds its block at every point, whether the point fetched it or not (an
    unfetched point has the block index of the point before it). -/
theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
theorem fbefore2_of {c : Dev nD} (dat : Dat τ (Elt F) Unit ℕ (UR sig nD τ) ℕ cfg1 c) (hA : dat.A 2 = V c (Pipeline.arrRef spec1 2))
    (hafter : ∀ t, dat.after 2 t = fblk V c 2 t) (t : Fin cfg1.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)
end

/-! ## The body's three conditions -/

/-- `ki = 0`: the first key tile of a query tile. -/
abbrev fc1 (i : grid1.Coords) : Prop := (Scalar.cmpi .ne (Scalar.extui (Scalar.cmpi .eq (BitVec.ofNat 32 (i 2).val) 0#32)) 0#32) = 1#1
/-- `ki ≤ qi`: the key tile is not wholly above the diagonal. -/
abbrev fc2 (i : grid1.Coords) : Prop := (Scalar.cmpi .ne (Scalar.extui (Scalar.cmpi .sle (BitVec.ofNat 32 (i 2).val) (BitVec.ofNat 32 (i 1).val))) 0#32) = 1#1
/-- `ki = 7`: the last key tile of a query tile. -/
abbrev fc3 (i : grid1.Coords) : Prop := k1_cond3 i = 1#1

/-- Over the grid's 512 points in order, point `t` has `ki = t % 8` and `qi = t / 8 % 8`. -/
theorem hfc1 : ∀ t : Fin cfg1.N, fc1 (grid1.coords t) ↔ t.val % 8 = 0 :=
  (by decide +kernel : ∀ t : Fin grid1.N, fc1 (grid1.coords t) ↔ t.val % 8 = 0)
theorem hfc2 : ∀ t : Fin cfg1.N, fc2 (grid1.coords t) ↔ t.val % 8 ≤ t.val / 8 % 8 :=
  (by decide +kernel : ∀ t : Fin grid1.N, fc2 (grid1.coords t) ↔ t.val % 8 ≤ t.val / 8 % 8)
theorem hfc3 : ∀ t : Fin cfg1.N, fc3 (grid1.coords t) ↔ t.val % 8 = 7 :=
  (by decide +kernel : ∀ t : Fin grid1.N, fc3 (grid1.coords t) ↔ t.val % 8 = 7)

/-! ## Where the windows are idle -/

theorem fliveAt0 : ∀ t : Fin cfg1.N, cfg1.idle 0 (grid1.coords t) = false := by decide +kernel
theorem fliveAt1 : ∀ t : Fin cfg1.N, cfg1.idle 1 (grid1.coords t) = false := by decide +kernel
theorem fliveAt2 : ∀ t : Fin cfg1.N, cfg1.idle 2 (grid1.coords t) = false := by decide +kernel
/-- Where `ki ≠ 7` the result window is idle and is not written back. -/
theorem fidleAt3 : ∀ t : Fin cfg1.N, ¬fc3 (grid1.coords t) → cfg1.idle 3 (grid1.coords t) = true := by decide +kernel
theorem fnoFlush3 : ∀ t : Fin cfg1.N, ¬fc3 (grid1.coords t) → (cfg1.win 3).flush t = false := by decide +kernel
/-- Where `ki = 7` it is stored and written back. -/
theorem fliveAt3 : ∀ t : Fin cfg1.N, fc3 (grid1.coords t) → cfg1.idle 3 (grid1.coords t) = false := by decide +kernel

/-! ## The buffers -/

/-- Each window's current staging buffer at point `t`, as the body is handed it. -/
abbrev fm0 (t : Fin cfg1.N) : Memref sig .tc .vmem S1x256x128 .f32 := win1_0.stage (cfg1.slots t 0)
abbrev fh0 (t : Fin cfg1.N) : (fm0 t).IsWhole := hstage1_0 ((cfg1.slots t 0).cast nbuf1_0)
abbrev fm1 (t : Fin cfg1.N) : Memref sig .tc .vmem S1x256x128 .f32 := win1_1.stage (cfg1.slots t 1)
abbrev fh1 (t : Fin cfg1.N) : (fm1 t).IsWhole := hstage1_1 ((cfg1.slots t 1).cast nbuf1_1)
abbrev fm2 (t : Fin cfg1.N) : Memref sig .tc .vmem S1x256x128 .f32 := win1_2.stage (cfg1.slots t 2)
abbrev fh2 (t : Fin cfg1.N) : (fm2 t).IsWhole := hstage1_2 ((cfg1.slots t 2).cast nbuf1_2)
abbrev fm3 (t : Fin cfg1.N) : Memref sig .tc .vmem S1x256x64 .f32 := win1_3.stage (cfg1.slots t 3)
abbrev fh3 (t : Fin cfg1.N) : (fm3 t).IsWhole := hstage1_3 ((cfg1.slots t 3).cast nbuf1_3)
/-- The three buffers the body keeps between points: the running row maximum, the running denominator, the
    running accumulator. -/
abbrev scMax : Memref sig .tc .vmem S256x1 .f32 := Memref.whole cc1_scratch0
abbrev scDen : Memref sig .tc .vmem S256x1 .f32 := Memref.whole cc1_scratch1
abbrev scAcc : Memref sig .tc .vmem S256x128 .f32 := Memref.whole cc1_scratch2
/-- One staging buffer of the result window, through which its contents are stated. -/
abbrev VO3 : View sig .tc .vmem S1x256x64 .f32 := (Memref.whole cc1_stg3_0 : Memref sig .tc .vmem S1x256x64 .f32).view

/-- What the region holds beside its windows: the other launch's staging buffers and the three carried buffers, each
    at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest1_eq]; simp only [scMax, scDen, scAcc, owns_whole]; try rfl

end Cert.KernelIdeal.Gen

end
-- ==== Proof.FlashRunAI.lean ====
/-
  The attention body in control case A: `ki = 0` holds, `ki ≤ qi` holds, `ki = 7` fails.
  On whole staging buffers holding the query, key and value tiles, the body runs to its end;
  what it stores into the carried buffers is found as lists of stored pieces, last first.
-/
import proofs.«156562_j19267223290409_2_alg».proof.Proof.FlashSharedI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def flashRunA (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : fc1 i) (hc2 : fc2 i) (hc3 : ¬fc3 i)
    (x0 : Vec F S1x256x128 .f32) (x1 : Vec F S1x256x128 .f32) (x2 : Vec F S1x256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.FlashRunBI.lean ====
/-
  The attention body in control case B: `ki = 0` fails, `ki ≤ qi` holds, `ki = 7` fails.
  On whole staging buffers holding the query, key and value tiles and the three carried buffers at what the point before left, the body runs to its end;
  what it stores into the carried buffers is found as lists of stored pieces, last first.
-/
import proofs.«156562_j19267223290409_2_alg».proof.Proof.FlashSharedI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def flashRunB (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : fc2 i) (hc3 : ¬fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.FlashRunCI.lean ====
/-
  The attention body in control case C: `ki = 0` fails, `ki ≤ qi` holds, `ki = 7` holds.
  On whole staging buffers holding the query, key and value tiles and the three carried buffers at what the point before left, the body runs to its end;
  what it stores into the carried buffers and the result tile is found as lists of stored pieces, last first.
-/
import proofs.«156562_j19267223290409_2_alg».proof.Proof.FlashSharedI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def flashRunC (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : fc2 i) (hc3 : fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.FlashRunDI.lean ====
/-
  The attention body in control case D: `ki = 0` fails, `ki ≤ qi` fails, `ki = 7` fails.
  On whole staging buffers holding the query, key and value tiles and the three carried buffers at what the point before left, the body runs to its end;
  what it stores into no carried buffer is found as lists of stored pieces, last first.
-/
import proofs.«156562_j19267223290409_2_alg».proof.Proof.FlashSharedI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def flashRunD (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : ¬fc2 i) (hc3 : ¬fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], [], [], [], fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Gen

end
-- ==== Proof.FlashRunEI.lean ====
/-
  The attention body in control case E: `ki = 0` fails, `ki ≤ qi` fails, `ki = 7` holds.
  On whole staging buffers holding the query, key and value tiles and the three carried buffers at what the point before left, the body runs to its end;
  what it stores into no carried buffer and the result tile is found as lists of stored pieces, last first.
-/
import proofs.«156562_j19267223290409_2_alg».proof.Proof.FlashSharedI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def flashRunE (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : ¬fc2 i) (hc3 : fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, [], [], [], fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Gen

end
-- ==== Proof.FlashFrameI.lean ====
/-
  The attention region's bookkeeping over its 512 grid points, at the entry contents `V`: what the three carried
  buffers (running maximum, running denominator, running accumulator) and the result tile's buffer hold after
  each point, by recursion on the point — a point with `ki = 0` starts from anything and resets, a point with
  `ki ≤ qi` folds its key tile into what the point before left, a point with `ki > qi` leaves everything as it
  was, and a point with `ki = 7` also stores the result tile —; the region's invariant between points; and the
  body's run at a generic point, by cases on the three conditions.
-/
import proofs.«156562_j19267223290409_2_alg».proof.Proof.FlashRunAI
import proofs.«156562_j19267223290409_2_alg».proof.Proof.FlashRunBI
import proofs.«156562_j19267223290409_2_alg».proof.Proof.FlashRunCI
import proofs.«156562_j19267223290409_2_alg».proof.Proof.FlashRunDI
import proofs.«156562_j19267223290409_2_alg».proof.Proof.FlashRunEI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The five control cases the grid meets -/

theorem fcaseA (t : Fin cfg1.N) (h1 : t.val % 8 = 0) : fc1 (grid1.coords t) ∧ fc2 (grid1.coords t) ∧ ¬fc3 (grid1.coords t) :=
  ⟨(hfc1 t).mpr h1, (hfc2 t).mpr (by omega), fun h => by have := (hfc3 t).mp h; omega⟩
theorem fcaseB (t : Fin cfg1.N) (h1 : ¬t.val % 8 = 0) (h2 : t.val % 8 ≤ t.val / 8 % 8) (h3 : ¬t.val % 8 = 7) : ¬fc1 (grid1.coords t) ∧ fc2 (grid1.coords t) ∧ ¬fc3 (grid1.coords t) :=
  ⟨fun h => h1 ((hfc1 t).mp h), (hfc2 t).mpr h2, fun h => h3 ((hfc3 t).mp h)⟩
theorem fcaseC (t : Fin cfg1.N) (h1 : ¬t.val % 8 = 0) (h2 : t.val % 8 ≤ t.val / 8 % 8) (h3 : t.val % 8 = 7) : ¬fc1 (grid1.coords t) ∧ fc2 (grid1.coords t) ∧ fc3 (grid1.coords t) :=
  ⟨fun h => h1 ((hfc1 t).mp h), (hfc2 t).mpr h2, (hfc3 t).mpr h3⟩
theorem fcaseD (t : Fin cfg1.N) (h1 : ¬t.val % 8 = 0) (h2 : ¬t.val % 8 ≤ t.val / 8 % 8) (h3 : ¬t.val % 8 = 7) : ¬fc1 (grid1.coords t) ∧ ¬fc2 (grid1.coords t) ∧ ¬fc3 (grid1.coords t) :=
  ⟨fun h => h1 ((hfc1 t).mp h), fun h => h2 ((hfc2 t).mp h), fun h => h3 ((hfc3 t).mp h)⟩
theorem fcaseE (t : Fin cfg1.N) (h1 : ¬t.val % 8 = 0) (h2 : ¬t.val % 8 ≤ t.val / 8 % 8) (h3 : t.val % 8 = 7) : ¬fc1 (grid1.coords t) ∧ ¬fc2 (grid1.coords t) ∧ fc3 (grid1.coords t) :=
  ⟨fun h => h1 ((hfc1 t).mp h), fun h => h2 ((hfc2 t).mp h), (hfc3 t).mpr h3⟩

/-! ## What a case leaves in each buffer: its stored pieces read back -/

/-- The carried buffers as views. -/
abbrev VSmax : View sig .tc .vmem S256x1 .f32 := scMax.view
abbrev VSden : View sig .tc .vmem S256x1 .f32 := scDen.view
abbrev VSacc : View sig .tc .vmem S256x128 .f32 := scAcc.view

/-- The four buffers' contents after a point: result tile, running maximum, running denominator, running accumulator. -/
abbrev FState (F : FTy → Type) [FloatOps F] : Type := Vec F S1x256x64 .f32 × Vec F S256x1 .f32 × Vec F S256x1 .f32 × Vec F S256x128 .f32

/-- The result tile's buffer at a point that does not store it: not consulted (the window is idle there). -/
def fjunk3 : Vec F S1x256x64 .f32 := VO3.read (Elt F) (VO3.writes (Elt F) VO3.junk [])

section
variable (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole)
variable (x0 : Vec F S1x256x128 .f32) (x1 : Vec F S1x256x128 .f32) (x2 : Vec F S1x256x128 .f32)

def fstA (hc1 : fc1 i) (hc2 : fc2 i) (hc3 : ¬fc3 i) : FState F :=
  (fjunk3,
   VSmax.read (Elt F) (VSmax.writes (Elt F) VSmax.junk (flashRunA c i arg3 harg3 arg4 harg4 arg5 harg5 arg6 harg6 arg7 harg7 arg8 harg8 arg9 harg9 hc1 hc2 hc3 x0 x1 x2).2.1),
   VSden.read (Elt F) (VSden.writes (Elt F) VSden.junk (flashRunA c i arg3 harg3 arg4 harg4 arg5 harg5 arg6 harg6 arg7 harg7 arg8 harg8 arg9 harg9 hc1 hc2 hc3 x0 x1 x2).2.2.1),
   VSacc.read (Elt F) (VSacc.writes (Elt F) VSacc.junk (flashRunA c i arg3 harg3 arg4 harg4 arg5 harg5 arg6 harg6 arg7 harg7 arg8 harg8 arg9 harg9 hc1 hc2 hc3 x0 x1 x2).2.2.2.1))
def fstB (hc1 : ¬fc1 i) (hc2 : fc2 i) (hc3 : ¬fc3 i) (s : FState F) : FState F :=
  (fjunk3,
   VSmax.read (Elt F) (VSmax.writes (Elt F) VSmax.junk (flashRunB c i arg3 harg3 arg4 harg4 arg5 harg5 arg6 harg6 arg7 harg7 arg8 harg8 arg9 harg9 hc1 hc2 hc3 x0 x1 x2 s.2.1 s.2.2.1 s.2.2.2).2.1),
   VSden.read (Elt F) (VSden.writes (Elt F) VSden.junk (flashRunB c i arg3 harg3 arg4 harg4 arg5 harg5 arg6 harg6 arg7 harg7 arg8 harg8 arg9 harg9 hc1 hc2 hc3 x0 x1 x2 s.2.1 s.2.2.1 s.2.2.2).2.2.1),
   VSacc.read (Elt F) (VSacc.writes (Elt F) VSacc.junk (flashRunB c i arg3 harg3 arg4 harg4 arg5 harg5 arg6 harg6 arg7 harg7 arg8 harg8 arg9 harg9 hc1 hc2 hc3 x0 x1 x2 s.2.1 s.2.2.1 s.2.2.2).2.2.2.1))
def fstC (hc1 : ¬fc1 i) (hc2 : fc2 i) (hc3 : fc3 i) (s : FState F) : FState F :=
  (VO3.read (Elt F) (VO3.writes (Elt F) VO3.junk (flashRunC c i arg3 harg3 arg4 harg4 arg5 harg5 arg6 harg6 arg7 harg7 arg8 harg8 arg9 harg9 hc1 hc2 hc3 x0 x1 x2 s.2.1 s.2.2.1 s.2.2.2).1),
   VSmax.read (Elt F) (VSmax.writes (Elt F) VSmax.junk (flashRunC c i arg3 harg3 arg4 harg4 arg5 harg5 arg6 harg6 arg7 harg7 arg8 harg8 arg9 harg9 hc1 hc2 hc3 x0 x1 x2 s.2.1 s.2.2.1 s.2.2.2).2.1),
   VSden.read (Elt F) (VSden.writes (Elt F) VSden.junk (flashRunC c i arg3 harg3 arg4 harg4 arg5 harg5 arg6 harg6 arg7 harg7 arg8 harg8 arg9 harg9 hc1 hc2 hc3 x0 x1 x2 s.2.1 s.2.2.1 s.2.2.2).2.2.1),
   VSacc.read (Elt F) (VSacc.writes (Elt F) VSacc.junk (flashRunC c i arg3 harg3 arg4 harg4 arg5 harg5 arg6 harg6 arg7 harg7 arg8 harg8 arg9 harg9 hc1 hc2 hc3 x0 x1 x2 s.2.1 s.2.2.1 s.2.2.2).2.2.2.1))
def fstD (s : FState F) : FState F := (fjunk3, s.2.1, s.2.2.1, s.2.2.2)
def fstE (hc1 : ¬fc1 i) (hc2 : ¬fc2 i) (hc3 : fc3 i) (s : FState F) : FState F :=
  (VO3.read (Elt F) (VO3.writes (Elt F) VO3.junk (flashRunE c i arg3 harg3 arg4 harg4 arg5 harg5 arg6 harg6 arg7 harg7 arg8 harg8 arg9 harg9 hc1 hc2 hc3 x0 x1 x2 s.2.1 s.2.2.1 s.2.2.2).1), s.2.1, s.2.2.1, s.2.2.2)

/-- A case's stored pieces tile the buffer they go into, so they cover it. -/
theorem fcovA0 (hc1 : fc1 i) (hc2 : fc2 i) (hc3 : ¬fc3 i) (y : S256x1.Idx) : ∃ pc ∈ (flashRunA c i arg3 harg3 arg4 harg4 arg5 harg5 arg6 harg6 arg7 harg7 arg8 harg8 arg9 harg9 hc1 hc2 hc3 x0 x1 x2).2.1, y ∈ pc.1.set :=
  View.cover_of_tiledL _ S256x1.size (by sl_kernel_rfl) y
theorem fcovA1 (hc1 : fc1 i) (hc2 : fc2 i) (hc3 : ¬fc3 i) (y : S256x1.Idx) : ∃ pc ∈ (flashRunA c i arg3 harg3 arg4 harg4 arg5 harg5 arg6 harg6 arg7 harg7 arg8 harg8 arg9 harg9 hc1 hc2 hc3 x0 x1 x2).2.2.1, y ∈ pc.1.set :=
  View.cover_of_tiledL _ S256x1.size (by sl_kernel_rfl) y
theorem fcovA2 (hc1 : fc1 i) (hc2 : fc2 i) (hc3 : ¬fc3 i) (y : S256x128.Idx) : ∃ pc ∈ (flashRunA c i arg3 harg3 arg4 harg4 arg5 harg5 arg6 harg6 arg7 harg7 arg8 harg8 arg9 harg9 hc1 hc2 hc3 x0 x1 x2).2.2.2.1, y ∈ pc.1.set :=
  View.cover_of_tiledL _ S256x128.size (by sl_kernel_rfl) y
variable (xs0 : Vec F S256x1 .f32) (xs1 : Vec F S256x1 .f32) (xs2 : Vec F S256x128 .f32)
theorem fcovB0 (hc1 : ¬fc1 i) (hc2 : fc2 i) (hc3 : ¬fc3 i) (y : S256x1.Idx) : ∃ pc ∈ (flashRunB c i arg3 harg3 arg4 harg4 arg5 harg5 arg6 harg6 arg7 harg7 arg8 harg8 arg9 harg9 hc1 hc2 hc3 x0 x1 x2 xs0 xs1 xs2).2.1, y ∈ pc.1.set :=
  View.cover_of_tiledL _ S256x1.size (by sl_kernel_rfl) y
theorem fcovB1 (hc1 : ¬fc1 i) (hc2 : fc2 i) (hc3 : ¬fc3 i) (y : S256x1.Idx) : ∃ pc ∈ (flashRunB c i arg3 harg3 arg4 harg4 arg5 harg5 arg6 harg6 arg7 harg7 arg8 harg8 arg9 harg9 hc1 hc2 hc3 x0 x1 x2 xs0 xs1 xs2).2.2.1, y ∈ pc.1.set :=
  View.cover_of_tiledL _ S256x1.size (by sl_kernel_rfl) y
theorem fcovB2 (hc1 : ¬fc1 i) (hc2 : fc2 i) (hc3 : ¬fc3 i) (y : S256x128.Idx) : ∃ pc ∈ (flashRunB c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL _ S256x128.size (by sl_kernel_rfl) y
theorem fcovC0 (hc1 : ¬fc1 i) (hc2 : fc2 i) (hc3 : fc3 i) (y : S256x1.Idx) : ∃ pc ∈ (flashRunC c i arg3 harg3 arg4 harg4 arg5 harg5 arg6 harg6 arg7 harg7 arg8 harg8 arg9 harg9 hc1 hc2 hc3 x0 x1 x2 xs0 xs1 xs2).2.1, y ∈ pc.1.set :=
  View.cover_of_tiledL _ S256x1.size (by sl_kernel_rfl) y
theorem fcovC1 (hc1 : ¬fc1 i) (hc2 : fc2 i) (hc3 : fc3 i) (y : S256x1.Idx) : ∃ pc ∈ (flashRunC c i arg3 harg3 arg4 harg4 arg5 harg5 arg6 harg6 arg7 harg7 arg8 harg8 arg9 harg9 hc1 hc2 hc3 x0 x1 x2 xs0 xs1 xs2).2.2.1, y ∈ pc.1.set :=
  View.cover_of_tiledL _ S256x1.size (by sl_kernel_rfl) y
theorem fcovC2 (hc1 : ¬fc1 i) (hc2 : fc2 i) (hc3 : fc3 i) (y : S256x128.Idx) : ∃ pc ∈ (flashRunC c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL _ S256x128.size (by sl_kernel_rfl) y
theorem fcovC3 (hc1 : ¬fc1 i) (hc2 : fc2 i) (hc3 : fc3 i) (y : S1x256x64.Idx) : ∃ pc ∈ (flashRunC c i arg3 harg3 arg4 harg4 arg5 harg5 arg6 harg6 arg7 harg7 arg8 harg8 arg9 harg9 hc1 hc2 hc3 x0 x1 x2 xs0 xs1 xs2).1, y ∈ pc.1.set :=
  View.cover_of_tiledL _ S1x256x64.size (by sl_kernel_rfl) y
theorem fcovE3 (hc1 : ¬fc1 i) (hc2 : ¬fc2 i) (hc3 : fc3 i) (y : S1x256x64.Idx) : ∃ pc ∈ (flashRunE c i arg3 harg3 arg4 harg4 arg5 harg5 arg6 harg6 arg7 harg7 arg8 harg8 arg9 harg9 hc1 hc2 hc3 x0 x1 x2 xs0 xs1 xs2).1, y ∈ pc.1.set :=
  View.cover_of_tiledL _ S1x256x64.size (by sl_kernel_rfl) y
end

/-! ## The buffers after each point -/

section
variable (V : (c : Dev nD) → (b : Ref sig .tc) → Buf (Elt F) ((c : Thread nD τ).loc b))

/-- THE RECURSION over the grid's points in order. -/
def fstate (c : Dev nD) : (n : ℕ) → n < cfg1.N → FState F
  | 0, hn => fstA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scDen (Memref.isWhole_whole _) scAcc (Memref.isWhole_whole _) (fblk V c 0 ⟨0, hn⟩) (fblk V c 1 ⟨0, hn⟩) (fblk V c 2 ⟨0, hn⟩) (fcaseA ⟨0, hn⟩ (Nat.zero_mod _)).1 (fcaseA ⟨0, hn⟩ (Nat.zero_mod _)).2.1 (fcaseA ⟨0, hn⟩ (Nat.zero_mod _)).2.2
  | n + 1, hn =>
    if h1 : (n + 1) % 8 = 0 then
      fstA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseA ⟨n + 1, hn⟩ h1).1 (fcaseA ⟨n + 1, hn⟩ h1).2.1 (fcaseA ⟨n + 1, hn⟩ h1).2.2
    else if h2 : (n + 1) % 8 ≤ (n + 1) / 8 % 8 then
      if h3 : (n + 1) % 8 = 7 then
        fstC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseC ⟨n + 1, hn⟩ h1 h2 h3).1 (fcaseC ⟨n + 1, hn⟩ h1 h2 h3).2.1 (fcaseC ⟨n + 1, hn⟩ h1 h2 h3).2.2 (fstate c n (Nat.lt_of_succ_lt hn))
      else
        fstB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseB ⟨n + 1, hn⟩ h1 h2 h3).1 (fcaseB ⟨n + 1, hn⟩ h1 h2 h3).2.1 (fcaseB ⟨n + 1, hn⟩ h1 h2 h3).2.2 (fstate c n (Nat.lt_of_succ_lt hn))
    else
      if h3 : (n + 1) % 8 = 7 then
        fstE c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseE ⟨n + 1, hn⟩ h1 h2 h3).1 (fcaseE ⟨n + 1, hn⟩ h1 h2 h3).2.1 (fcaseE ⟨n + 1, hn⟩ h1 h2 h3).2.2 (fstate c n (Nat.lt_of_succ_lt hn))
      else
        fstD (fstate c n (Nat.lt_of_succ_lt hn))

/-- The state before point `t` when `t` is not the first point. -/
abbrev fprev (c : Dev nD) (t : Fin cfg1.N) : FState F := fstate V c (t.val - 1) (Nat.lt_of_le_of_lt (Nat.sub_le _ _) t.isLt)

theorem fstate_A (c : Dev nD) (t : Fin cfg1.N) (h1 : t.val % 8 = 0) :
    fstate V c t.val t.isLt = fstA c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseA t h1).1 (fcaseA t h1).2.1 (fcaseA t h1).2.2 := by
  obtain ⟨n, hn⟩ := t
  cases n with
  | zero => rfl
  | succ n => exact (dif_pos h1).trans rfl
theorem fstate_B (c : Dev nD) (t : Fin cfg1.N) (h1 : ¬t.val % 8 = 0) (h2 : t.val % 8 ≤ t.val / 8 % 8) (h3 : ¬t.val % 8 = 7) :
    fstate V c t.val t.isLt = fstB c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseB t h1 h2 h3).1 (fcaseB t h1 h2 h3).2.1 (fcaseB t h1 h2 h3).2.2 (fprev V c t) := by
  obtain ⟨n, hn⟩ := t
  cases n with
  | zero => exact absurd (Nat.zero_mod _) h1
  | succ n => exact (dif_neg h1).trans ((dif_pos h2).trans ((dif_neg h3).trans rfl))
theorem fstate_C (c : Dev nD) (t : Fin cfg1.N) (h1 : ¬t.val % 8 = 0) (h2 : t.val % 8 ≤ t.val / 8 % 8) (h3 : t.val % 8 = 7) :
    fstate V c t.val t.isLt = fstC c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseC t h1 h2 h3).1 (fcaseC t h1 h2 h3).2.1 (fcaseC t h1 h2 h3).2.2 (fprev V c t) := by
  obtain ⟨n, hn⟩ := t
  cases n with
  | zero => exact absurd (Nat.zero_mod _) h1
  | succ n => exact (dif_neg h1).trans ((dif_pos h2).trans ((dif_pos h3).trans rfl))
theorem fstate_D (c : Dev nD) (t : Fin cfg1.N) (h1 : ¬t.val % 8 = 0) (h2 : ¬t.val % 8 ≤ t.val / 8 % 8) (h3 : ¬t.val % 8 = 7) :
    fstate V c t.val t.isLt = fstD (fprev V c t) := by
  obtain ⟨n, hn⟩ := t
  cases n with
  | zero => exact absurd (Nat.zero_mod _) h1
  | succ n => exact (dif_neg h1).trans ((dif_neg h2).trans ((dif_neg h3).trans rfl))
theorem fstate_E (c : Dev nD) (t : Fin cfg1.N) (h1 : ¬t.val % 8 = 0) (h2 : ¬t.val % 8 ≤ t.val / 8 % 8) (h3 : t.val % 8 = 7) :
    fstate V c t.val t.isLt = fstE c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseE t h1 h2 h3).1 (fcaseE t h1 h2 h3).2.1 (fcaseE t h1 h2 h3).2.2 (fprev V c t) := by
  obtain ⟨n, hn⟩ := t
  cases n with
  | zero => exact absurd (Nat.zero_mod _) h1
  | succ n => exact (dif_neg h1).trans ((dif_neg h2).trans ((dif_pos h3).trans rfl))

/-! ## The invariant between points -/

/-- The other launch's six staging buffers, each at some contents: never touched by this region. -/
def frest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_to (c : Dev nD) : (Pipeline.ΦA spec1 c : sProp 𝕄) ⊢ iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) := by
  rw [PhiA1_eq]; unfold frest6
  iintro ⟨⟨Ha, Hb, Hc, Hd, He, Hf, H0, H1, H2⟩, Hg⟩
  isplitl [Ha Hb Hc Hd He Hf]
  · isplitl [Ha]; · iexact Ha
    isplitl [Hb]; · iexact Hb
    isplitl [Hc]; · iexact Hc
    isplitl [Hd]; · iexact Hd
    isplitl [He]; · iexact He
    iexact Hf
  isplitl [H0]; · iexact H0
  isplitl [H1]; · iexact H1
  isplitl [H2]; · iexact H2
  iexact Hg
theorem PhiA1_of (c : Dev nD) : iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) ⊢ (Pipeline.ΦA spec1 c : sProp 𝕄) := by
  rw [PhiA1_eq]; unfold frest6
  iintro ⟨⟨Ha, Hb, Hc, Hd, He, Hf⟩, H0, H1, H2, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [H0]; · iexact H0
    isplitl [H1]; · iexact H1
    iexact H2
  iexact Hg

/-- Before the first point the carried buffers hold anything; after point `n` they hold `fstate … n`. -/
def fPhi (c : Dev nD) : (n : ℕ) → n ≤ cfg1.N → sProp 𝕄
  | 0, _ => Pipeline.ΦA spec1 c
  | n + 1, hn => iprop(frest6 (F := F) c ∗ owns (c : Thread nD τ) scMax fullShare (fstate V c n hn).2.1 ∗ owns (c : Thread nD τ) scDen fullShare (fstate V c n hn).2.2.1 ∗ owns (c : Thread nD τ) scAcc fullShare (fstate V c n hn).2.2.2 ∗ (∃ r, prngReg c r))

theorem fPhi_zero (c : Dev nD) (n : ℕ) (h : n ≤ cfg1.N) (hz : n = 0) : fPhi V c n h = Pipeline.ΦA spec1 c := by
  subst hz; rfl
theorem fPhi_succ (c : Dev nD) (n : ℕ) (hn : n < cfg1.N) :
    fPhi V c (n + 1) hn = iprop(frest6 (F := F) c ∗ owns (c : Thread nD τ) scMax fullShare (fstate V c n hn).2.1 ∗ owns (c : Thread nD τ) scDen fullShare (fstate V c n hn).2.2.1 ∗ owns (c : Thread nD τ) scAcc fullShare (fstate V c n hn).2.2.2 ∗ (∃ r, prngReg c r)) := rfl
theorem fPhi_pos (c : Dev nD) (n : ℕ) (h : n ≤ cfg1.N) (hz : n ≠ 0) :
    fPhi V c n h = iprop(frest6 (F := F) c ∗ owns (c : Thread nD τ) scMax fullShare (fstate V c (n - 1) (by omega)).2.1 ∗ owns (c : Thread nD τ) scDen fullShare (fstate V c (n - 1) (by omega)).2.2.1 ∗ owns (c : Thread nD τ) scAcc fullShare (fstate V c (n - 1) (by omega)).2.2.2 ∗ (∃ r, prngReg c r)) := by
  cases n with
  | zero => exact absurd rfl hz
  | succ n => rfl
/-- Whatever the point, the invariant holds the carried buffers at SOME contents. -/
theorem fPhi_any (c : Dev nD) (n : ℕ) (h : n ≤ cfg1.N) : fPhi V c n h ⊢ iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) := by
  by_cases hz : n = 0
  · rw [fPhi_zero V c n h hz]; exact PhiA1_to c
  · rw [fPhi_pos V c n h hz]
    iintro ⟨Hr, H0, H1, H2, Hg⟩
    isplitl [Hr]; · iexact Hr
    isplitl [H0]; · iexists _; iexact H0
    isplitl [H1]; · iexists _; iexact H1
    isplitl [H2]; · iexists _; iexact H2
    iexact Hg

/-! ## The proof data -/

def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => (fstate V c t.val t.isLt).1
  Φ t := fPhi V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem fA_eq (c : Dev nD) (w : Fin cfg1.W) : (fdat V c).A w = V c (Pipeline.arrRef spec1 w) := by
  dsimp only [fdat]
theorem fPhi_castSucc (c : Dev nD) (t : Fin cfg1.N) : (fdat V c).Φ t.castSucc = fPhi V c t.val (Nat.le_of_lt t.isLt) := by
  dsimp only [fdat]; simp only [Fin.coe_castSucc]
theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = fblk V c 2 t := by dsimp only [fdat]
theorem fafter3 (c : Dev nD) (t : Fin cfg1.N) : (fdat V c).after 3 t = (fstate V c t.val t.isLt).1 := by dsimp only [fdat]
theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
theorem fbefore2 (c : Dev nD) (t : Fin cfg1.N) (d) : (fdat V c).before 2 t d = fblk V c 2 t :=
  fbefore2_of V (fdat V c) (fA_eq V c 2) (fafter2 V c) t d

/-! ## The body at a generic point -/

def fbodyPre (c : Dev nD) (t : Fin cfg1.N) : sProp 𝕄 :=
  iprop((fdat V c).Φ t.castSucc ∗ (fdat V c).owesAt () t.castSucc
    ∗ (∃ d, owns (c : Thread nD τ) (fm0 t) fullShare ((fdat V c).before 0 t d))
    ∗ (∃ d, owns (c : Thread nD τ) (fm1 t) fullShare ((fdat V c).before 1 t d))
    ∗ (∃ d, owns (c : Thread nD τ) (fm2 t) fullShare ((fdat V c).before 2 t d))
    ∗ (∃ d, owns (c : Thread nD τ) (fm3 t) fullShare ((fdat V c).before 3 t d)))

def fbodyPost (c : Dev nD) (t : Fin cfg1.N) : sProp 𝕄 :=
  iprop((fdat V c).Φ t.succ ∗ (fdat V c).owesAt () t.succ
    ∗ (fdat V c).leavesExact 0 t
    ∗ (fdat V c).leavesExact 1 t
    ∗ (fdat V c).leavesExact 2 t
    ∗ (fdat V c).leavesExact 3 t)

theorem fleaves0 (c : Dev nD) (t : Fin cfg1.N) : (fdat V c).leavesExact 0 t = owns (c : Thread nD τ) (fm0 t) fullShare (fblk V c 0 t) := by
  unfold Dat.leavesExact; rw [fliveAt0 t, fafter0]
theorem fleaves1 (c : Dev nD) (t : Fin cfg1.N) : (fdat V c).leavesExact 1 t = owns (c : Thread nD τ) (fm1 t) fullShare (fblk V c 1 t) := by
  unfold Dat.leavesExact; rw [fliveAt1 t, fafter1]
theorem fleaves2 (c : Dev nD) (t : Fin cfg1.N) : (fdat V c).leavesExact 2 t = owns (c : Thread nD τ) (fm2 t) fullShare (fblk V c 2 t) := by
  unfold Dat.leavesExact; rw [fliveAt2 t, fafter2]
theorem fleaves3_idle (c : Dev nD) (t : Fin cfg1.N) (h : ¬fc3 (grid1.coords t)) :
    (fdat V c).leavesExact 3 t = iprop(∃ d, owns (c : Thread nD τ) (fm3 t) fullShare ((fdat V c).before 3 t d)) :=
  Dat.leavesExact_idle (fdat V c) 3 t (fidleAt3 t h) (fnoFlush3 t h)
theorem fleaves3_live (c : Dev nD) (t : Fin cfg1.N) (h : fc3 (grid1.coords t)) :
    (fdat V c).leavesExact 3 t = owns (c : Thread nD τ) (fm3 t) fullShare (fstate V c t.val t.isLt).1 := by
  unfold Dat.leavesExact; rw [fliveAt3 t h, fafter3]

end

end Cert.KernelIdeal.Gen

end
-- ==== Proof.FlashBodyI.lean ====
/-
  The attention body at a generic grid point: by cases on the point's three conditions, the case's run applies;
  the region's invariant hands it the three carried buffers at what the point before left (at anything when
  `ki = 0`) and takes them back at this point's contents; the result window's buffer is handed back untouched
  where `ki ≠ 7`.
-/
import proofs.«156562_j19267223290409_2_alg».proof.Proof.FlashFrameI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 8000000 in
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore0, fbefore1, fbefore2]
  rw [show (fdat V c).owesAt () t.succ = (fdat V c).owesAt () t.castSucc from rfl]
  rw [show (fdat V c).Φ t.succ = fPhi V c (t.val + 1) t.isLt from rfl, fPhi_succ]
  rw [fleaves0, fleaves1, fleaves2, fPhi_castSucc]
  by_cases h1 : t.val % 8 = 0
  · -- `ki = 0`
    rw [fleaves3_idle V c t (fcaseA t h1).2.2, fstate_A V c t h1]
    unfold fstA; (try dsimp only)
    iintro ⟨HΦ, Ho, ⟨%d0, H0⟩, ⟨%d1, H1⟩, ⟨%d2, H2⟩, ⟨%d3, H3⟩⟩
    ihave HΦ' := (fPhi_any V c _ _) $$ HΦ
    icases HΦ' with ⟨Hr, HS0, HS1, HS2, Hg⟩
    iapply ((flashRunA c (grid1.coords t) _ _ _ _ _ _ _ _ _ _ _ _ _ _ (fcaseA t h1).1 (fcaseA t h1).2.1 (fcaseA t h1).2.2 (fblk V c 0 t) (fblk V c 1 t) (fblk V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [Hr HS0 HS1 HS2 Hg]
    · isplitl [Hr]; · iexact Hr
      isplitl [HS0]
      · unfold owns; iexists _; isplitr
        swap; · iexact HS0
        ipureintro; exact View.read_writes_of_cover _ _ _ _ _ (fcovA0 _ _ _ _ _ _ _ _ _ _ _ _ _ _ _ _ _ _ _ _ _ _)
      isplitl [HS1]
      · unfold owns; iexists _; isplitr
        swap; · iexact HS1
        ipureintro; exact View.read_writes_of_cover _ _ _ _ _ (fcovA1 _ _ _ _ _ _ _ _ _ _ _ _ _ _ _ _ _ _ _ _ _ _)
      isplitl [HS2]
      · unfold owns; iexists _; isplitr
        swap; · iexact HS2
        ipureintro; exact View.read_writes_of_cover _ _ _ _ _ (fcovA2 _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

  · have hz : t.val ≠ 0 := fun e => h1 (by rw [e])
    by_cases h2 : t.val % 8 ≤ t.val / 8 % 8
    · by_cases h3 : t.val % 8 = 7
      · -- `0 < ki ≤ qi`, `ki = 7`
        rw [fleaves3_live V c t (fcaseC t h1 h2 h3).2.2, fstate_C V c t h1 h2 h3]
        unfold fstC; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunC c (grid1.coords t) _ _ _ _ _ _ _ _ _ _ _ _ _ _ (fcaseC t h1 h2 h3).1 (fcaseC t h1 h2 h3).2.1 (fcaseC t h1 h2 h3).2.2 (fblk V c 0 t) (fblk V c 1 t) (fblk V c 2 t) (fprev V c t).2.1 (fprev V c t).2.2.1 (fprev V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Hr HS0 HS1 HS2 Hg]
        · isplitl [Hr]; · iexact Hr
          isplitl [HS0]
          · unfold owns; iexists _; isplitr
            swap; · iexact HS0
            ipureintro; exact View.read_writes_of_cover _ _ _ _ _ (fcovC0 _ _ _ _ _ _ _ _ _ _ _ _ _ _ _ _ _ _ _ _ _ _ _ _ _)
          isplitl [HS1]
          · unfold owns; iexists _; isplitr
            swap; · iexact HS1
            ipureintro; exact View.read_writes_of_cover _ _ _ _ _ (fcovC1 _ _ _ _ _ _ _ _ _ _ _ _ _ _ _ _ _ _ _ _ _ _ _ _ _)
          isplitl [HS2]
          · unfold owns; iexists _; isplitr
            swap; · iexact HS2
            ipureintro; exact View.read_writes_of_cover _ _ _ _ _ (fcovC2 _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (fcovC3 _ _ _ _ _ _ _ _ _ _ _ _ _ _ _ _ _ _ _ _ _ _ _ _ _)

      · -- `0 < ki ≤ qi`, `ki < 7`
        rw [fleaves3_idle V c t (fcaseB t h1 h2 h3).2.2, fstate_B V c t h1 h2 h3]
        unfold fstB; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunB c (grid1.coords t) _ _ _ _ _ _ _ _ _ _ _ _ _ _ (fcaseB t h1 h2 h3).1 (fcaseB t h1 h2 h3).2.1 (fcaseB t h1 h2 h3).2.2 (fblk V c 0 t) (fblk V c 1 t) (fblk V c 2 t) (fprev V c t).2.1 (fprev V c t).2.2.1 (fprev V c t).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [Hr HS0 HS1 HS2 Hg]
        · isplitl [Hr]; · iexact Hr
          isplitl [HS0]
          · unfold owns; iexists _; isplitr
            swap; · iexact HS0
            ipureintro; exact View.read_writes_of_cover _ _ _ _ _ (fcovB0 _ _ _ _ _ _ _ _ _ _ _ _ _ _ _ _ _ _ _ _ _ _ _ _ _)
          isplitl [HS1]
          · unfold owns; iexists _; isplitr
            swap; · iexact HS1
            ipureintro; exact View.read_writes_of_cover _ _ _ _ _ (fcovB1 _ _ _ _ _ _ _ _ _ _ _ _ _ _ _ _ _ _ _ _ _ _ _ _ _)
          isplitl [HS2]
          · unfold owns; iexists _; isplitr
            swap; · iexact HS2
            ipureintro; exact View.read_writes_of_cover _ _ _ _ _ (fcovB2 _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

    · by_cases h3 : t.val % 8 = 7
      · -- `ki > qi`, `ki = 7`
        rw [fleaves3_live V c t (fcaseE t h1 h2 h3).2.2, fstate_E V c t h1 h2 h3]
        unfold fstE; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunE c (grid1.coords t) _ _ _ _ _ _ _ _ _ _ _ _ _ _ (fcaseE t h1 h2 h3).1 (fcaseE t h1 h2 h3).2.1 (fcaseE t h1 h2 h3).2.2 (fblk V c 0 t) (fblk V c 1 t) (fblk V c 2 t) (fprev V c t).2.1 (fprev V c t).2.2.1 (fprev V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hr HS0 HS1 HS2 Hg]
        · isplitl [Hr]; · iexact Hr
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (fcovE3 _ _ _ _ _ _ _ _ _ _ _ _ _ _ _ _ _ _ _ _ _ _ _ _ _)

      · -- `ki > qi`, `ki < 7`
        rw [fleaves3_idle V c t (fcaseD t h1 h2 h3).2.2, fstate_D V c t h1 h2 h3]
        unfold fstD; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunD c (grid1.coords t) _ _ _ _ _ _ _ _ _ _ _ _ _ _ (fcaseD t h1 h2 h3).1 (fcaseD t h1 h2 h3).2.1 (fcaseD t h1 h2 h3).2.2 (fblk V c 0 t) (fblk V c 1 t) (fblk V c 2 t) (fprev V c t).2.1 (fprev V c t).2.2.1 (fprev V c t).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Hr HS0 HS1 HS2 Hg]
        · isplitl [Hr]; · iexact Hr
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

theorem fbody_obligation (c : Dev nD) : BodyObligation (fdat (F := F) V c) (defs₀ (F := F)) Variants.none () Set.univ := fun t => by
  rw [bigSep_W1, bigSep_W1]
  exact fsound_body V c t

/-- What the launch hands the region is the invariant before the first point. -/
theorem fhin (c : Dev nD) : Pipeline.ΦA spec1 c ⊢ (fdat V c).Φ 0 := by
  rw [show (fdat V c).Φ 0 = fPhi V c 0 (Nat.zero_le _) from rfl, fPhi_zero V c 0 _ rfl]
  try exact Idealize.SL.BI.Entails.refl _

/-- After the last point the invariant gives the launch's form back: the carried buffers' contents are forgotten. -/
theorem fhout (c : Dev nD) : (fdat V c).Φ (Fin.last cfg1.N) ⊢ Pipeline.ΦA spec1 c := by
  have e : (fdat V c).Φ (Fin.last cfg1.N) = fPhi V c (Fin.last cfg1.N).val (Nat.le_of_lt_succ (Fin.last cfg1.N).isLt) := by
    dsimp only [fdat]
  rw [e]
  exact (fPhi_any V c _ _).trans (PhiA1_of c)

end Cert.KernelIdeal.Gen

end
-- ==== Proof.RunDataI.lean ====
/-
  The whole program as a run: host operations (zero-padding the three weight matrices and biases from 64 to 128
  rows, transposing and concatenating them, flattening the activations), the projection region, one reshape, the
  attention region. The buffer contents at each boundary are a fold from the launch memory; the projection region
  leaves its result array at what its eight row blocks write back, the attention region leaves its result array at
  what its sixty-four tiles write back, and no step writes an argument array. The attention region reads ONE
  array through three windows: the array is split into three shares on entry and joined again on exit.
-/
import proofs.«156562_j19267223290409_2_alg».proof.Proof.Gen.KernelIdeal.Regions
import proofs.«156562_j19267223290409_2_alg».proof.Proof.ProjRegionI
import proofs.«156562_j19267223290409_2_alg».proof.Proof.FlashBodyI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- The projection region's entry contents, read at the core's references. -/
abbrev Vr13 (c : Dev nD) (b : Ref sig .tc) : Buf (Elt F) ((c : Thread nD τ).loc b) := V13 m c b
/-- What the projection region leaves in its result array. -/
def o14 (c : Dev nD) : Buf (Elt F) ((c : Thread nD τ).loc main_v14) := (pdat (Vr13 m) c).arrAt 3 cfg0.N
/-- The regions' results so far: only the projection's. -/
def outsA : Outs (F := F) := fun _ r c => Function.update (V0 m c) main_v14 (o14 m c) r
/-- The attention region's entry contents. -/
abbrev Vr15 (c : Dev nD) (b : Ref sig .tc) : Buf (Elt F) ((c : Thread nD τ).loc b) := V15 m (outsA m) c b
/-- What the attention region leaves in its result array. -/
def o16 (c : Dev nD) : Buf (Elt F) ((c : Thread nD τ).loc main_v16) := (fdat (Vr15 m) c).arrAt 3 cfg1.N
/-- Both regions' results. -/
def outsF : Outs (F := F) := fun _ r c => Function.update (Function.update (V0 m c) main_v14 (o14 m c)) main_v16 (o16 m c) r

theorem outsA_14 (c : Dev nD) : outsA m 14 main_v14 c = o14 m c := by
  unfold outsA; exact Function.update_self ..
theorem outsF_14 (c : Dev nD) : outsF m 14 main_v14 c = o14 m c := by
  unfold outsF
  rw [Function.update_of_ne (StableHlo.devRef_ne_of_ne (by decide) : (Proc.devRef .tc main_v14 : DevRef τ sig) ≠ Proc.devRef .tc main_v16)]
  exact Function.update_self ..
theorem outsF_16 (c : Dev nD) : outsF m 16 main_v16 c = o16 m c := by
  unfold outsF; exact Function.update_self ..
theorem V14_outs (c : Dev nD) : V14 m (outsF m) c = V14 m (outsA m) c := by
  unfold V14; rw [outsF_14, outsA_14]
theorem V15_outs (c : Dev nD) : V15 m (outsF m) c = V15 m (outsA m) c := by
  unfold V15; rw [V14_outs]

/-! ## The proof data family and the thread state -/

/-- Each region's proof data at its entry contents. -/
def pdatsF : (p : Fin 2) → (c : Dev nD) → Dat τ (Elt F) Unit ℕ (UR sig nD τ) ℕ (cfgs p) c
  | ⟨0, _⟩ => fun c => pdat (Vr13 m) c
  | ⟨1, _⟩ => fun c => fdat (Vr15 m) c
abbrev 𝒱z : Variants := Variants.none
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The projection region's arrays at its exit -/

theorem hF0 (c : Dev nD) (w : Fin cfg0.W) : (pdatsF m 0 c).arrAt w cfg0.N = V14 m (outsF m) c (Pipeline.arrRef spec0 w) := by
  match w with
  | ⟨0, _⟩ => exact ((pdat (Vr13 m) c).arrAt_in 0 rfl _).trans ((pA_eq (Vr13 m) c 0).trans (V14_of m (outsF m) c main_v13 (by decide)).symm)
  | ⟨1, _⟩ => exact ((pdat (Vr13 m) c).arrAt_in 1 rfl _).trans ((pA_eq (Vr13 m) c 1).trans (V14_of m (outsF m) c main_v10 (by decide)).symm)
  | ⟨2, _⟩ => exact ((pdat (Vr13 m) c).arrAt_in 2 rfl _).trans ((pA_eq (Vr13 m) c 2).trans (V14_of m (outsF m) c main_v12 (by decide)).symm)
  | ⟨3, _⟩ =>
    show (pdat (Vr13 m) c).arrAt 3 cfg0.N = V14 m (outsF m) c main_v14
    unfold V14; rw [Function.update_self, outsF_14]; rfl
theorem hrest0 (c : Dev nD) : ∀ b, b ∉ Finset.univ.image (Pipeline.arrRef spec0) → V14 m (outsF m) c b = Vr13 m c b :=
  fun b hb => V14_of m (outsF m) c b (by
    intro h; rw [List.mem_singleton] at h; subst h
    exact hb (Finset.mem_image.mpr ⟨3, Finset.mem_univ _, rfl⟩))

/-! ## The attention region's arrays: one array through three windows -/

theorem himg1 : (Finset.univ.image (Pipeline.arrRef spec1)) = insert main_v15 {main_v16} := by decide

/-- The array the three input windows read, held whole, is the three windows' shares of it; the result array is
    held whole. -/
theorem fsplit (c : Dev nD) (Vv : (b : Ref sig .tc) → Buf (Elt F) ((c : Thread nD τ).loc b)) (dat : Dat τ (Elt F) Unit ℕ (UR sig nD τ) ℕ cfg1 c)
    (hq0 : dat.q 0 = fullShare.left) (hq1 : dat.q 1 = fullShare.right.left) (hq2 : dat.q 2 = fullShare.right.right)
    (Fw : (w : Fin cfg1.W) → Buf (Elt F) ((cfg1.win w).arr.view.loc (c.tc : Thread nD τ)))
    (h0 : Fw 0 = Vv main_v15) (h1 : Fw 1 = Vv main_v15) (h2 : Fw 2 = Vv main_v15) (h3 : Fw 3 = Vv main_v16) :
    (Pipeline.arrBufs spec1 c Vv : sProp 𝕄) ⊣⊢ dat.arrays Fw := by
  have e0 : (((cfg1.win 0).arr.view.loc (c.tc : Thread nD τ)) ↦[(cfg1.win 0).arr.view.set]{dat.share 0} Fw 0 : sProp 𝕄)
      = (((c : Thread nD τ).loc main_v15) ↦{fullShare.left} Vv main_v15) := by
    rw [(arr_whole1 0).set_eq_univ, h0, show dat.share 0 = fullShare.left from (if_neg Bool.false_ne_true).trans hq0]
  have e1 : (((cfg1.win 1).arr.view.loc (c.tc : Thread nD τ)) ↦[(cfg1.win 1).arr.view.set]{dat.share 1} Fw 1 : sProp 𝕄)
      = (((c : Thread nD τ).loc main_v15) ↦{fullShare.right.left} Vv main_v15) := by
    rw [(arr_whole1 1).set_eq_univ, h1, show dat.share 1 = fullShare.right.left from (if_neg Bool.false_ne_true).trans hq1]
  have e2 : (((cfg1.win 2).arr.view.loc (c.tc : Thread nD τ)) ↦[(cfg1.win 2).arr.view.set]{dat.share 2} Fw 2 : sProp 𝕄)
      = (((c : Thread nD τ).loc main_v15) ↦{fullShare.right.right} Vv main_v15) := by
    rw [(arr_whole1 2).set_eq_univ, h2, show dat.share 2 = fullShare.right.right from (if_neg Bool.false_ne_true).trans hq2]
  have e3 : (((cfg1.win 3).arr.view.loc (c.tc : Thread nD τ)) ↦[(cfg1.win 3).arr.view.set]{dat.share 3} Fw 3 : sProp 𝕄)
      = (((c : Thread nD τ).loc main_v16) ↦{fullShare} Vv main_v16) := by
    rw [(arr_whole1 3).set_eq_univ, h3, show dat.share 3 = fullShare from if_pos rfl]
  have hL : (Pipeline.arrBufs spec1 c Vv : sProp 𝕄)
      = iprop((((c : Thread nD τ).loc main_v15) ↦{fullShare} Vv main_v15) ∗ (((c : Thread nD τ).loc main_v16) ↦{fullShare} Vv main_v16)) := by
    unfold Pipeline.arrBufs
    rw [himg1, bigSep_insert (by decide), bigSep_singleton]
    rfl
  unfold Dat.arrays
  rw [hL, bigSep_W1, e0, e1, e2, e3]
  constructor
  · iintro ⟨H15, H16⟩
    ihave H := (pointsTo_share (PosShare.mem_left_op_right fullShare)).1 $$ H15
    icases H with ⟨Ha, Hb⟩
    ihave H' := (pointsTo_share (PosShare.mem_left_op_right fullShare.right)).1 $$ Hb
    icases H' with ⟨Hb, Hc⟩
    isplitl [Ha]; · iexact Ha
    isplitl [Hb]; · iexact Hb
    isplitl [Hc]; · iexact Hc
    iexact H16
  · iintro ⟨Ha, Hb, Hc, H16⟩
    isplitr [H16]
    · iapply (pointsTo_share (PosShare.mem_left_op_right fullShare)).2
      isplitl [Ha]; · iexact Ha
      iapply (pointsTo_share (PosShare.mem_left_op_right fullShare.right)).2
      isplitl [Hb]; · iexact Hb
      iexact Hc
    iexact H16

theorem hF1 (c : Dev nD) (w : Fin cfg1.W) : (pdatsF m 1 c).arrAt w cfg1.N = V16 m (outsF m) c (Pipeline.arrRef spec1 w) := by
  match w with
  | ⟨0, _⟩ => exact ((fdat (Vr15 m) c).arrAt_in 0 rfl _).trans ((fA_eq (Vr15 m) c 0).trans (by rw [show V16 m (outsF m) c (Pipeline.arrRef spec1 0) = V15 m (outsF m) c main_v15 from V16_of m (outsF m) c main_v15 (by decide), V15_outs]))
  | ⟨1, _⟩ => exact ((fdat (Vr15 m) c).arrAt_in 1 rfl _).trans ((fA_eq (Vr15 m) c 1).trans (by rw [show V16 m (outsF m) c (Pipeline.arrRef spec1 1) = V15 m (outsF m) c main_v15 from V16_of m (outsF m) c main_v15 (by decide), V15_outs]))
  | ⟨2, _⟩ => exact ((fdat (Vr15 m) c).arrAt_in 2 rfl _).trans ((fA_eq (Vr15 m) c 2).trans (by rw [show V16 m (outsF m) c (Pipeline.arrRef spec1 2) = V15 m (outsF m) c main_v15 from V16_of m (outsF m) c main_v15 (by decide), V15_outs]))
  | ⟨3, _⟩ =>
    show (fdat (Vr15 m) c).arrAt 3 cfg1.N = V16 m (outsF m) c main_v16
    unfold V16; rw [Function.update_self, outsF_16]; rfl

end Cert.KernelIdeal.Gen

end
-- ==== Proof.RunRegionsI.lean ====
/-
  The two kernel regions as items of the run, and the run itself: from any launch memory every weakly fair
  execution terminates, the seven argument arrays end as launched, and the result array ends at what the
  attention region's sixty-four tiles write back.
-/
import proofs.«156562_j19267223290409_2_alg».proof.Proof.RunDataI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The projection region: entered with every unscoped buffer at the contents after the host prefix, left with the
    result array at what its eight row blocks write back and every other buffer as entered. -/
def regP : Pipeline.RegionSeg (pcfgs (F := F)) adm (pdatsF m) () defs₀ 𝒱z Lz lvz 0 where
  win := launch0.win.to₀
  block_pos := launch0.block_pos
  stage_whole := launch0.stage_whole
  K := PEmpty
  osem k := k.elim
  ho := Pipeline.OwnSemFacts.none _
  hbody c := (pbody_obligation (Vr13 m) c).loose
  hwaits := Pipeline.hwaits_of_owed_zero _ _ _ _ Lz lvz 0 fun _ _ => rfl
  pre c := iprop(StableHlo.held (c : Thread nD τ) (Pipeline.ucRefs τ sig) (V13 m c) ∗ Rst c)
  post c := iprop(StableHlo.held (c : Thread nD τ) (Pipeline.ucRefs τ sig) (V14 m (outsF m) c) ∗ Rst c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (Vr13 m c) (fun b => V14 m (outsF m) c b) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at the contents after the reshape, left with the result
    array at what its sixty-four tiles write back. The array its three input windows read is split into three
    shares on entry and joined on exit. -/
def regA : Pipeline.RegionSeg (pcfgs (F := F)) adm (pdatsF m) () defs₀ 𝒱z Lz lvz 1 where
  win := winFacts₀1
  block_pos := block_pos1
  stage_whole := stage_whole1
  K := PEmpty
  osem k := k.elim
  ho := Pipeline.OwnSemFacts.none _
  hbody c := (fbody_obligation (Vr15 m) c).loose
  hwaits := Pipeline.hwaits_of_owed_zero _ _ _ _ Lz lvz 1 fun _ _ => rfl
  pre c := iprop(StableHlo.held (c : Thread nD τ) (Pipeline.ucRefs τ sig) (V15 m (outsF m) c) ∗ Rst c)
  post c := iprop(StableHlo.held (c : Thread nD τ) (Pipeline.ucRefs τ sig) (V16 m (outsF m) c) ∗ Rst c)
  X c := iprop(∃ r, prngReg c r)
  Y c := iprop(∃ r, prngReg c r)
  Z c := Pipeline.unscopedRest (Ix := Unit) (Name := ℕ) (U := UR sig nD τ) (Lvl := ℕ) spec1 c (Vr15 m c)
  hentry c := by
    rw [Pipeline.ownSems0_none, V15_outs]
    have hub := Pipeline.unscopedBufs_held (Ix := Unit) (Name := ℕ) (U := UR sig nD τ) (Lvl := ℕ) c (V15 m (outsA m) c)
    have hs := Pipeline.unscopedBufs_split₀ (Ix := Unit) (Name := ℕ) (U := UR sig nD τ) (Lvl := ℕ) (Val := Elt F) cfgs 1 winFacts₀1.arr_unscoped c (Vr15 m c)
    have hsp := (fsplit c (Vr15 m c) (fdat (Vr15 m) c) rfl rfl rfl ((fdat (Vr15 m) c).arrAt · 0) rfl rfl rfl rfl).1
    have hsplit : StableHlo.held (c : Thread nD τ) (Pipeline.ucRefs τ sig) (V15 m (outsA m) c)
        ⊢ (iprop((fdat (Vr15 m) c).arrays ((fdat (Vr15 m) c).arrAt · 0) ∗ Pipeline.unscopedRest spec1 c (Vr15 m c)) : sProp 𝕄) := by
      rw [← hub, hs]; exact sep_mono hsp .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (fhin (Vr15 m) c)
  hout c := by
    rw [Pipeline.ownSems0_none]
    refine (fhout (Vr15 m) c).trans ?_
    unfold Pipeline.ΦA
    iintro ⟨Hr, Hp⟩
    isplitl [Hp]; · iexact Hp
    isplitr; · iempintro
    iexact Hr
  hexit c := by
    have hub := Pipeline.unscopedBufs_held (Ix := Unit) (Name := ℕ) (U := UR sig nD τ) (Lvl := ℕ) c (V16 m (outsF m) c)
    have hs := Pipeline.unscopedBufs_split₀ (Ix := Unit) (Name := ℕ) (U := UR sig nD τ) (Lvl := ℕ) (Val := Elt F) cfgs 1 winFacts₀1.arr_unscoped c (fun b => V16 m (outsF m) c b)
    have hjn := (fsplit c (fun b => V16 m (outsF m) c b) (fdat (Vr15 m) c) rfl rfl rfl ((fdat (Vr15 m) c).arrAt · cfg1.N)
      (hF1 m c 0) (hF1 m c 1) (hF1 m c 2) (hF1 m c 3)).2
    have hrest : (Pipeline.unscopedRest (Ix := Unit) (Name := ℕ) (U := UR sig nD τ) (Lvl := ℕ) spec1 c (Vr15 m c) : sProp 𝕄)
        = Pipeline.unscopedRest spec1 c (fun b => V16 m (outsF m) c b) := by
      unfold Pipeline.unscopedRest
      refine bigSep_congr fun b hb => ?_
      have hb' : b ∉ Finset.univ.image (Pipeline.arrRef spec1) := (Finset.mem_sdiff.mp hb).2
      have e : V16 m (outsF m) c b = Vr15 m c b := (V16_of m (outsF m) c b (by
        intro h; rw [List.mem_singleton] at h; subst h
        exact hb' (Finset.mem_image.mpr ⟨3, Finset.mem_univ _, rfl⟩))).trans (by rw [V15_outs])
      beta_reduce; rw [e]
    have hjoin : (iprop((fdat (Vr15 m) c).arrays ((fdat (Vr15 m) c).arrAt · cfg1.N) ∗ Pipeline.unscopedRest spec1 c (Vr15 m c)) : sProp 𝕄)
        ⊢ StableHlo.held (c : Thread nD τ) (Pipeline.ucRefs τ sig) (V16 m (outsF m) c) := by
      rw [← hub, hs, hrest]; exact sep_mono hjn .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Gen

end
-- ==== Proof.RunMainI.lean ====
/-
  The run of the whole program: every weakly fair execution from any launch memory terminates, the seven argument
  arrays end as launched, and the result array ends at what the attention region's tiles write back
  (`o16`). The first theorem is stated for any two region records that chain with the host items; the second
  supplies the two records.
-/
import proofs.«156562_j19267223290409_2_alg».proof.Proof.RunRegionsI

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

section
variable (m : (ℓ : Loc nD τ sig) → Buf (Elt F) ℓ)

set_option backward.isDefEq.respectTransparency.types false in
/-- The run from the two regions' records: every weakly fair execution of the program terminates, each argument array ends as
    launched, and the result array ends at what the attention region leaves in it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      r.2.mem ((c.tc : Thread nD τ).loc main_v16) = outs 16 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v16) = outs 16 main_v16 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v16) (Finset.mem_filter.mpr ⟨StableHlo.devRef_mem_tcRefs main_v16, by decide⟩)).trans (by unfold V16; exact Function.update_self ..),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c)⟩
    · iexact HSI

end

variable (m : (ℓ : Loc nD τ sig) → Buf (Elt F) ℓ) (ρ : Dev nD → PrngReg)

local notation "𝕄" => MT nD τ sig Unit (Elt F) ℕ (UR sig nD τ) ℕ

set_option backward.isDefEq.respectTransparency.types false in
theorem run_value : θ_run defs (onTc (τ := τ) (main (F := F))) ⟨m, fun _ => 0, ρ⟩ (fun r => ∀ c : Dev nD,
      r.2.mem ((c.tc : Thread nD τ).loc main_v16) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := run_cond (F := F) m (Ix := Unit) (U := UR sig nD τ) (Lvl := ℕ) emb₁ () 𝒱z Lz lvz (fun _ _ => rfl) ρ (outsF m) (pdatsF m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, H⟩; iexact H)
    (R0 := regP m) (hpre0 := fun c => .rfl) (hpost0 := fun c => .rfl)
    (R1 := regA m) (hpre1 := fun c => .rfl) (hpost1 := fun c => .rfl)
  exact (θ_run defs _ _).mono (fun _ hr c => ⟨((hr c).1).trans (outsF_16 m c), (hr c).2⟩) h

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => (hr c).2) (run_value m ρ)

end Cert.KernelIdeal.Gen

end
-- ==== Proof.ProjRegionB.lean ====
/-
  The projection region (the first kernel launch) of the program, at a parameter `V`: the contents of the core's
  buffers when the region is entered. One grid point `t` of eight reads rows `2048 t … 2048 t + 2047` of the
  flattened activations (window 0), the whole concatenated weight matrix (window 1) and the whole concatenated
  bias row (window 2), and writes the same rows of the result (window 3): the matrix product plus the bias row
  broadcast down the rows. Stated for every float instance (the word-level program's copy).
-/
import proofs.«156562_j19267223290409_2_alg».proof.Proof.Gen.Kernel.Launch
import proofs.«156562_j19267223290409_2_alg».proof.Proof.Gen.Kernel.Skeleton
import proofs.«156562_j19267223290409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ProjRegion
variable (V : (c : Dev nD) → (b : Ref sig .tc) → Buf (Elt F) ((c : Thread nD τ).loc b))

/-- Window `w`'s block at grid point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (the
    block index did not move since the fetch). -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-- The whole-buffer rectangles the body loads and stores through. -/
abbrev pr0 : Rect S2048x1024 := Rect.unit (s := S2048x1024) ![0, 0] S2048x1024.size inb_S2048x1024_S2048x1024_0_0
abbrev pr1 : Rect S1024x384 := Rect.unit (s := S1024x384) ![0, 0] S1024x384.size inb_S1024x384_S1024x384_0_0
abbrev pr2 : Rect S1x384 := Rect.unit (s := S1x384) ![0, 0] S1x384.size inb_S1x384_S1x384_0_0
abbrev pr3 : Rect S2048x384 := Rect.unit (s := S2048x384) ![0, 0] S2048x384.size inb_S2048x384_S2048x384_0_0

/-- What the body leaves in the result window's buffer: its one whole-buffer store of the product plus bias. -/
def pout (x0 : Vec F S2048x1024 .f32) (x1 : Vec F S1024x384 .bf16) (x2 : Vec F S1x384 .f32) : Vec F S2048x384 .f32 :=
  View.canon [⟨pr3, k0_pay1 (View.ld x0 pr0) (View.ld x1 pr1) (View.ld x2 pr2)⟩]

theorem pcover (p0 : Vec F S2048x384 .f32) (y : S2048x384.Idx) :
    ∃ pc ∈ ([⟨pr3, p0⟩] : List (View.Piece (Elt F) S2048x384 .f32)), y ∈ pc.1.set :=
  View.cover_of_tiled [⟨pr3, p0⟩] S2048x384.size (by rfl) y

set_option maxHeartbeats 1000000 in
/-- The body on whole staging buffers: the three inputs are read and left as they were, the result buffer ends at
    `pout` of them. -/
theorem psound (c : Dev nD) (i : grid0.Coords) (E : Set ℕ) (arg1 : Memref sig .tc .vmem S2048x1024 .f32) (harg1 : arg1.IsWhole) (arg2 : Memref sig .tc .vmem S1024x384 .bf16) (harg2 : arg2.IsWhole)
    (arg3 : Memref sig .tc .vmem S1x384 .f32) (harg3 : arg3.IsWhole) (arg4 : Memref sig .tc .vmem S2048x384 .f32) (harg4 : arg4.IsWhole)
    (x0 : Vec F S2048x1024 .f32) (x1 : Vec F S1024x384 .bf16) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (pout x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (pcover _)

/-- The region's proof data: the arrays as found; after each point every input buffer at its block and the result
    buffer at `pout` of the three blocks; nothing carried between points. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pout (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]
theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) : (pdat V c).after 3 t = pout (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d)))

def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t))

theorem psound_body (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (psound c _ Set.univ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem pbody_obligation (c : Dev nD) : BodyObligation (pdat (F := F) V c) (defs₀ (F := F)) Variants.none () Set.univ := fun t => by
  rw [bigSep_W0, bigSep_W0]
  exact psound_body V c t

end ProjRegion

end Cert.Kernel.Gen

end
-- ==== Proof.FlashSharedB.lean ====
/-
  The attention region (the second kernel launch), the part every control case shares, at a parameter `V`: the
  contents of the core's buffers when the region is entered. The grid is 8 × 8 × 8: batch entry `b`, query tile
  `qi`, key tile `ki` (innermost), each tile 256 positions. Windows 0, 1, 2 read the query tile `(b, qi)`, the
  key tile `(b, min ki qi)` and the value tile `(b, min ki qi)` out of ONE array (its three column groups of
  128); window 3 is the result tile `(b, qi)`, written back after `ki = 7`. The body branches three times on the
  coordinates: `ki = 0` (reset the running maximum, denominator and accumulator), `ki ≤ qi` (fold the key tile
  in), `ki = 7` (divide and store the result tile). Here: the blocks, the three conditions in closed form over
  the grid, where the result window is idle, and the buffers' names.
-/
import proofs.«156562_j19267223290409_2_alg».proof.Proof.Gen.Kernel.Launch
import proofs.«156562_j19267223290409_2_alg».proof.Proof.Gen.Kernel.Skeleton
import proofs.«156562_j19267223290409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at grid point `t`, read off its array as the region finds it. -/
def fblk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (V : (c : Dev nD) → (b : Ref sig .tc) → Buf (Elt F) ((c : Thread nD τ).loc b))

/-- An input window's staging buffer holds its block at every point, whether the point fetched it or not (an
    unfetched point has the block index of the point before it). -/
theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
theorem fbefore2_of {c : Dev nD} (dat : Dat τ (Elt F) Unit ℕ (UR sig nD τ) ℕ cfg1 c) (hA : dat.A 2 = V c (Pipeline.arrRef spec1 2))
    (hafter : ∀ t, dat.after 2 t = fblk V c 2 t) (t : Fin cfg1.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)
end

/-! ## The body's three conditions -/

/-- `ki = 0`: the first key tile of a query tile. -/
abbrev fc1 (i : grid1.Coords) : Prop := (Scalar.cmpi .ne (Scalar.extui (Scalar.cmpi .eq (BitVec.ofNat 32 (i 2).val) 0#32)) 0#32) = 1#1
/-- `ki ≤ qi`: the key tile is not wholly above the diagonal. -/
abbrev fc2 (i : grid1.Coords) : Prop := (Scalar.cmpi .ne (Scalar.extui (Scalar.cmpi .sle (BitVec.ofNat 32 (i 2).val) (BitVec.ofNat 32 (i 1).val))) 0#32) = 1#1
/-- `ki = 7`: the last key tile of a query tile. -/
abbrev fc3 (i : grid1.Coords) : Prop := k1_cond3 i = 1#1

/-- Over the grid's 512 points in order, point `t` has `ki = t % 8` and `qi = t / 8 % 8`. -/
theorem hfc1 : ∀ t : Fin cfg1.N, fc1 (grid1.coords t) ↔ t.val % 8 = 0 :=
  (by decide +kernel : ∀ t : Fin grid1.N, fc1 (grid1.coords t) ↔ t.val % 8 = 0)
theorem hfc2 : ∀ t : Fin cfg1.N, fc2 (grid1.coords t) ↔ t.val % 8 ≤ t.val / 8 % 8 :=
  (by decide +kernel : ∀ t : Fin grid1.N, fc2 (grid1.coords t) ↔ t.val % 8 ≤ t.val / 8 % 8)
theorem hfc3 : ∀ t : Fin cfg1.N, fc3 (grid1.coords t) ↔ t.val % 8 = 7 :=
  (by decide +kernel : ∀ t : Fin grid1.N, fc3 (grid1.coords t) ↔ t.val % 8 = 7)

/-! ## Where the windows are idle -/

theorem fliveAt0 : ∀ t : Fin cfg1.N, cfg1.idle 0 (grid1.coords t) = false := by decide +kernel
theorem fliveAt1 : ∀ t : Fin cfg1.N, cfg1.idle 1 (grid1.coords t) = false := by decide +kernel
theorem fliveAt2 : ∀ t : Fin cfg1.N, cfg1.idle 2 (grid1.coords t) = false := by decide +kernel
/-- Where `ki ≠ 7` the result window is idle and is not written back. -/
theorem fidleAt3 : ∀ t : Fin cfg1.N, ¬fc3 (grid1.coords t) → cfg1.idle 3 (grid1.coords t) = true := by decide +kernel
theorem fnoFlush3 : ∀ t : Fin cfg1.N, ¬fc3 (grid1.coords t) → (cfg1.win 3).flush t = false := by decide +kernel
/-- Where `ki = 7` it is stored and written back. -/
theorem fliveAt3 : ∀ t : Fin cfg1.N, fc3 (grid1.coords t) → cfg1.idle 3 (grid1.coords t) = false := by decide +kernel

/-! ## The buffers -/

/-- Each window's current staging buffer at point `t`, as the body is handed it. -/
abbrev fm0 (t : Fin cfg1.N) : Memref sig .tc .vmem S1x256x128 .f32 := win1_0.stage (cfg1.slots t 0)
abbrev fh0 (t : Fin cfg1.N) : (fm0 t).IsWhole := hstage1_0 ((cfg1.slots t 0).cast nbuf1_0)
abbrev fm1 (t : Fin cfg1.N) : Memref sig .tc .vmem S1x256x128 .f32 := win1_1.stage (cfg1.slots t 1)
abbrev fh1 (t : Fin cfg1.N) : (fm1 t).IsWhole := hstage1_1 ((cfg1.slots t 1).cast nbuf1_1)
abbrev fm2 (t : Fin cfg1.N) : Memref sig .tc .vmem S1x256x128 .f32 := win1_2.stage (cfg1.slots t 2)
abbrev fh2 (t : Fin cfg1.N) : (fm2 t).IsWhole := hstage1_2 ((cfg1.slots t 2).cast nbuf1_2)
abbrev fm3 (t : Fin cfg1.N) : Memref sig .tc .vmem S1x256x64 .f32 := win1_3.stage (cfg1.slots t 3)
abbrev fh3 (t : Fin cfg1.N) : (fm3 t).IsWhole := hstage1_3 ((cfg1.slots t 3).cast nbuf1_3)
/-- The three buffers the body keeps between points: the running row maximum, the running denominator, the
    running accumulator. -/
abbrev scMax : Memref sig .tc .vmem S256x1 .f32 := Memref.whole cc1_scratch0
abbrev scDen : Memref sig .tc .vmem S256x1 .f32 := Memref.whole cc1_scratch1
abbrev scAcc : Memref sig .tc .vmem S256x128 .f32 := Memref.whole cc1_scratch2
/-- One staging buffer of the result window, through which its contents are stated. -/
abbrev VO3 : View sig .tc .vmem S1x256x64 .f32 := (Memref.whole cc1_stg3_0 : Memref sig .tc .vmem S1x256x64 .f32).view

/-- What the region holds beside its windows: the other launch's staging buffers and the three carried buffers, each
    at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest1_eq]; simp only [scMax, scDen, scAcc, owns_whole]; try rfl

end Cert.Kernel.Gen

end
-- ==== Proof.FlashRunAB.lean ====
/-
  The attention body in control case A: `ki = 0` holds, `ki ≤ qi` holds, `ki = 7` fails.
  On whole staging buffers holding the query, key and value tiles, the body runs to its end;
  what it stores into the carried buffers is found as lists of stored pieces, last first.
-/
import proofs.«156562_j19267223290409_2_alg».proof.Proof.FlashSharedB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def flashRunA (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : fc1 i) (hc2 : fc2 i) (hc3 : ¬fc3 i)
    (x0 : Vec F S1x256x128 .f32) (x1 : Vec F S1x256x128 .f32) (x2 : Vec F S1x256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.FlashRunBB.lean ====
/-
  The attention body in control case B: `ki = 0` fails, `ki ≤ qi` holds, `ki = 7` fails.
  On whole staging buffers holding the query, key and value tiles and the three carried buffers at what the point before left, the body runs to its end;
  what it stores into the carried buffers is found as lists of stored pieces, last first.
-/
import proofs.«156562_j19267223290409_2_alg».proof.Proof.FlashSharedB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def flashRunB (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : fc2 i) (hc3 : ¬fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.FlashRunCB.lean ====
/-
  The attention body in control case C: `ki = 0` fails, `ki ≤ qi` holds, `ki = 7` holds.
  On whole staging buffers holding the query, key and value tiles and the three carried buffers at what the point before left, the body runs to its end;
  what it stores into the carried buffers and the result tile is found as lists of stored pieces, last first.
-/
import proofs.«156562_j19267223290409_2_alg».proof.Proof.FlashSharedB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def flashRunC (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : fc2 i) (hc3 : fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Gen

end
-- ==== Proof.FlashRunDB.lean ====
/-
  The attention body in control case D: `ki = 0` fails, `ki ≤ qi` fails, `ki = 7` fails.
  On whole staging buffers holding the query, key and value tiles and the three carried buffers at what the point before left, the body runs to its end;
  what it stores into no carried buffer is found as lists of stored pieces, last first.
-/
import proofs.«156562_j19267223290409_2_alg».proof.Proof.FlashSharedB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def flashRunD (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : ¬fc2 i) (hc3 : ¬fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (xi3 : Vec F S1x256x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], [], [], [], fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Gen

end
-- ==== Proof.FlashRunEB.lean ====
/-
  The attention body in control case E: `ki = 0` fails, `ki ≤ qi` fails, `ki = 7` holds.
  On whole staging buffers holding the query, key and value tiles and the three carried buffers at what the point before left, the body runs to its end;
  what it stores into no carried buffer and the result tile is found as lists of stored pieces, last first.
-/
import proofs.«156562_j19267223290409_2_alg».proof.Proof.FlashSharedB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def flashRunE (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole) (hc1 : ¬fc1 i) (hc2 : ¬fc2 i) (hc3 : fc3 i)
    (x0 : Vec F S1x256x128 .f32) (x1 : Vec F S1x256x128 .f32) (x2 : Vec F S1x256x128 .f32) (xs0 : Vec F S256x1 .f32) (xs1 : Vec F S256x1 .f32) (xs2 : Vec F S256x128 .f32) :
    Σ' (L3 : List (View.Piece (Elt F) S1x256x64 .f32)) (LS0 : List (View.Piece (Elt F) S256x1 .f32)) (LS1 : List (View.Piece (Elt F) S256x1 .f32)), { LS2 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, [], [], [], fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Gen

end
-- ==== Proof.FlashFrameB.lean ====
/-
  The attention region's bookkeeping over its 512 grid points, at the entry contents `V`: what the three carried
  buffers (running maximum, running denominator, running accumulator) and the result tile's buffer hold after
  each point, by recursion on the point — a point with `ki = 0` starts from anything and resets, a point with
  `ki ≤ qi` folds its key tile into what the point before left, a point with `ki > qi` leaves everything as it
  was, and a point with `ki = 7` also stores the result tile —; the region's invariant between points; and the
  body's run at a generic point, by cases on the three conditions.
-/
import proofs.«156562_j19267223290409_2_alg».proof.Proof.FlashRunAB
import proofs.«156562_j19267223290409_2_alg».proof.Proof.FlashRunBB
import proofs.«156562_j19267223290409_2_alg».proof.Proof.FlashRunCB
import proofs.«156562_j19267223290409_2_alg».proof.Proof.FlashRunDB
import proofs.«156562_j19267223290409_2_alg».proof.Proof.FlashRunEB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five control cases the grid meets -/

theorem fcaseA (t : Fin cfg1.N) (h1 : t.val % 8 = 0) : fc1 (grid1.coords t) ∧ fc2 (grid1.coords t) ∧ ¬fc3 (grid1.coords t) :=
  ⟨(hfc1 t).mpr h1, (hfc2 t).mpr (by omega), fun h => by have := (hfc3 t).mp h; omega⟩
theorem fcaseB (t : Fin cfg1.N) (h1 : ¬t.val % 8 = 0) (h2 : t.val % 8 ≤ t.val / 8 % 8) (h3 : ¬t.val % 8 = 7) : ¬fc1 (grid1.coords t) ∧ fc2 (grid1.coords t) ∧ ¬fc3 (grid1.coords t) :=
  ⟨fun h => h1 ((hfc1 t).mp h), (hfc2 t).mpr h2, fun h => h3 ((hfc3 t).mp h)⟩
theorem fcaseC (t : Fin cfg1.N) (h1 : ¬t.val % 8 = 0) (h2 : t.val % 8 ≤ t.val / 8 % 8) (h3 : t.val % 8 = 7) : ¬fc1 (grid1.coords t) ∧ fc2 (grid1.coords t) ∧ fc3 (grid1.coords t) :=
  ⟨fun h => h1 ((hfc1 t).mp h), (hfc2 t).mpr h2, (hfc3 t).mpr h3⟩
theorem fcaseD (t : Fin cfg1.N) (h1 : ¬t.val % 8 = 0) (h2 : ¬t.val % 8 ≤ t.val / 8 % 8) (h3 : ¬t.val % 8 = 7) : ¬fc1 (grid1.coords t) ∧ ¬fc2 (grid1.coords t) ∧ ¬fc3 (grid1.coords t) :=
  ⟨fun h => h1 ((hfc1 t).mp h), fun h => h2 ((hfc2 t).mp h), fun h => h3 ((hfc3 t).mp h)⟩
theorem fcaseE (t : Fin cfg1.N) (h1 : ¬t.val % 8 = 0) (h2 : ¬t.val % 8 ≤ t.val / 8 % 8) (h3 : t.val % 8 = 7) : ¬fc1 (grid1.coords t) ∧ ¬fc2 (grid1.coords t) ∧ fc3 (grid1.coords t) :=
  ⟨fun h => h1 ((hfc1 t).mp h), fun h => h2 ((hfc2 t).mp h), (hfc3 t).mpr h3⟩

/-! ## What a case leaves in each buffer: its stored pieces read back -/

/-- The carried buffers as views. -/
abbrev VSmax : View sig .tc .vmem S256x1 .f32 := scMax.view
abbrev VSden : View sig .tc .vmem S256x1 .f32 := scDen.view
abbrev VSacc : View sig .tc .vmem S256x128 .f32 := scAcc.view

/-- The four buffers' contents after a point: result tile, running maximum, running denominator, running accumulator. -/
abbrev FState (F : FTy → Type) [FloatOps F] : Type := Vec F S1x256x64 .f32 × Vec F S256x1 .f32 × Vec F S256x1 .f32 × Vec F S256x128 .f32

/-- The result tile's buffer at a point that does not store it: not consulted (the window is idle there). -/
def fjunk3 : Vec F S1x256x64 .f32 := VO3.read (Elt F) (VO3.writes (Elt F) VO3.junk [])

section
variable (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole)
variable (x0 : Vec F S1x256x128 .f32) (x1 : Vec F S1x256x128 .f32) (x2 : Vec F S1x256x128 .f32)

def fstA (hc1 : fc1 i) (hc2 : fc2 i) (hc3 : ¬fc3 i) : FState F :=
  (fjunk3,
   VSmax.read (Elt F) (VSmax.writes (Elt F) VSmax.junk (flashRunA c i arg3 harg3 arg4 harg4 arg5 harg5 arg6 harg6 arg7 harg7 arg8 harg8 arg9 harg9 hc1 hc2 hc3 x0 x1 x2).2.1),
   VSden.read (Elt F) (VSden.writes (Elt F) VSden.junk (flashRunA c i arg3 harg3 arg4 harg4 arg5 harg5 arg6 harg6 arg7 harg7 arg8 harg8 arg9 harg9 hc1 hc2 hc3 x0 x1 x2).2.2.1),
   VSacc.read (Elt F) (VSacc.writes (Elt F) VSacc.junk (flashRunA c i arg3 harg3 arg4 harg4 arg5 harg5 arg6 harg6 arg7 harg7 arg8 harg8 arg9 harg9 hc1 hc2 hc3 x0 x1 x2).2.2.2.1))
def fstB (hc1 : ¬fc1 i) (hc2 : fc2 i) (hc3 : ¬fc3 i) (s : FState F) : FState F :=
  (fjunk3,
   VSmax.read (Elt F) (VSmax.writes (Elt F) VSmax.junk (flashRunB c i arg3 harg3 arg4 harg4 arg5 harg5 arg6 harg6 arg7 harg7 arg8 harg8 arg9 harg9 hc1 hc2 hc3 x0 x1 x2 s.2.1 s.2.2.1 s.2.2.2).2.1),
   VSden.read (Elt F) (VSden.writes (Elt F) VSden.junk (flashRunB c i arg3 harg3 arg4 harg4 arg5 harg5 arg6 harg6 arg7 harg7 arg8 harg8 arg9 harg9 hc1 hc2 hc3 x0 x1 x2 s.2.1 s.2.2.1 s.2.2.2).2.2.1),
   VSacc.read (Elt F) (VSacc.writes (Elt F) VSacc.junk (flashRunB c i arg3 harg3 arg4 harg4 arg5 harg5 arg6 harg6 arg7 harg7 arg8 harg8 arg9 harg9 hc1 hc2 hc3 x0 x1 x2 s.2.1 s.2.2.1 s.2.2.2).2.2.2.1))
def fstC (hc1 : ¬fc1 i) (hc2 : fc2 i) (hc3 : fc3 i) (s : FState F) : FState F :=
  (VO3.read (Elt F) (VO3.writes (Elt F) VO3.junk (flashRunC c i arg3 harg3 arg4 harg4 arg5 harg5 arg6 harg6 arg7 harg7 arg8 harg8 arg9 harg9 hc1 hc2 hc3 x0 x1 x2 s.2.1 s.2.2.1 s.2.2.2).1),
   VSmax.read (Elt F) (VSmax.writes (Elt F) VSmax.junk (flashRunC c i arg3 harg3 arg4 harg4 arg5 harg5 arg6 harg6 arg7 harg7 arg8 harg8 arg9 harg9 hc1 hc2 hc3 x0 x1 x2 s.2.1 s.2.2.1 s.2.2.2).2.1),
   VSden.read (Elt F) (VSden.writes (Elt F) VSden.junk (flashRunC c i arg3 harg3 arg4 harg4 arg5 harg5 arg6 harg6 arg7 harg7 arg8 harg8 arg9 harg9 hc1 hc2 hc3 x0 x1 x2 s.2.1 s.2.2.1 s.2.2.2).2.2.1),
   VSacc.read (Elt F) (VSacc.writes (Elt F) VSacc.junk (flashRunC c i arg3 harg3 arg4 harg4 arg5 harg5 arg6 harg6 arg7 harg7 arg8 harg8 arg9 harg9 hc1 hc2 hc3 x0 x1 x2 s.2.1 s.2.2.1 s.2.2.2).2.2.2.1))
def fstD (s : FState F) : FState F := (fjunk3, s.2.1, s.2.2.1, s.2.2.2)
def fstE (hc1 : ¬fc1 i) (hc2 : ¬fc2 i) (hc3 : fc3 i) (s : FState F) : FState F :=
  (VO3.read (Elt F) (VO3.writes (Elt F) VO3.junk (flashRunE c i arg3 harg3 arg4 harg4 arg5 harg5 arg6 harg6 arg7 harg7 arg8 harg8 arg9 harg9 hc1 hc2 hc3 x0 x1 x2 s.2.1 s.2.2.1 s.2.2.2).1), s.2.1, s.2.2.1, s.2.2.2)

/-- A case's stored pieces tile the buffer they go into, so they cover it. -/
theorem fcovA0 (hc1 : fc1 i) (hc2 : fc2 i) (hc3 : ¬fc3 i) (y : S256x1.Idx) : ∃ pc ∈ (flashRunA c i arg3 harg3 arg4 harg4 arg5 harg5 arg6 harg6 arg7 harg7 arg8 harg8 arg9 harg9 hc1 hc2 hc3 x0 x1 x2).2.1, y ∈ pc.1.set :=
  View.cover_of_tiledL _ S256x1.size (by sl_kernel_rfl) y
theorem fcovA1 (hc1 : fc1 i) (hc2 : fc2 i) (hc3 : ¬fc3 i) (y : S256x1.Idx) : ∃ pc ∈ (flashRunA c i arg3 harg3 arg4 harg4 arg5 harg5 arg6 harg6 arg7 harg7 arg8 harg8 arg9 harg9 hc1 hc2 hc3 x0 x1 x2).2.2.1, y ∈ pc.1.set :=
  View.cover_of_tiledL _ S256x1.size (by sl_kernel_rfl) y
theorem fcovA2 (hc1 : fc1 i) (hc2 : fc2 i) (hc3 : ¬fc3 i) (y : S256x128.Idx) : ∃ pc ∈ (flashRunA c i arg3 harg3 arg4 harg4 arg5 harg5 arg6 harg6 arg7 harg7 arg8 harg8 arg9 harg9 hc1 hc2 hc3 x0 x1 x2).2.2.2.1, y ∈ pc.1.set :=
  View.cover_of_tiledL _ S256x128.size (by sl_kernel_rfl) y
variable (xs0 : Vec F S256x1 .f32) (xs1 : Vec F S256x1 .f32) (xs2 : Vec F S256x128 .f32)
theorem fcovB0 (hc1 : ¬fc1 i) (hc2 : fc2 i) (hc3 : ¬fc3 i) (y : S256x1.Idx) : ∃ pc ∈ (flashRunB c i arg3 harg3 arg4 harg4 arg5 harg5 arg6 harg6 arg7 harg7 arg8 harg8 arg9 harg9 hc1 hc2 hc3 x0 x1 x2 xs0 xs1 xs2).2.1, y ∈ pc.1.set :=
  View.cover_of_tiledL _ S256x1.size (by sl_kernel_rfl) y
theorem fcovB1 (hc1 : ¬fc1 i) (hc2 : fc2 i) (hc3 : ¬fc3 i) (y : S256x1.Idx) : ∃ pc ∈ (flashRunB c i arg3 harg3 arg4 harg4 arg5 harg5 arg6 harg6 arg7 harg7 arg8 harg8 arg9 harg9 hc1 hc2 hc3 x0 x1 x2 xs0 xs1 xs2).2.2.1, y ∈ pc.1.set :=
  View.cover_of_tiledL _ S256x1.size (by sl_kernel_rfl) y
theorem fcovB2 (hc1 : ¬fc1 i) (hc2 : fc2 i) (hc3 : ¬fc3 i) (y : S256x128.Idx) : ∃ pc ∈ (flashRunB c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL _ S256x128.size (by sl_kernel_rfl) y
theorem fcovC0 (hc1 : ¬fc1 i) (hc2 : fc2 i) (hc3 : fc3 i) (y : S256x1.Idx) : ∃ pc ∈ (flashRunC c i arg3 harg3 arg4 harg4 arg5 harg5 arg6 harg6 arg7 harg7 arg8 harg8 arg9 harg9 hc1 hc2 hc3 x0 x1 x2 xs0 xs1 xs2).2.1, y ∈ pc.1.set :=
  View.cover_of_tiledL _ S256x1.size (by sl_kernel_rfl) y
theorem fcovC1 (hc1 : ¬fc1 i) (hc2 : fc2 i) (hc3 : fc3 i) (y : S256x1.Idx) : ∃ pc ∈ (flashRunC c i arg3 harg3 arg4 harg4 arg5 harg5 arg6 harg6 arg7 harg7 arg8 harg8 arg9 harg9 hc1 hc2 hc3 x0 x1 x2 xs0 xs1 xs2).2.2.1, y ∈ pc.1.set :=
  View.cover_of_tiledL _ S256x1.size (by sl_kernel_rfl) y
theorem fcovC2 (hc1 : ¬fc1 i) (hc2 : fc2 i) (hc3 : fc3 i) (y : S256x128.Idx) : ∃ pc ∈ (flashRunC c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL _ S256x128.size (by sl_kernel_rfl) y
theorem fcovC3 (hc1 : ¬fc1 i) (hc2 : fc2 i) (hc3 : fc3 i) (y : S1x256x64.Idx) : ∃ pc ∈ (flashRunC c i arg3 harg3 arg4 harg4 arg5 harg5 arg6 harg6 arg7 harg7 arg8 harg8 arg9 harg9 hc1 hc2 hc3 x0 x1 x2 xs0 xs1 xs2).1, y ∈ pc.1.set :=
  View.cover_of_tiledL _ S1x256x64.size (by sl_kernel_rfl) y
theorem fcovE3 (hc1 : ¬fc1 i) (hc2 : ¬fc2 i) (hc3 : fc3 i) (y : S1x256x64.Idx) : ∃ pc ∈ (flashRunE c i arg3 harg3 arg4 harg4 arg5 harg5 arg6 harg6 arg7 harg7 arg8 harg8 arg9 harg9 hc1 hc2 hc3 x0 x1 x2 xs0 xs1 xs2).1, y ∈ pc.1.set :=
  View.cover_of_tiledL _ S1x256x64.size (by sl_kernel_rfl) y
end

/-! ## The buffers after each point -/

section
variable (V : (c : Dev nD) → (b : Ref sig .tc) → Buf (Elt F) ((c : Thread nD τ).loc b))

/-- THE RECURSION over the grid's points in order. -/
def fstate (c : Dev nD) : (n : ℕ) → n < cfg1.N → FState F
  | 0, hn => fstA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scDen (Memref.isWhole_whole _) scAcc (Memref.isWhole_whole _) (fblk V c 0 ⟨0, hn⟩) (fblk V c 1 ⟨0, hn⟩) (fblk V c 2 ⟨0, hn⟩) (fcaseA ⟨0, hn⟩ (Nat.zero_mod _)).1 (fcaseA ⟨0, hn⟩ (Nat.zero_mod _)).2.1 (fcaseA ⟨0, hn⟩ (Nat.zero_mod _)).2.2
  | n + 1, hn =>
    if h1 : (n + 1) % 8 = 0 then
      fstA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseA ⟨n + 1, hn⟩ h1).1 (fcaseA ⟨n + 1, hn⟩ h1).2.1 (fcaseA ⟨n + 1, hn⟩ h1).2.2
    else if h2 : (n + 1) % 8 ≤ (n + 1) / 8 % 8 then
      if h3 : (n + 1) % 8 = 7 then
        fstC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseC ⟨n + 1, hn⟩ h1 h2 h3).1 (fcaseC ⟨n + 1, hn⟩ h1 h2 h3).2.1 (fcaseC ⟨n + 1, hn⟩ h1 h2 h3).2.2 (fstate c n (Nat.lt_of_succ_lt hn))
      else
        fstB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseB ⟨n + 1, hn⟩ h1 h2 h3).1 (fcaseB ⟨n + 1, hn⟩ h1 h2 h3).2.1 (fcaseB ⟨n + 1, hn⟩ h1 h2 h3).2.2 (fstate c n (Nat.lt_of_succ_lt hn))
    else
      if h3 : (n + 1) % 8 = 7 then
        fstE c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scDen (Memref.isWhole_whole _) scAcc (Memref.isWhole_whole _) (fblk V c 0 ⟨n + 1, hn⟩) (fblk V c 1 ⟨n + 1, hn⟩) (fblk V c 2 ⟨n + 1, hn⟩) (fcaseE ⟨n + 1, hn⟩ h1 h2 h3).1 (fcaseE ⟨n + 1, hn⟩ h1 h2 h3).2.1 (fcaseE ⟨n + 1, hn⟩ h1 h2 h3).2.2 (fstate c n (Nat.lt_of_succ_lt hn))
      else
        fstD (fstate c n (Nat.lt_of_succ_lt hn))

/-- The state before point `t` when `t` is not the first point. -/
abbrev fprev (c : Dev nD) (t : Fin cfg1.N) : FState F := fstate V c (t.val - 1) (Nat.lt_of_le_of_lt (Nat.sub_le _ _) t.isLt)

theorem fstate_A (c : Dev nD) (t : Fin cfg1.N) (h1 : t.val % 8 = 0) :
    fstate V c t.val t.isLt = fstA c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseA t h1).1 (fcaseA t h1).2.1 (fcaseA t h1).2.2 := by
  obtain ⟨n, hn⟩ := t
  cases n with
  | zero => rfl
  | succ n => exact (dif_pos h1).trans rfl
theorem fstate_B (c : Dev nD) (t : Fin cfg1.N) (h1 : ¬t.val % 8 = 0) (h2 : t.val % 8 ≤ t.val / 8 % 8) (h3 : ¬t.val % 8 = 7) :
    fstate V c t.val t.isLt = fstB c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseB t h1 h2 h3).1 (fcaseB t h1 h2 h3).2.1 (fcaseB t h1 h2 h3).2.2 (fprev V c t) := by
  obtain ⟨n, hn⟩ := t
  cases n with
  | zero => exact absurd (Nat.zero_mod _) h1
  | succ n => exact (dif_neg h1).trans ((dif_pos h2).trans ((dif_neg h3).trans rfl))
theorem fstate_C (c : Dev nD) (t : Fin cfg1.N) (h1 : ¬t.val % 8 = 0) (h2 : t.val % 8 ≤ t.val / 8 % 8) (h3 : t.val % 8 = 7) :
    fstate V c t.val t.isLt = fstC c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseC t h1 h2 h3).1 (fcaseC t h1 h2 h3).2.1 (fcaseC t h1 h2 h3).2.2 (fprev V c t) := by
  obtain ⟨n, hn⟩ := t
  cases n with
  | zero => exact absurd (Nat.zero_mod _) h1
  | succ n => exact (dif_neg h1).trans ((dif_pos h2).trans ((dif_pos h3).trans rfl))
theorem fstate_D (c : Dev nD) (t : Fin cfg1.N) (h1 : ¬t.val % 8 = 0) (h2 : ¬t.val % 8 ≤ t.val / 8 % 8) (h3 : ¬t.val % 8 = 7) :
    fstate V c t.val t.isLt = fstD (fprev V c t) := by
  obtain ⟨n, hn⟩ := t
  cases n with
  | zero => exact absurd (Nat.zero_mod _) h1
  | succ n => exact (dif_neg h1).trans ((dif_neg h2).trans ((dif_neg h3).trans rfl))
theorem fstate_E (c : Dev nD) (t : Fin cfg1.N) (h1 : ¬t.val % 8 = 0) (h2 : ¬t.val % 8 ≤ t.val / 8 % 8) (h3 : t.val % 8 = 7) :
    fstate V c t.val t.isLt = fstE c (grid1.coords t) (fm0 t) (fh0 t) (fm1 t) (fh1 t) (fm2 t) (fh2 t) (fm3 t) (fh3 t) scMax (Memref.isWhole_whole _) scDen (Memref.isWhole_whole _) scAcc (Memref.isWhole_whole _) (fblk V c 0 t) (fblk V c 1 t) (fblk V c 2 t) (fcaseE t h1 h2 h3).1 (fcaseE t h1 h2 h3).2.1 (fcaseE t h1 h2 h3).2.2 (fprev V c t) := by
  obtain ⟨n, hn⟩ := t
  cases n with
  | zero => exact absurd (Nat.zero_mod _) h1
  | succ n => exact (dif_neg h1).trans ((dif_neg h2).trans ((dif_pos h3).trans rfl))

/-! ## The invariant between points -/

/-- The other launch's six staging buffers, each at some contents: never touched by this region. -/
def frest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_to (c : Dev nD) : (Pipeline.ΦA spec1 c : sProp 𝕄) ⊢ iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) := by
  rw [PhiA1_eq]; unfold frest6
  iintro ⟨⟨Ha, Hb, Hc, Hd, He, Hf, H0, H1, H2⟩, Hg⟩
  isplitl [Ha Hb Hc Hd He Hf]
  · isplitl [Ha]; · iexact Ha
    isplitl [Hb]; · iexact Hb
    isplitl [Hc]; · iexact Hc
    isplitl [Hd]; · iexact Hd
    isplitl [He]; · iexact He
    iexact Hf
  isplitl [H0]; · iexact H0
  isplitl [H1]; · iexact H1
  isplitl [H2]; · iexact H2
  iexact Hg
theorem PhiA1_of (c : Dev nD) : iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) ⊢ (Pipeline.ΦA spec1 c : sProp 𝕄) := by
  rw [PhiA1_eq]; unfold frest6
  iintro ⟨⟨Ha, Hb, Hc, Hd, He, Hf⟩, H0, H1, H2, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [H0]; · iexact H0
    isplitl [H1]; · iexact H1
    iexact H2
  iexact Hg

/-- Before the first point the carried buffers hold anything; after point `n` they hold `fstate … n`. -/
def fPhi (c : Dev nD) : (n : ℕ) → n ≤ cfg1.N → sProp 𝕄
  | 0, _ => Pipeline.ΦA spec1 c
  | n + 1, hn => iprop(frest6 (F := F) c ∗ owns (c : Thread nD τ) scMax fullShare (fstate V c n hn).2.1 ∗ owns (c : Thread nD τ) scDen fullShare (fstate V c n hn).2.2.1 ∗ owns (c : Thread nD τ) scAcc fullShare (fstate V c n hn).2.2.2 ∗ (∃ r, prngReg c r))

theorem fPhi_zero (c : Dev nD) (n : ℕ) (h : n ≤ cfg1.N) (hz : n = 0) : fPhi V c n h = Pipeline.ΦA spec1 c := by
  subst hz; rfl
theorem fPhi_succ (c : Dev nD) (n : ℕ) (hn : n < cfg1.N) :
    fPhi V c (n + 1) hn = iprop(frest6 (F := F) c ∗ owns (c : Thread nD τ) scMax fullShare (fstate V c n hn).2.1 ∗ owns (c : Thread nD τ) scDen fullShare (fstate V c n hn).2.2.1 ∗ owns (c : Thread nD τ) scAcc fullShare (fstate V c n hn).2.2.2 ∗ (∃ r, prngReg c r)) := rfl
theorem fPhi_pos (c : Dev nD) (n : ℕ) (h : n ≤ cfg1.N) (hz : n ≠ 0) :
    fPhi V c n h = iprop(frest6 (F := F) c ∗ owns (c : Thread nD τ) scMax fullShare (fstate V c (n - 1) (by omega)).2.1 ∗ owns (c : Thread nD τ) scDen fullShare (fstate V c (n - 1) (by omega)).2.2.1 ∗ owns (c : Thread nD τ) scAcc fullShare (fstate V c (n - 1) (by omega)).2.2.2 ∗ (∃ r, prngReg c r)) := by
  cases n with
  | zero => exact absurd rfl hz
  | succ n => rfl
/-- Whatever the point, the invariant holds the carried buffers at SOME contents. -/
theorem fPhi_any (c : Dev nD) (n : ℕ) (h : n ≤ cfg1.N) : fPhi V c n h ⊢ iprop(frest6 (F := F) c ∗ (∃ d, owns (c : Thread nD τ) scMax fullShare d) ∗ (∃ d, owns (c : Thread nD τ) scDen fullShare d) ∗ (∃ d, owns (c : Thread nD τ) scAcc fullShare d) ∗ (∃ r, prngReg c r)) := by
  by_cases hz : n = 0
  · rw [fPhi_zero V c n h hz]; exact PhiA1_to c
  · rw [fPhi_pos V c n h hz]
    iintro ⟨Hr, H0, H1, H2, Hg⟩
    isplitl [Hr]; · iexact Hr
    isplitl [H0]; · iexists _; iexact H0
    isplitl [H1]; · iexists _; iexact H1
    isplitl [H2]; · iexists _; iexact H2
    iexact Hg

/-! ## The proof data -/

def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => (fstate V c t.val t.isLt).1
  Φ t := fPhi V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem fA_eq (c : Dev nD) (w : Fin cfg1.W) : (fdat V c).A w = V c (Pipeline.arrRef spec1 w) := by
  dsimp only [fdat]
theorem fPhi_castSucc (c : Dev nD) (t : Fin cfg1.N) : (fdat V c).Φ t.castSucc = fPhi V c t.val (Nat.le_of_lt t.isLt) := by
  dsimp only [fdat]; simp only [Fin.coe_castSucc]
theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = fblk V c 2 t := by dsimp only [fdat]
theorem fafter3 (c : Dev nD) (t : Fin cfg1.N) : (fdat V c).after 3 t = (fstate V c t.val t.isLt).1 := by dsimp only [fdat]
theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
theorem fbefore2 (c : Dev nD) (t : Fin cfg1.N) (d) : (fdat V c).before 2 t d = fblk V c 2 t :=
  fbefore2_of V (fdat V c) (fA_eq V c 2) (fafter2 V c) t d

/-! ## The body at a generic point -/

def fbodyPre (c : Dev nD) (t : Fin cfg1.N) : sProp 𝕄 :=
  iprop((fdat V c).Φ t.castSucc ∗ (fdat V c).owesAt () t.castSucc
    ∗ (∃ d, owns (c : Thread nD τ) (fm0 t) fullShare ((fdat V c).before 0 t d))
    ∗ (∃ d, owns (c : Thread nD τ) (fm1 t) fullShare ((fdat V c).before 1 t d))
    ∗ (∃ d, owns (c : Thread nD τ) (fm2 t) fullShare ((fdat V c).before 2 t d))
    ∗ (∃ d, owns (c : Thread nD τ) (fm3 t) fullShare ((fdat V c).before 3 t d)))

def fbodyPost (c : Dev nD) (t : Fin cfg1.N) : sProp 𝕄 :=
  iprop((fdat V c).Φ t.succ ∗ (fdat V c).owesAt () t.succ
    ∗ (fdat V c).leavesExact 0 t
    ∗ (fdat V c).leavesExact 1 t
    ∗ (fdat V c).leavesExact 2 t
    ∗ (fdat V c).leavesExact 3 t)

theorem fleaves0 (c : Dev nD) (t : Fin cfg1.N) : (fdat V c).leavesExact 0 t = owns (c : Thread nD τ) (fm0 t) fullShare (fblk V c 0 t) := by
  unfold Dat.leavesExact; rw [fliveAt0 t, fafter0]
theorem fleaves1 (c : Dev nD) (t : Fin cfg1.N) : (fdat V c).leavesExact 1 t = owns (c : Thread nD τ) (fm1 t) fullShare (fblk V c 1 t) := by
  unfold Dat.leavesExact; rw [fliveAt1 t, fafter1]
theorem fleaves2 (c : Dev nD) (t : Fin cfg1.N) : (fdat V c).leavesExact 2 t = owns (c : Thread nD τ) (fm2 t) fullShare (fblk V c 2 t) := by
  unfold Dat.leavesExact; rw [fliveAt2 t, fafter2]
theorem fleaves3_idle (c : Dev nD) (t : Fin cfg1.N) (h : ¬fc3 (grid1.coords t)) :
    (fdat V c).leavesExact 3 t = iprop(∃ d, owns (c : Thread nD τ) (fm3 t) fullShare ((fdat V c).before 3 t d)) :=
  Dat.leavesExact_idle (fdat V c) 3 t (fidleAt3 t h) (fnoFlush3 t h)
theorem fleaves3_live (c : Dev nD) (t : Fin cfg1.N) (h : fc3 (grid1.coords t)) :
    (fdat V c).leavesExact 3 t = owns (c : Thread nD τ) (fm3 t) fullShare (fstate V c t.val t.isLt).1 := by
  unfold Dat.leavesExact; rw [fliveAt3 t h, fafter3]

end

end Cert.Kernel.Gen

end
-- ==== Proof.FlashBodyB.lean ====
/-
  The attention body at a generic grid point: by cases on the point's three conditions, the case's run applies;
  the region's invariant hands it the three carried buffers at what the point before left (at anything when
  `ki = 0`) and takes them back at this point's contents; the result window's buffer is handed back untouched
  where `ki ≠ 7`.
-/
import proofs.«156562_j19267223290409_2_alg».proof.Proof.FlashFrameB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore0, fbefore1, fbefore2]
  rw [show (fdat V c).owesAt () t.succ = (fdat V c).owesAt () t.castSucc from rfl]
  rw [show (fdat V c).Φ t.succ = fPhi V c (t.val + 1) t.isLt from rfl, fPhi_succ]
  rw [fleaves0, fleaves1, fleaves2, fPhi_castSucc]
  by_cases h1 : t.val % 8 = 0
  · -- `ki = 0`
    rw [fleaves3_idle V c t (fcaseA t h1).2.2, fstate_A V c t h1]
    unfold fstA; (try dsimp only)
    iintro ⟨HΦ, Ho, ⟨%d0, H0⟩, ⟨%d1, H1⟩, ⟨%d2, H2⟩, ⟨%d3, H3⟩⟩
    ihave HΦ' := (fPhi_any V c _ _) $$ HΦ
    icases HΦ' with ⟨Hr, HS0, HS1, HS2, Hg⟩
    iapply ((flashRunA c (grid1.coords t) _ _ _ _ _ _ _ _ _ _ _ _ _ _ (fcaseA t h1).1 (fcaseA t h1).2.1 (fcaseA t h1).2.2 (fblk V c 0 t) (fblk V c 1 t) (fblk V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [Hr HS0 HS1 HS2 Hg]
    · isplitl [Hr]; · iexact Hr
      isplitl [HS0]
      · unfold owns; iexists _; isplitr
        swap; · iexact HS0
        ipureintro; exact View.read_writes_of_cover _ _ _ _ _ (fcovA0 _ _ _ _ _ _ _ _ _ _ _ _ _ _ _ _ _ _ _ _ _ _)
      isplitl [HS1]
      · unfold owns; iexists _; isplitr
        swap; · iexact HS1
        ipureintro; exact View.read_writes_of_cover _ _ _ _ _ (fcovA1 _ _ _ _ _ _ _ _ _ _ _ _ _ _ _ _ _ _ _ _ _ _)
      isplitl [HS2]
      · unfold owns; iexists _; isplitr
        swap; · iexact HS2
        ipureintro; exact View.read_writes_of_cover _ _ _ _ _ (fcovA2 _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

  · have hz : t.val ≠ 0 := fun e => h1 (by rw [e])
    by_cases h2 : t.val % 8 ≤ t.val / 8 % 8
    · by_cases h3 : t.val % 8 = 7
      · -- `0 < ki ≤ qi`, `ki = 7`
        rw [fleaves3_live V c t (fcaseC t h1 h2 h3).2.2, fstate_C V c t h1 h2 h3]
        unfold fstC; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunC c (grid1.coords t) _ _ _ _ _ _ _ _ _ _ _ _ _ _ (fcaseC t h1 h2 h3).1 (fcaseC t h1 h2 h3).2.1 (fcaseC t h1 h2 h3).2.2 (fblk V c 0 t) (fblk V c 1 t) (fblk V c 2 t) (fprev V c t).2.1 (fprev V c t).2.2.1 (fprev V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Hr HS0 HS1 HS2 Hg]
        · isplitl [Hr]; · iexact Hr
          isplitl [HS0]
          · unfold owns; iexists _; isplitr
            swap; · iexact HS0
            ipureintro; exact View.read_writes_of_cover _ _ _ _ _ (fcovC0 _ _ _ _ _ _ _ _ _ _ _ _ _ _ _ _ _ _ _ _ _ _ _ _ _)
          isplitl [HS1]
          · unfold owns; iexists _; isplitr
            swap; · iexact HS1
            ipureintro; exact View.read_writes_of_cover _ _ _ _ _ (fcovC1 _ _ _ _ _ _ _ _ _ _ _ _ _ _ _ _ _ _ _ _ _ _ _ _ _)
          isplitl [HS2]
          · unfold owns; iexists _; isplitr
            swap; · iexact HS2
            ipureintro; exact View.read_writes_of_cover _ _ _ _ _ (fcovC2 _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (fcovC3 _ _ _ _ _ _ _ _ _ _ _ _ _ _ _ _ _ _ _ _ _ _ _ _ _)

      · -- `0 < ki ≤ qi`, `ki < 7`
        rw [fleaves3_idle V c t (fcaseB t h1 h2 h3).2.2, fstate_B V c t h1 h2 h3]
        unfold fstB; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunB c (grid1.coords t) _ _ _ _ _ _ _ _ _ _ _ _ _ _ (fcaseB t h1 h2 h3).1 (fcaseB t h1 h2 h3).2.1 (fcaseB t h1 h2 h3).2.2 (fblk V c 0 t) (fblk V c 1 t) (fblk V c 2 t) (fprev V c t).2.1 (fprev V c t).2.2.1 (fprev V c t).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [Hr HS0 HS1 HS2 Hg]
        · isplitl [Hr]; · iexact Hr
          isplitl [HS0]
          · unfold owns; iexists _; isplitr
            swap; · iexact HS0
            ipureintro; exact View.read_writes_of_cover _ _ _ _ _ (fcovB0 _ _ _ _ _ _ _ _ _ _ _ _ _ _ _ _ _ _ _ _ _ _ _ _ _)
          isplitl [HS1]
          · unfold owns; iexists _; isplitr
            swap; · iexact HS1
            ipureintro; exact View.read_writes_of_cover _ _ _ _ _ (fcovB1 _ _ _ _ _ _ _ _ _ _ _ _ _ _ _ _ _ _ _ _ _ _ _ _ _)
          isplitl [HS2]
          · unfold owns; iexists _; isplitr
            swap; · iexact HS2
            ipureintro; exact View.read_writes_of_cover _ _ _ _ _ (fcovB2 _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

    · by_cases h3 : t.val % 8 = 7
      · -- `ki > qi`, `ki = 7`
        rw [fleaves3_live V c t (fcaseE t h1 h2 h3).2.2, fstate_E V c t h1 h2 h3]
        unfold fstE; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunE c (grid1.coords t) _ _ _ _ _ _ _ _ _ _ _ _ _ _ (fcaseE t h1 h2 h3).1 (fcaseE t h1 h2 h3).2.1 (fcaseE t h1 h2 h3).2.2 (fblk V c 0 t) (fblk V c 1 t) (fblk V c 2 t) (fprev V c t).2.1 (fprev V c t).2.2.1 (fprev V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hr HS0 HS1 HS2 Hg]
        · isplitl [Hr]; · iexact Hr
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (fcovE3 _ _ _ _ _ _ _ _ _ _ _ _ _ _ _ _ _ _ _ _ _ _ _ _ _)

      · -- `ki > qi`, `ki < 7`
        rw [fleaves3_idle V c t (fcaseD t h1 h2 h3).2.2, fstate_D V c t h1 h2 h3]
        unfold fstD; (try dsimp only)
        rw [fPhi_pos V c _ _ hz]
        iintro ⟨⟨Hr, HS0, HS1, HS2, Hg⟩, Ho, ⟨%d0, H0⟩, ⟨%d1, H1⟩, ⟨%d2, H2⟩, ⟨%d3, H3⟩⟩
        iapply ((flashRunD c (grid1.coords t) _ _ _ _ _ _ _ _ _ _ _ _ _ _ (fcaseD t h1 h2 h3).1 (fcaseD t h1 h2 h3).2.1 (fcaseD t h1 h2 h3).2.2 (fblk V c 0 t) (fblk V c 1 t) (fblk V c 2 t) (fprev V c t).2.1 (fprev V c t).2.2.1 (fprev V c t).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Hr HS0 HS1 HS2 Hg]
        · isplitl [Hr]; · iexact Hr
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

theorem fbody_obligation (c : Dev nD) : BodyObligation (fdat (F := F) V c) (defs₀ (F := F)) Variants.none () Set.univ := fun t => by
  rw [bigSep_W1, bigSep_W1]
  exact fsound_body V c t

/-- What the launch hands the region is the invariant before the first point. -/
theorem fhin (c : Dev nD) : Pipeline.ΦA spec1 c ⊢ (fdat V c).Φ 0 := by
  rw [show (fdat V c).Φ 0 = fPhi V c 0 (Nat.zero_le _) from rfl, fPhi_zero V c 0 _ rfl]
  try exact Idealize.SL.BI.Entails.refl _

/-- After the last point the invariant gives the launch's form back: the carried buffers' contents are forgotten. -/
theorem fhout (c : Dev nD) : (fdat V c).Φ (Fin.last cfg1.N) ⊢ Pipeline.ΦA spec1 c := by
  have e : (fdat V c).Φ (Fin.last cfg1.N) = fPhi V c (Fin.last cfg1.N).val (Nat.le_of_lt_succ (Fin.last cfg1.N).isLt) := by
    dsimp only [fdat]
  rw [e]
  exact (fPhi_any V c _ _).trans (PhiA1_of c)

end Cert.Kernel.Gen

end
-- ==== Proof.RunDataB.lean ====
/-
  The whole program as a run: host operations (zero-padding the three weight matrices and biases from 64 to 128
  rows, transposing and concatenating them, flattening the activations), the projection region, one reshape, the
  attention region. The buffer contents at each boundary are a fold from the launch memory; the projection region
  leaves its result array at what its eight row blocks write back, the attention region leaves its result array at
  what its sixty-four tiles write back, and no step writes an argument array. The attention region reads ONE
  array through three windows: the array is split into three shares on entry and joined again on exit.
-/
import proofs.«156562_j19267223290409_2_alg».proof.Proof.Gen.Kernel.Regions
import proofs.«156562_j19267223290409_2_alg».proof.Proof.ProjRegionB
import proofs.«156562_j19267223290409_2_alg».proof.Proof.FlashBodyB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- The projection region's entry contents, read at the core's references. -/
abbrev Vr13 (c : Dev nD) (b : Ref sig .tc) : Buf (Elt F) ((c : Thread nD τ).loc b) := V13 m c b
/-- What the projection region leaves in its result array. -/
def o14 (c : Dev nD) : Buf (Elt F) ((c : Thread nD τ).loc main_v14) := (pdat (Vr13 m) c).arrAt 3 cfg0.N
/-- The regions' results so far: only the projection's. -/
def outsA : Outs (F := F) := fun _ r c => Function.update (V0 m c) main_v14 (o14 m c) r
/-- The attention region's entry contents. -/
abbrev Vr15 (c : Dev nD) (b : Ref sig .tc) : Buf (Elt F) ((c : Thread nD τ).loc b) := V15 m (outsA m) c b
/-- What the attention region leaves in its result array. -/
def o16 (c : Dev nD) : Buf (Elt F) ((c : Thread nD τ).loc main_v16) := (fdat (Vr15 m) c).arrAt 3 cfg1.N
/-- Both regions' results. -/
def outsF : Outs (F := F) := fun _ r c => Function.update (Function.update (V0 m c) main_v14 (o14 m c)) main_v16 (o16 m c) r

theorem outsA_14 (c : Dev nD) : outsA m 14 main_v14 c = o14 m c := by
  unfold outsA; exact Function.update_self ..
theorem outsF_14 (c : Dev nD) : outsF m 14 main_v14 c = o14 m c := by
  unfold outsF
  rw [Function.update_of_ne (StableHlo.devRef_ne_of_ne (by decide) : (Proc.devRef .tc main_v14 : DevRef τ sig) ≠ Proc.devRef .tc main_v16)]
  exact Function.update_self ..
theorem outsF_16 (c : Dev nD) : outsF m 16 main_v16 c = o16 m c := by
  unfold outsF; exact Function.update_self ..
theorem V14_outs (c : Dev nD) : V14 m (outsF m) c = V14 m (outsA m) c := by
  unfold V14; rw [outsF_14, outsA_14]
theorem V15_outs (c : Dev nD) : V15 m (outsF m) c = V15 m (outsA m) c := by
  unfold V15; rw [V14_outs]

/-! ## The proof data family and the thread state -/

/-- Each region's proof data at its entry contents. -/
def pdatsF : (p : Fin 2) → (c : Dev nD) → Dat τ (Elt F) Unit ℕ (UR sig nD τ) ℕ (cfgs p) c
  | ⟨0, _⟩ => fun c => pdat (Vr13 m) c
  | ⟨1, _⟩ => fun c => fdat (Vr15 m) c
abbrev 𝒱z : Variants := Variants.none
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The projection region's arrays at its exit -/

theorem hF0 (c : Dev nD) (w : Fin cfg0.W) : (pdatsF m 0 c).arrAt w cfg0.N = V14 m (outsF m) c (Pipeline.arrRef spec0 w) := by
  match w with
  | ⟨0, _⟩ => exact ((pdat (Vr13 m) c).arrAt_in 0 rfl _).trans ((pA_eq (Vr13 m) c 0).trans (V14_of m (outsF m) c main_v13 (by decide)).symm)
  | ⟨1, _⟩ => exact ((pdat (Vr13 m) c).arrAt_in 1 rfl _).trans ((pA_eq (Vr13 m) c 1).trans (V14_of m (outsF m) c main_v10 (by decide)).symm)
  | ⟨2, _⟩ => exact ((pdat (Vr13 m) c).arrAt_in 2 rfl _).trans ((pA_eq (Vr13 m) c 2).trans (V14_of m (outsF m) c main_v12 (by decide)).symm)
  | ⟨3, _⟩ =>
    show (pdat (Vr13 m) c).arrAt 3 cfg0.N = V14 m (outsF m) c main_v14
    unfold V14; rw [Function.update_self, outsF_14]; rfl
theorem hrest0 (c : Dev nD) : ∀ b, b ∉ Finset.univ.image (Pipeline.arrRef spec0) → V14 m (outsF m) c b = Vr13 m c b :=
  fun b hb => V14_of m (outsF m) c b (by
    intro h; rw [List.mem_singleton] at h; subst h
    exact hb (Finset.mem_image.mpr ⟨3, Finset.mem_univ _, rfl⟩))

/-! ## The attention region's arrays: one array through three windows -/

theorem himg1 : (Finset.univ.image (Pipeline.arrRef spec1)) = insert main_v15 {main_v16} := by decide

/-- The array the three input windows read, held whole, is the three windows' shares of it; the result array is
    held whole. -/
theorem fsplit (c : Dev nD) (Vv : (b : Ref sig .tc) → Buf (Elt F) ((c : Thread nD τ).loc b)) (dat : Dat τ (Elt F) Unit ℕ (UR sig nD τ) ℕ cfg1 c)
    (hq0 : dat.q 0 = fullShare.left) (hq1 : dat.q 1 = fullShare.right.left) (hq2 : dat.q 2 = fullShare.right.right)
    (Fw : (w : Fin cfg1.W) → Buf (Elt F) ((cfg1.win w).arr.view.loc (c.tc : Thread nD τ)))
    (h0 : Fw 0 = Vv main_v15) (h1 : Fw 1 = Vv main_v15) (h2 : Fw 2 = Vv main_v15) (h3 : Fw 3 = Vv main_v16) :
    (Pipeline.arrBufs spec1 c Vv : sProp 𝕄) ⊣⊢ dat.arrays Fw := by
  have e0 : (((cfg1.win 0).arr.view.loc (c.tc : Thread nD τ)) ↦[(cfg1.win 0).arr.view.set]{dat.share 0} Fw 0 : sProp 𝕄)
      = (((c : Thread nD τ).loc main_v15) ↦{fullShare.left} Vv main_v15) := by
    rw [(arr_whole1 0).set_eq_univ, h0, show dat.share 0 = fullShare.left from (if_neg Bool.false_ne_true).trans hq0]
  have e1 : (((cfg1.win 1).arr.view.loc (c.tc : Thread nD τ)) ↦[(cfg1.win 1).arr.view.set]{dat.share 1} Fw 1 : sProp 𝕄)
      = (((c : Thread nD τ).loc main_v15) ↦{fullShare.right.left} Vv main_v15) := by
    rw [(arr_whole1 1).set_eq_univ, h1, show dat.share 1 = fullShare.right.left from (if_neg Bool.false_ne_true).trans hq1]
  have e2 : (((cfg1.win 2).arr.view.loc (c.tc : Thread nD τ)) ↦[(cfg1.win 2).arr.view.set]{dat.share 2} Fw 2 : sProp 𝕄)
      = (((c : Thread nD τ).loc main_v15) ↦{fullShare.right.right} Vv main_v15) := by
    rw [(arr_whole1 2).set_eq_univ, h2, show dat.share 2 = fullShare.right.right from (if_neg Bool.false_ne_true).trans hq2]
  have e3 : (((cfg1.win 3).arr.view.loc (c.tc : Thread nD τ)) ↦[(cfg1.win 3).arr.view.set]{dat.share 3} Fw 3 : sProp 𝕄)
      = (((c : Thread nD τ).loc main_v16) ↦{fullShare} Vv main_v16) := by
    rw [(arr_whole1 3).set_eq_univ, h3, show dat.share 3 = fullShare from if_pos rfl]
  have hL : (Pipeline.arrBufs spec1 c Vv : sProp 𝕄)
      = iprop((((c : Thread nD τ).loc main_v15) ↦{fullShare} Vv main_v15) ∗ (((c : Thread nD τ).loc main_v16) ↦{fullShare} Vv main_v16)) := by
    unfold Pipeline.arrBufs
    rw [himg1, bigSep_insert (by decide), bigSep_singleton]
    rfl
  unfold Dat.arrays
  rw [hL, bigSep_W1, e0, e1, e2, e3]
  constructor
  · iintro ⟨H15, H16⟩
    ihave H := (pointsTo_share (PosShare.mem_left_op_right fullShare)).1 $$ H15
    icases H with ⟨Ha, Hb⟩
    ihave H' := (pointsTo_share (PosShare.mem_left_op_right fullShare.right)).1 $$ Hb
    icases H' with ⟨Hb, Hc⟩
    isplitl [Ha]; · iexact Ha
    isplitl [Hb]; · iexact Hb
    isplitl [Hc]; · iexact Hc
    iexact H16
  · iintro ⟨Ha, Hb, Hc, H16⟩
    isplitr [H16]
    · iapply (pointsTo_share (PosShare.mem_left_op_right fullShare)).2
      isplitl [Ha]; · iexact Ha
      iapply (pointsTo_share (PosShare.mem_left_op_right fullShare.right)).2
      isplitl [Hb]; · iexact Hb
      iexact Hc
    iexact H16

theorem hF1 (c : Dev nD) (w : Fin cfg1.W) : (pdatsF m 1 c).arrAt w cfg1.N = V16 m (outsF m) c (Pipeline.arrRef spec1 w) := by
  match w with
  | ⟨0, _⟩ => exact ((fdat (Vr15 m) c).arrAt_in 0 rfl _).trans ((fA_eq (Vr15 m) c 0).trans (by rw [show V16 m (outsF m) c (Pipeline.arrRef spec1 0) = V15 m (outsF m) c main_v15 from V16_of m (outsF m) c main_v15 (by decide), V15_outs]))
  | ⟨1, _⟩ => exact ((fdat (Vr15 m) c).arrAt_in 1 rfl _).trans ((fA_eq (Vr15 m) c 1).trans (by rw [show V16 m (outsF m) c (Pipeline.arrRef spec1 1) = V15 m (outsF m) c main_v15 from V16_of m (outsF m) c main_v15 (by decide), V15_outs]))
  | ⟨2, _⟩ => exact ((fdat (Vr15 m) c).arrAt_in 2 rfl _).trans ((fA_eq (Vr15 m) c 2).trans (by rw [show V16 m (outsF m) c (Pipeline.arrRef spec1 2) = V15 m (outsF m) c main_v15 from V16_of m (outsF m) c main_v15 (by decide), V15_outs]))
  | ⟨3, _⟩ =>
    show (fdat (Vr15 m) c).arrAt 3 cfg1.N = V16 m (outsF m) c main_v16
    unfold V16; rw [Function.update_self, outsF_16]; rfl

end Cert.Kernel.Gen

end
-- ==== Proof.RunRegionsB.lean ====
/-
  The two kernel regions as items of the run, and the run itself: from any launch memory every weakly fair
  execution terminates, the seven argument arrays end as launched, and the result array ends at what the
  attention region's sixty-four tiles write back.
-/
import proofs.«156562_j19267223290409_2_alg».proof.Proof.RunDataB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The projection region: entered with every unscoped buffer at the contents after the host prefix, left with the
    result array at what its eight row blocks write back and every other buffer as entered. -/
def regP : Pipeline.RegionSeg (pcfgs (F := F)) adm (pdatsF m) () defs₀ 𝒱z Lz lvz 0 where
  win := launch0.win.to₀
  block_pos := launch0.block_pos
  stage_whole := launch0.stage_whole
  K := PEmpty
  osem k := k.elim
  ho := Pipeline.OwnSemFacts.none _
  hbody c := (pbody_obligation (Vr13 m) c).loose
  hwaits := Pipeline.hwaits_of_owed_zero _ _ _ _ Lz lvz 0 fun _ _ => rfl
  pre c := iprop(StableHlo.held (c : Thread nD τ) (Pipeline.ucRefs τ sig) (V13 m c) ∗ Rst c)
  post c := iprop(StableHlo.held (c : Thread nD τ) (Pipeline.ucRefs τ sig) (V14 m (outsF m) c) ∗ Rst c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (Vr13 m c) (fun b => V14 m (outsF m) c b) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at the contents after the reshape, left with the result
    array at what its sixty-four tiles write back. The array its three input windows read is split into three
    shares on entry and joined on exit. -/
def regA : Pipeline.RegionSeg (pcfgs (F := F)) adm (pdatsF m) () defs₀ 𝒱z Lz lvz 1 where
  win := winFacts₀1
  block_pos := block_pos1
  stage_whole := stage_whole1
  K := PEmpty
  osem k := k.elim
  ho := Pipeline.OwnSemFacts.none _
  hbody c := (fbody_obligation (Vr15 m) c).loose
  hwaits := Pipeline.hwaits_of_owed_zero _ _ _ _ Lz lvz 1 fun _ _ => rfl
  pre c := iprop(StableHlo.held (c : Thread nD τ) (Pipeline.ucRefs τ sig) (V15 m (outsF m) c) ∗ Rst c)
  post c := iprop(StableHlo.held (c : Thread nD τ) (Pipeline.ucRefs τ sig) (V16 m (outsF m) c) ∗ Rst c)
  X c := iprop(∃ r, prngReg c r)
  Y c := iprop(∃ r, prngReg c r)
  Z c := Pipeline.unscopedRest (Ix := Unit) (Name := ℕ) (U := UR sig nD τ) (Lvl := ℕ) spec1 c (Vr15 m c)
  hentry c := by
    rw [Pipeline.ownSems0_none, V15_outs]
    have hub := Pipeline.unscopedBufs_held (Ix := Unit) (Name := ℕ) (U := UR sig nD τ) (Lvl := ℕ) c (V15 m (outsA m) c)
    have hs := Pipeline.unscopedBufs_split₀ (Ix := Unit) (Name := ℕ) (U := UR sig nD τ) (Lvl := ℕ) (Val := Elt F) cfgs 1 winFacts₀1.arr_unscoped c (Vr15 m c)
    have hsp := (fsplit c (Vr15 m c) (fdat (Vr15 m) c) rfl rfl rfl ((fdat (Vr15 m) c).arrAt · 0) rfl rfl rfl rfl).1
    have hsplit : StableHlo.held (c : Thread nD τ) (Pipeline.ucRefs τ sig) (V15 m (outsA m) c)
        ⊢ (iprop((fdat (Vr15 m) c).arrays ((fdat (Vr15 m) c).arrAt · 0) ∗ Pipeline.unscopedRest spec1 c (Vr15 m c)) : sProp 𝕄) := by
      rw [← hub, hs]; exact sep_mono hsp .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (fhin (Vr15 m) c)
  hout c := by
    rw [Pipeline.ownSems0_none]
    refine (fhout (Vr15 m) c).trans ?_
    unfold Pipeline.ΦA
    iintro ⟨Hr, Hp⟩
    isplitl [Hp]; · iexact Hp
    isplitr; · iempintro
    iexact Hr
  hexit c := by
    have hub := Pipeline.unscopedBufs_held (Ix := Unit) (Name := ℕ) (U := UR sig nD τ) (Lvl := ℕ) c (V16 m (outsF m) c)
    have hs := Pipeline.unscopedBufs_split₀ (Ix := Unit) (Name := ℕ) (U := UR sig nD τ) (Lvl := ℕ) (Val := Elt F) cfgs 1 winFacts₀1.arr_unscoped c (fun b => V16 m (outsF m) c b)
    have hjn := (fsplit c (fun b => V16 m (outsF m) c b) (fdat (Vr15 m) c) rfl rfl rfl ((fdat (Vr15 m) c).arrAt · cfg1.N)
      (hF1 m c 0) (hF1 m c 1) (hF1 m c 2) (hF1 m c 3)).2
    have hrest : (Pipeline.unscopedRest (Ix := Unit) (Name := ℕ) (U := UR sig nD τ) (Lvl := ℕ) spec1 c (Vr15 m c) : sProp 𝕄)
        = Pipeline.unscopedRest spec1 c (fun b => V16 m (outsF m) c b) := by
      unfold Pipeline.unscopedRest
      refine bigSep_congr fun b hb => ?_
      have hb' : b ∉ Finset.univ.image (Pipeline.arrRef spec1) := (Finset.mem_sdiff.mp hb).2
      have e : V16 m (outsF m) c b = Vr15 m c b := (V16_of m (outsF m) c b (by
        intro h; rw [List.mem_singleton] at h; subst h
        exact hb' (Finset.mem_image.mpr ⟨3, Finset.mem_univ _, rfl⟩))).trans (by rw [V15_outs])
      beta_reduce; rw [e]
    have hjoin : (iprop((fdat (Vr15 m) c).arrays ((fdat (Vr15 m) c).arrAt · cfg1.N) ∗ Pipeline.unscopedRest spec1 c (Vr15 m c)) : sProp 𝕄)
        ⊢ StableHlo.held (c : Thread nD τ) (Pipeline.ucRefs τ sig) (V16 m (outsF m) c) := by
      rw [← hub, hs, hrest]; exact sep_mono hjn .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Gen

end
-- ==== Proof.RunMainB.lean ====
/-
  The run of the whole program: every weakly fair execution from any launch memory terminates, the seven argument
  arrays end as launched, and the result array ends at what the attention region's tiles write back
  (`o16`). The first theorem is stated for any two region records that chain with the host items; the second
  supplies the two records.
-/
import proofs.«156562_j19267223290409_2_alg».proof.Proof.RunRegionsB

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

section
variable (m : (ℓ : Loc nD τ sig) → Buf (Elt F) ℓ)

set_option backward.isDefEq.respectTransparency.types false in
/-- The run from the two regions' records: every weakly fair execution of the program terminates, each argument array ends as
    launched, and the result array ends at what the attention region leaves in it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      r.2.mem ((c.tc : Thread nD τ).loc main_v16) = outs 16 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v16) = outs 16 main_v16 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v16) (Finset.mem_filter.mpr ⟨StableHlo.devRef_mem_tcRefs main_v16, by decide⟩)).trans (by unfold V16; exact Function.update_self ..),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c)⟩
    · iexact HSI

end

variable (m : (ℓ : Loc nD τ sig) → Buf (Elt F) ℓ) (ρ : Dev nD → PrngReg)

local notation "𝕄" => MT nD τ sig Unit (Elt F) ℕ (UR sig nD τ) ℕ

set_option backward.isDefEq.respectTransparency.types false in
theorem run_value : θ_run defs (onTc (τ := τ) (main (F := F))) ⟨m, fun _ => 0, ρ⟩ (fun r => ∀ c : Dev nD,
      r.2.mem ((c.tc : Thread nD τ).loc main_v16) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := run_cond (F := F) m (Ix := Unit) (U := UR sig nD τ) (Lvl := ℕ) emb₁ () 𝒱z Lz lvz (fun _ _ => rfl) ρ (outsF m) (pdatsF m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, H⟩; iexact H)
    (R0 := regP m) (hpre0 := fun c => .rfl) (hpost0 := fun c => .rfl)
    (R1 := regA m) (hpre1 := fun c => .rfl) (hpost1 := fun c => .rfl)
  exact (θ_run defs _ _).mono (fun _ hr c => ⟨((hr c).1).trans (outsF_16 m c), (hr c).2⟩) h

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => (hr c).2) (run_value m ρ)

end Cert.Kernel.Gen

end
-- ==== Proof.Frames.lean ====
/-
  The three frames and the sanctioned idealization.
  Both programs of the kernel run to the end from any launch memory and leave their seven argument arrays as
  launched (the run over the two kernel regions, at either float instance); the reference is a straight line of
  host operations; and the one constant the idealization renames, the large negative number the kernel writes for
  a masked score, denotes `-∞` at the ideal instance by the certificate's table.
-/
import proofs.«156562_j19267223290409_2_alg».proof.Defs
import proofs.«156562_j19267223290409_2_alg».proof.Proof.RunMainI
import proofs.«156562_j19267223290409_2_alg».proof.Proof.RunMainB
import proofs.«156562_j19267223290409_2_alg».proof.Proof.Gen.ReferenceIdeal
import proofs.«156562_j19267223290409_2_alg».proof.Proof.Gen.Pre_finite_inputs
import proofs.«156562_j19267223290409_2_alg».proof.Proof.Gen.ReferenceIdeal.Run

noncomputable section

namespace Cert.Proof.Claims

open Idealize.ShloMosaic Idealize.ShloMosaic.TcCoe Idealize.SL.Sem

theorem frame_k : Cert.frame_Kernel := fun m ρ _ => Cert.Kernel.Gen.frame_all (F := Bits) m ρ
theorem frame_ki : Cert.frame_KernelIdeal := fun m ρ _ => Cert.KernelIdeal.Gen.frame_all (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The masked-score constant is `-∞` at the ideal instance. -/
theorem preserves : Cert.preserves_Kernel_KernelIdeal :=
  IdealRules.named_const.statement Cert.KernelIdeal.κ "neg_big" .f32 0xFF333332#32 ⊥ rfl

end Cert.Proof.Claims

end
-- ==== Proof.Spec.lean ====
/-
  Single-head causal attention as a function of its seven argument arrays, over the reals.

  For a batch entry `b`, a query position `t` and a head coordinate `h`:
  * the three projections are `p b t h = (∑ d, x b t d * w h d) + bias h` (queries, keys, values);
  * the score of key position `u` is `s u = (∑ h, q b t h * k b u h) / 8` (the head width is 64, and √64 = 8);
  * only the key positions `u ≤ t` take part (the causal mask); `rowMax` is the largest score among them
    (there is always one: `u = t`);
  * the weight of `u` is `exp (s u - rowMax)` for `u ≤ t` and `0` otherwise, `denom` their sum (positive: the
    term at the maximum is `1`);
  * the result is `∑ u, (weight u / denom) * v b u h`.
  Both programs compute this function when every input is finite; the two sides' proofs meet here.
-/
import Idealize.ShloMosaic.PureOps.Ideal
import Idealize.ShloMosaic.Lib.ValueIdx

noncomputable section

open scoped BigOperators

namespace Cert.CausalAttention

open Idealize.ShloMosaic Idealize.ShloMosaic.ValueIdx

/-- The activations `x : [8, 2048, 1024]`, a weight matrix `[64, 1024]`, a bias `[64]`, as real arrays. -/
abbrev Act : Type := (⟨3, ![8, 2048, 1024]⟩ : Shape).Idx → ℝ
abbrev Wgt : Type := (⟨2, ![64, 1024]⟩ : Shape).Idx → ℝ
abbrev Bias : Type := (⟨1, ![64]⟩ : Shape).Idx → ℝ

/-- One projection: `x[b, t, :] · w[h, :] + bias[h]`. -/
def proj (x : Act) (w : Wgt) (bias : Bias) (b : Fin 8) (t : Fin 2048) (h : Fin 64) : ℝ :=
  (∑ d : Fin 1024, x (ix3 b t d) * w (ix2 h d)) + bias (ix1 h)

/-- The scaled score of key position `u` for query position `t`: `q[b, t, :] · k[b, u, :] / 8`. -/
def score (q k : Fin 8 → Fin 2048 → Fin 64 → ℝ) (b : Fin 8) (t u : Fin 2048) : ℝ :=
  (∑ h : Fin 64, q b t h * k b u h) / 8

/-- The key positions a query position may attend to. -/
def allowed (t : Fin 2048) : Finset (Fin 2048) := Finset.univ.filter (· ≤ t)

theorem allowed_nonempty (t : Fin 2048) : (allowed t).Nonempty :=
  ⟨t, Finset.mem_filter.mpr ⟨Finset.mem_univ _, le_refl t⟩⟩

/-- The largest score among the allowed key positions. -/
def rowMax (s : Fin 2048 → ℝ) (t : Fin 2048) : ℝ := (allowed t).sup' (allowed_nonempty t) s

/-- The unnormalised softmax weight of key position `u`: zero outside the causal mask. -/
def weight (s : Fin 2048 → ℝ) (t u : Fin 2048) : ℝ :=
  if u ≤ t then Real.exp (s u - rowMax s t) else 0

/-- The softmax denominator. -/
def denom (s : Fin 2048 → ℝ) (t : Fin 2048) : ℝ := ∑ u : Fin 2048, weight s t u

/-- Causal attention of one head, element `[b, t, h]` of the result. -/
def attn (x : Act) (wq : Wgt) (bq : Bias) (wk : Wgt) (bk : Bias) (wv : Wgt) (bv : Bias)
    (i : (⟨3, ![8, 2048, 64]⟩ : Shape).Idx) : ℝ :=
  let s : Fin 2048 → ℝ := score (proj x wq bq) (proj x wk bk) (i 0) (i 1)
  ∑ u : Fin 2048, (weight s (i 1) u / denom s (i 1)) * proj x wv bv (i 0) u (i 2)

end Cert.CausalAttention

end
-- ==== Proof.LibERealCoe.lean ====
/-
  The coercion of the reals into the extended reals, through finite sums and through a masked maximum.

  * `ERealCoe.coe_finset_sum`: the coercion commutes with a finite sum.
  * `ERealCoe.fold_max_bot_ite_coe`: a maximum, started at `⊥`, over a finite set of entries that are either
    the coercion of a real (where a predicate holds) or `⊥` (where it fails) is the coercion of the largest
    real among the entries where the predicate holds, as soon as there is one.
-/
import Mathlib.Data.EReal.Inv
import Mathlib.Data.Finset.Fold
import Mathlib.Data.Finset.Lattice.Fold
import Mathlib.Algebra.BigOperators.Group.Finset.Basic

open scoped BigOperators

namespace ERealCoe

/-- The coercion `ℝ → EReal` commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A maximum from `⊥` over entries that are a real where `p` holds and `⊥` elsewhere is the largest of the
    reals where `p` holds. -/
theorem fold_max_bot_ite_coe {ι : Type*} (s : Finset ι) (p : ι → Prop) [DecidablePred p] (f : ι → ℝ)
    (H : (s.filter p).Nonempty) :
    s.fold max (⊥ : EReal) (fun i => if p i then ((f i : ℝ) : EReal) else ⊥)
      = (((s.filter p).sup' H f : ℝ) : EReal) := by
  apply le_antisymm
  · rw [Finset.fold_max_le]
    refine ⟨bot_le, fun i hi => ?_⟩
    by_cases hp : p i
    · rw [if_pos hp]
      exact EReal.coe_le_coe_iff.2 (Finset.le_sup' f (Finset.mem_filter.2 ⟨hi, hp⟩))
    · rw [if_neg hp]
      exact bot_le
  · rw [Finset.le_fold_max]
    obtain ⟨i, hi, he⟩ := Finset.exists_mem_eq_sup' H f
    obtain ⟨his, hp⟩ := Finset.mem_filter.1 hi
    exact Or.inr ⟨i, his, by rw [if_pos hp, he]⟩

end ERealCoe
-- ==== Proof.RefProj.lean ====
/-
  The reference's three projections, read at an index.

  Each of the query, key and value projections of the reference is a contraction over the 1024 model coordinates
  plus a bias broadcast along the batch and the position. On real inputs every product and every partial sum is
  a real, so entry `[b, t, h]` is the coercion of `proj x w bias b t h`.
-/
import proofs.«156562_j19267223290409_2_alg».proof.Proof.Gen.ReferenceIdeal.Read
import proofs.«156562_j19267223290409_2_alg».proof.Proof.Spec
import proofs.«156562_j19267223290409_2_alg».proof.Proof.LibERealCoe

noncomputable section

open scoped BigOperators

namespace Cert.ReferenceIdeal.RefValue

open Cert.ReferenceIdeal Cert.ReferenceIdeal.Gen Cert.ReferenceIdeal.Read Idealize.ShloMosaic Idealize.ShloMosaic.ValueIdx
  Cert.CausalAttention

/-- A real array read as an array of extended reals. -/
abbrev up {S : Shape} (a : S.Idx → ℝ) : (⟨S, .f32⟩ : BufTy).Contents (Elt Ideal) := fun i => ((a i : ℝ) : EReal)

/-- The contraction plus the bias, over coerced reals, is the coerced projection. -/
theorem coe_proj (x : Act) (w : Wgt) (bias : Bias) (b : Fin 8) (t : Fin 2048) (h : Fin 64) :
    (∑ d : Fin 1024, ((x (ix3 b t d) : ℝ) : EReal) * ((w (ix2 h d) : ℝ) : EReal)) + ((bias (ix1 h) : ℝ) : EReal)
      = ((proj x w bias b t h : ℝ) : EReal) := by
  unfold proj
  rw [EReal.coe_add, ERealCoe.coe_finset_sum]
  simp only [EReal.coe_mul]

/-- The query projection at `[b, t, h]`. -/
theorem v3_eq (x : Act) (wq : Wgt) (bq : Bias) (b : Fin 8) (t : Fin 2048) (h : Fin 64) :
    val_main_v3 (F := Ideal) (up x) (up wq) (up bq) (ix3 b t h) = ((proj x wq bq b t h : ℝ) : EReal) := by
  rw [val_main_v3_apply, val_main_v0_apply, val_main_v2_apply, val_main_v1_apply]
  have el : ∀ k : Fin 1024, lidx_main_v0 (ix3 b t h) k = ix3 b t k := fun k => funext fun a => Fin.ext (by
    match a with | ⟨0, _⟩ => rfl | ⟨1, _⟩ => rfl | ⟨2, _⟩ => rfl)
  have er : ∀ k : Fin 1024, ridx_main_v0 (ix3 b t h) k = ix2 h k := fun k => funext fun a => Fin.ext (by
    match a with | ⟨0, _⟩ => rfl | ⟨1, _⟩ => rfl)
  have eb : idx_main_v1 (idx_main_v2 (ix3 b t h)) = ix1 h := funext fun a => Fin.ext (by
    match a with | ⟨0, _⟩ => rfl)
  simp only [el, er, eb, Ideal.addf_def]
  exact coe_proj x wq bq b t h

/-- The key projection at `[b, t, h]`. -/
theorem v7_eq (x : Act) (wk : Wgt) (bk : Bias) (b : Fin 8) (t : Fin 2048) (h : Fin 64) :
    val_main_v7 (F := Ideal) (up x) (up wk) (up bk) (ix3 b t h) = ((proj x wk bk b t h : ℝ) : EReal) := by
  rw [val_main_v7_apply, val_main_v4_apply, val_main_v6_apply, val_main_v5_apply]
  have el : ∀ k : Fin 1024, lidx_main_v4 (ix3 b t h) k = ix3 b t k := fun k => funext fun a => Fin.ext (by
    match a with | ⟨0, _⟩ => rfl | ⟨1, _⟩ => rfl | ⟨2, _⟩ => rfl)
  have er : ∀ k : Fin 1024, ridx_main_v4 (ix3 b t h) k = ix2 h k := fun k => funext fun a => Fin.ext (by
    match a with | ⟨0, _⟩ => rfl | ⟨1, _⟩ => rfl)
  have eb : idx_main_v5 (idx_main_v6 (ix3 b t h)) = ix1 h := funext fun a => Fin.ext (by
    match a with | ⟨0, _⟩ => rfl)
  simp only [el, er, eb, Ideal.addf_def]
  exact coe_proj x wk bk b t h

/-- The value projection at `[b, t, h]`. -/
theorem v11_eq (x : Act) (wv : Wgt) (bv : Bias) (b : Fin 8) (t : Fin 2048) (h : Fin 64) :
    val_main_v11 (F := Ideal) (up x) (up wv) (up bv) (ix3 b t h) = ((proj x wv bv b t h : ℝ) : EReal) := by
  rw [val_main_v11_apply, val_main_v8_apply, val_main_v10_apply, val_main_v9_apply]
  have el : ∀ k : Fin 1024, lidx_main_v8 (ix3 b t h) k = ix3 b t k := fun k => funext fun a => Fin.ext (by
    match a with | ⟨0, _⟩ => rfl | ⟨1, _⟩ => rfl | ⟨2, _⟩ => rfl)
  have er : ∀ k : Fin 1024, ridx_main_v8 (ix3 b t h) k = ix2 h k := fun k => funext fun a => Fin.ext (by
    match a with | ⟨0, _⟩ => rfl | ⟨1, _⟩ => rfl)
  have eb : idx_main_v9 (idx_main_v10 (ix3 b t h)) = ix1 h := funext fun a => Fin.ext (by
    match a with | ⟨0, _⟩ => rfl)
  simp only [el, er, eb, Ideal.addf_def]
  exact coe_proj x wv bv b t h

end Cert.ReferenceIdeal.RefValue

end
-- ==== Proof.RefScore.lean ====
/-
  The reference's scaled scores and its causal mask, read at an index.

  The score of key position `u` for query position `t` is the contraction of the query and key projections over
  the 64 head coordinates, divided by the square root of the constant 64, that is by 8. The mask compares the row
  index with the column index as signed 32-bit words; both are below 2048, so the comparison is the one on the
  positions: `u ≤ t`. Where the mask holds the entry is the score; elsewhere it is the constant `-∞`, the
  bottom of the extended reals.
-/
import proofs.«156562_j19267223290409_2_alg».proof.Proof.RefProj
import Idealize.ShloMosaic.Lib.WordArith

noncomputable section

open scoped BigOperators

namespace Cert.ReferenceIdeal.RefValue

open Cert.ReferenceIdeal Cert.ReferenceIdeal.Gen Cert.ReferenceIdeal.Read Idealize.ShloMosaic Idealize.ShloMosaic.ValueIdx
  Cert.CausalAttention

/-- The pattern `0x42800000` denotes 64, and the square root of 64 is 8. -/
theorem sqrt_scale :
    FloatOps.hostUnary (F := Ideal) (φ := .f32) .sqrt (FloatOps.ofBits (F := Ideal) .f32 0x42800000#32)
      = ((8 : ℝ) : EReal) := by
  have h64 : Ideal.ofBits .f32 0x42800000#32 = ((64 : ℝ) : EReal) := by
    simp [Ideal.ofBits, Ideal.ieee, -EReal.coe_mul]; norm_num
  have h8 : Real.sqrt 64 = 8 := by
    rw [show (64 : ℝ) = 8 ^ 2 by norm_num, Real.sqrt_sq (by norm_num)]
  rw [Ideal.hostUnary_sqrt_def, Ideal.ofBits_def, h64, Ideal.sqrt_coe, if_neg (by norm_num), h8]

/-- The pattern `0xFF800000` denotes `-∞`. -/
theorem neg_inf : FloatOps.ofBits (F := Ideal) .f32 0xFF800000#32 = (⊥ : EReal) := by
  rw [Ideal.ofBits_def]; simp [Ideal.ofBits, Ideal.ieee]

/-- The scaled score at `[b, t, u]`. -/
theorem v15_eq (x : Act) (wq : Wgt) (bq : Bias) (wk : Wgt) (bk : Bias) (b : Fin 8) (t u : Fin 2048) :
    val_main_v15 (F := Ideal) (up x) (up wq) (up bq) (up wk) (up bk) (ix3 b t u)
      = ((score (proj x wq bq) (proj x wk bk) b t u : ℝ) : EReal) := by
  rw [val_main_v15_apply, val_main_v12_apply, val_main_v14_apply, val_main_v13_apply, val_main_cst_apply]
  have el : ∀ k : Fin 64, lidx_main_v12 (ix3 b t u) k = ix3 b t k := fun k => funext fun a => Fin.ext (by
    match a with | ⟨0, _⟩ => rfl | ⟨1, _⟩ => rfl | ⟨2, _⟩ => rfl)
  have er : ∀ k : Fin 64, ridx_main_v12 (ix3 b t u) k = ix3 b u k := fun k => funext fun a => Fin.ext (by
    match a with | ⟨0, _⟩ => rfl | ⟨1, _⟩ => rfl | ⟨2, _⟩ => rfl)
  simp only [el, er, v3_eq, v7_eq, sqrt_scale, Ideal.hostDivf_def]
  rw [Ideal.div_coe (by norm_num : (8 : ℝ) ≠ 0)]
  unfold score
  rw [div_eq_mul_one_div (∑ h : Fin 64, proj x wq bq b t h * proj x wk bk b u h) 8, EReal.coe_mul,
    ERealCoe.coe_finset_sum]
  simp only [EReal.coe_mul]

/-- The causal mask at `[b, t, u]`: one exactly when `u ≤ t`. -/
theorem mask_eq (b : Fin 8) (t u : Fin 2048) :
    val_main_call1_v1 (F := Ideal) (ix3 b t u) = if u ≤ t then 1#1 else 0#1 := by
  rw [val_main_call1_v1_apply, val_main_v17_apply, val_main_call0_v4_apply, val_main_call0_v2_apply,
    val_main_call0_v0_apply, val_main_call0_v1_apply, val_main_call0_c_apply, val_main_call0_v3_apply,
    val_main_v16_apply, val_main_c_apply, val_main_call0_v5_apply, val_main_call0_c_0_apply]
  show Scalar.select (IntOp.cmpi .sge (IntOp.addi (BitVec.ofNat 32 t.val) 0#32) (BitVec.ofNat 32 u.val)) 1#1 0#1 = _
  have ht : (BitVec.ofNat 32 t.val).toInt = t.val :=
    WordArith.toInt_ofNat_small _ (by have := t.isLt; omega)
  have hu : (BitVec.ofNat 32 u.val).toInt = u.val :=
    WordArith.toInt_ofNat_small _ (by have := u.isLt; omega)
  have hadd : IntOp.addi (BitVec.ofNat 32 t.val) 0#32 = BitVec.ofNat 32 t.val := by
    unfold IntOp.addi; exact BitVec.add_zero _
  rw [hadd]
  by_cases h : u ≤ t
  · rw [if_pos h, IntOp.cmpi_sge.2 (by rw [ht, hu]; exact Int.ofNat_le.2 (Fin.le_def.1 h)), select_one]
  · have hc : ¬ IntOp.cmpi .sge (BitVec.ofNat 32 t.val) (BitVec.ofNat 32 u.val) = 1#1 := fun hc => h (by
      have := IntOp.cmpi_sge.1 hc
      rw [ht, hu] at this
      exact Fin.le_def.2 (Int.ofNat_le.1 this))
    rw [if_neg h, eq_zero_of_ne_one hc, select_zero]

/-- The masked score at `[b, t, u]`: the score where `u ≤ t`, `-∞` elsewhere. -/
theorem v18_eq (x : Act) (wq : Wgt) (bq : Bias) (wk : Wgt) (bk : Bias) (b : Fin 8) (t u : Fin 2048) :
    val_main_v18 (F := Ideal) (up x) (up wq) (up bq) (up wk) (up bk) (ix3 b t u)
      = if u ≤ t then ((score (proj x wq bq) (proj x wk bk) b t u : ℝ) : EReal) else ⊥ := by
  rw [val_main_v18_apply, mask_eq, v15_eq, val_main_call1_v2_apply, val_main_call1_v0_apply, val_main_cst_0_apply,
    neg_inf]
  by_cases h : u ≤ t
  · rw [if_pos h, if_pos h, select_one]
  · rw [if_neg h, if_neg h, select_zero]

end Cert.ReferenceIdeal.RefValue

end
-- ==== Proof.RefSoftmax.lean ====
/-
  The reference's softmax over the masked scores, read at an index.

  For a query position `t` the masked scores are the real scores `s u` at the key positions `u ≤ t` and `-∞`
  elsewhere. Their maximum over all 2048 key positions, started at `-∞`, is the largest real score among the
  allowed positions (there is one: `u = t`). Subtracting it and exponentiating gives `exp (s u - max)` at an
  allowed position and `exp (-∞) = 0` elsewhere: the unnormalised weight. The sum of the weights from zero is the
  denominator, a positive real (the weight at `u = t` is positive and none is negative), so each quotient is the
  real quotient.
-/
import proofs.«156562_j19267223290409_2_alg».proof.Proof.RefScore

noncomputable section

open scoped BigOperators

namespace Cert.ReferenceIdeal.RefValue

open Cert.ReferenceIdeal Cert.ReferenceIdeal.Gen Cert.ReferenceIdeal.Read Idealize.ShloMosaic Idealize.ShloMosaic.ValueIdx
  Cert.CausalAttention

/-- The masked scores of a row, with the abbreviation `s` for the row's real scores. -/
abbrev rowScore (x : Act) (wq : Wgt) (bq : Bias) (wk : Wgt) (bk : Bias) (b : Fin 8) (t : Fin 2048) : Fin 2048 → ℝ :=
  score (proj x wq bq) (proj x wk bk) b t

/-- A maximum over the last axis from `-∞`, at `[b, t]`, is the maximum from `⊥` over the 2048 entries of the row. -/
theorem rowmax_fold (y : S8x2048x2048.Idx → EReal) (b : Fin 8) (t : Fin 2048) :
    Host.reduce (FloatOps.maximumf (F := Ideal) (φ := .f32)) y (val_main_cst_1 (F := Ideal))
        reducesTo_S8x2048x2048_S8x2048_d2 h_S_ (ix2 b t)
      = (Finset.univ : Finset (Fin 2048)).fold max (⊥ : EReal) (fun u => y (ix3 b t u)) := by
  have h : S8x2048x2048.Reduces [2] S8x2048 := by decide
  refine (Host.reduce_eq_fold_single (FloatOps.maximumf (F := Ideal) (φ := .f32)) y (val_main_cst_1 (F := Ideal))
    reducesTo_S8x2048x2048_S8x2048_d2 h h_S_ (ix2 b t)).trans ?_
  have hf : (y ∘ h.lift (ix2 b t)) = fun u : Fin 2048 => y (ix3 b t u) :=
    funext fun k => congrArg y (funext fun c => Fin.ext (by fin_cases c <;> rfl))
  have hi : val_main_cst_1 (F := Ideal) (Shape.Idx.first h_S_) = (⊥ : EReal) := by
    rw [val_main_cst_1_apply, neg_inf]
  rw [hi]
  exact congrArg (fun f => Finset.fold max (⊥ : EReal) f (Finset.univ : Finset (Fin 2048))) hf

/-- The row maximum at `[b, t]`. -/
theorem v21_eq (x : Act) (wq : Wgt) (bq : Bias) (wk : Wgt) (bk : Bias) (b : Fin 8) (t : Fin 2048) :
    val_main_v21 (F := Ideal) (up x) (up wq) (up bq) (up wk) (up bk) (ix2 b t)
      = ((rowMax (rowScore x wq bq wk bk b t) t : ℝ) : EReal) := by
  rw [val_main_v21_apply, val_main_v20_apply, val_main_cst_2_apply, neg_inf, Ideal.maximumf_def,
    max_eq_right bot_le]
  unfold val_main_v19
  rw [rowmax_fold]
  simp only [v18_eq]
  exact ERealCoe.fold_max_bot_ite_coe Finset.univ (fun u => u ≤ t) (rowScore x wq bq wk bk b t) (allowed_nonempty t)

/-- The unnormalised weight at `[b, t, u]`. -/
theorem v25_eq (x : Act) (wq : Wgt) (bq : Bias) (wk : Wgt) (bk : Bias) (b : Fin 8) (t u : Fin 2048) :
    val_main_v25 (F := Ideal) (up x) (up wq) (up bq) (up wk) (up bk) (ix3 b t u)
      = ((weight (rowScore x wq bq wk bk b t) t u : ℝ) : EReal) := by
  rw [val_main_v25_apply, val_main_v24_apply, val_main_v23_apply, val_main_v22_apply]
  have e : idx_main_v22 (idx_main_v23 (ix3 b t u)) = ix2 b t := funext fun a => Fin.ext (by
    match a with | ⟨0, _⟩ => rfl | ⟨1, _⟩ => rfl)
  rw [e, v21_eq, v18_eq, Ideal.subf_def, Ideal.hostUnary_exp_def]
  unfold weight
  by_cases h : u ≤ t
  · rw [if_pos h, if_pos h, ← EReal.coe_sub, Ideal.exp_coe]
  · rw [if_neg h, if_neg h, EReal.bot_sub, Ideal.exp_bot, EReal.coe_zero]

/-- No weight is negative. -/
theorem weight_nonneg (s : Fin 2048 → ℝ) (t u : Fin 2048) : 0 ≤ weight s t u := by
  unfold weight
  by_cases h : u ≤ t
  · rw [if_pos h]; exact (Real.exp_pos _).le
  · rw [if_neg h]

/-- The denominator is positive: the weight of `u = t` is, and no weight is negative. -/
theorem denom_pos (s : Fin 2048 → ℝ) (t : Fin 2048) : 0 < denom s t := by
  unfold denom
  have h1 : weight s t t ≤ ∑ u : Fin 2048, weight s t u :=
    Finset.single_le_sum (fun u _ => weight_nonneg s t u) (Finset.mem_univ t)
  have h2 : 0 < weight s t t := by
    unfold weight; rw [if_pos le_rfl]; exact Real.exp_pos _
  exact lt_of_lt_of_le h2 h1

/-- The denominator at `[b, t]`. -/
theorem v26_eq (x : Act) (wq : Wgt) (bq : Bias) (wk : Wgt) (bk : Bias) (b : Fin 8) (t : Fin 2048) :
    val_main_v26 (F := Ideal) (up x) (up wq) (up bq) (up wk) (up bk) (ix2 b t)
      = ((denom (rowScore x wq bq wk bk b t) t : ℝ) : EReal) := by
  rw [val_main_v26_apply, val_main_cst_3_apply, Ideal.ofBits_def, Ideal.ofBits_zero_f32, zero_add]
  have e : ∀ k : Fin 2048, idx_main_v26 (ix2 b t) k = ix3 b t k := fun k => funext fun a => Fin.ext (by
    match a with | ⟨0, _⟩ => rfl | ⟨1, _⟩ => rfl | ⟨2, _⟩ => rfl)
  simp only [e, v25_eq]
  unfold denom
  rw [ERealCoe.coe_finset_sum]

/-- The normalised weight at `[b, t, u]`. -/
theorem v29_eq (x : Act) (wq : Wgt) (bq : Bias) (wk : Wgt) (bk : Bias) (b : Fin 8) (t u : Fin 2048) :
    val_main_v29 (F := Ideal) (up x) (up wq) (up bq) (up wk) (up bk) (ix3 b t u)
      = ((weight (rowScore x wq bq wk bk b t) t u / denom (rowScore x wq bq wk bk b t) t : ℝ) : EReal) := by
  rw [val_main_v29_apply, val_main_v28_apply, val_main_v27_apply]
  have e : idx_main_v27 (idx_main_v28 (ix3 b t u)) = ix2 b t := funext fun a => Fin.ext (by
    match a with | ⟨0, _⟩ => rfl | ⟨1, _⟩ => rfl)
  rw [e, v25_eq, v26_eq, Ideal.hostDivf_def, Ideal.div_coe (denom_pos _ t).ne', ← EReal.coe_mul,
    ← div_eq_mul_one_div]

end Cert.ReferenceIdeal.RefValue

end
-- ==== Proof.RefValue.lean ====
/-
  The reference computes causal attention: its result, as a function of real argument arrays, is the coercion
  of `Cert.CausalAttention.attn`.

  Entry `[b, t, h]` of the result is the contraction, over the 2048 key positions `u`, of the normalised weight at
  `[b, t, u]` with the value projection at `[b, u, h]`; both factors are coerced reals, so the sum is the coerced
  real sum that defines `attn`.
-/
import proofs.«156562_j19267223290409_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx
  Cert.CausalAttention

/-- The reference's result on coerced real arrays, stated with the abbreviation `up`. -/
theorem ref_value_up (x : Act) (wq : Wgt) (bq : Bias) (wk : Wgt) (bk : Bias) (wv : Wgt) (bv : Bias) :
    val_main_v30 (F := Ideal) (up x) (up wq) (up bq) (up wk) (up bk) (up wv) (up bv)
      = fun i => ((attn x wq bq wk bk wv bv i : ℝ) : EReal) := by
  funext i
  obtain ⟨b, t, h, rfl⟩ : ∃ (b : Fin 8) (t : Fin 2048) (h : Fin 64), i = ix3 b t h := ⟨i 0, i 1, i 2, eq_ix3 i⟩
  rw [val_main_v30_apply]
  have el : ∀ k : Fin 2048, lidx_main_v30 (ix3 b t h) k = ix3 b t k := fun k => funext fun a => Fin.ext (by
    match a with | ⟨0, _⟩ => rfl | ⟨1, _⟩ => rfl | ⟨2, _⟩ => rfl)
  have er : ∀ k : Fin 2048, ridx_main_v30 (ix3 b t h) k = ix3 b k h := fun k => funext fun a => Fin.ext (by
    match a with | ⟨0, _⟩ => rfl | ⟨1, _⟩ => rfl | ⟨2, _⟩ => rfl)
  simp only [el, er, v29_eq, v11_eq]
  show _ = ((∑ u : Fin 2048, (weight (rowScore x wq bq wk bk b t) t u / denom (rowScore x wq bq wk bk b t) t)
      * proj x wv bv b u h : ℝ) : EReal)
  rw [ERealCoe.coe_finset_sum]
  simp only [EReal.coe_mul]

/-- The reference's result on real inputs is causal attention. -/
theorem ref_value (x : Cert.CausalAttention.Act) (wq : Cert.CausalAttention.Wgt) (bq : Cert.CausalAttention.Bias)
    (wk : Cert.CausalAttention.Wgt) (bk : Cert.CausalAttention.Bias) (wv : Cert.CausalAttention.Wgt)
    (bv : Cert.CausalAttention.Bias) :
    Cert.ReferenceIdeal.Read.val_main_v30 (F := Ideal) (fun i => ((x i : ℝ) : EReal)) (fun i => ((wq i : ℝ) : EReal))
        (fun i => ((bq i : ℝ) : EReal)) (fun i => ((wk i : ℝ) : EReal)) (fun i => ((bk i : ℝ) : EReal))
        (fun i => ((wv i : ℝ) : EReal)) (fun i => ((bv i : ℝ) : EReal))
      = fun i => ((Cert.CausalAttention.attn x wq bq wk bk wv bv i : ℝ) : EReal) :=
  ref_value_up x wq bq wk bk wv bv

end Cert.ReferenceIdeal.RefValue

end
-- ==== Proof.Finite.lean ====
/-
  Finiteness of the inputs, decoded: when the precondition's predicate answers 1, every entry of the seven
  argument arrays is a real number.

  The predicate is the conjunction, array by array, of "every entry has absolute value below +∞". Absolute value
  on the extended reals is `max x (-x)`, so `max x (-x) < ⊤` excludes both `x = ⊤` and `x = ⊥`: what is left is
  the coercion of a real. The real arrays are then read off entry by entry.
-/
import proofs.«156562_j19267223290409_2_alg».proof.Pre_finite_inputs
import proofs.«156562_j19267223290409_2_alg».proof.Proof.Gen.Pre_finite_inputs
import proofs.«156562_j19267223290409_2_alg».proof.Proof.Spec
import Idealize.ShloMosaic.Lib.ReduceAll

noncomputable section

namespace Cert.CausalAttention

open Idealize.ShloMosaic Idealize.ShloMosaic.ValueIdx

/-- The rank-zero shape has one index. -/
instance subsingleton_scalarIdx : Subsingleton Cert.Pre_finite_inputs.S_.Idx :=
  ⟨fun a b => funext fun d => d.elim0⟩

/-- An extended real whose absolute value compares below the pattern of `+∞` is a real. -/
theorem real_of_abs_lt_inf (x : EReal)
    (h : FloatOps.cmpf (F := Ideal) (φ := .f32) .olt (FloatOps.hostAbsf (F := Ideal) (φ := .f32) x)
        (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  change Ideal.cmp .olt (max x (-x)) ⊤ = 1#1 at h
  induction x using EReal.rec with
  | bot => exact absurd h (by simp [Ideal.cmp])
  | coe r => exact ⟨r, rfl⟩
  | top => exact absurd h (by simp [Ideal.cmp])

/-- An array all of whose entries pass the test `|x| < +∞` is the coercion of a real array. -/
theorem coe_of_all_finite {S : Shape} (a : FVec Ideal S .f32)
    (hb : Cert.Pre_finite_inputs.S_.BroadcastsInDim S (![] : Fin 0 → Fin S.rank))
    (hall : ∀ i : S.Idx, cmpf (F := Ideal) .olt (Host.absf (F := Ideal) a)
        (broadcastInDim S ![] hb (constant (F := Ideal) Cert.Pre_finite_inputs.S_ .f32 0x7F800000#32)) i = 1#1) :
    ∃ r : S.Idx → ℝ, a = fun i => ((r i : ℝ) : EReal) := by
  have hr : ∀ i : S.Idx, ∃ r : ℝ, a i = (r : EReal) := fun i => real_of_abs_lt_inf (a i) (hall i)
  choose r hr using hr
  exact ⟨r, funext hr⟩

open Cert.Pre_finite_inputs in
/-- Under the precondition each of the seven argument arrays is the coercion of a real array. -/
theorem real_of_finite [Cert.Pre_finite_inputs.Facts]
    (a0 : FVec Ideal Cert.Pre_finite_inputs.S8x2048x1024 .f32) (a1 : FVec Ideal Cert.Pre_finite_inputs.S64x1024 .f32)
    (a2 : FVec Ideal Cert.Pre_finite_inputs.S64 .f32) (a3 : FVec Ideal Cert.Pre_finite_inputs.S64x1024 .f32)
    (a4 : FVec Ideal Cert.Pre_finite_inputs.S64 .f32) (a5 : FVec Ideal Cert.Pre_finite_inputs.S64x1024 .f32)
    (a6 : FVec Ideal Cert.Pre_finite_inputs.S64 .f32)
    (h : Cert.Pre_finite_inputs.fn (F := Ideal) a0 a1 a2 a3 a4 a5 a6 = (fun _ => 1#1)) :
    ∃ (x : Act) (wq : Wgt) (bq : Bias) (wk : Wgt) (bk : Bias) (wv : Wgt) (bv : Bias),
      a0 = (fun i => ((x i : ℝ) : EReal)) ∧ a1 = (fun i => ((wq i : ℝ) : EReal)) ∧
      a2 = (fun i => ((bq i : ℝ) : EReal)) ∧ a3 = (fun i => ((wk i : ℝ) : EReal)) ∧
      a4 = (fun i => ((bk i : ℝ) : EReal)) ∧ a5 = (fun i => ((wv i : ℝ) : EReal)) ∧
      a6 = (fun i => ((bv i : ℝ) : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  obtain ⟨x, hx⟩ := coe_of_all_finite a0 _ (Host.reduce_andi_all _ _ _ _ _ e0)
  obtain ⟨wq, hwq⟩ := coe_of_all_finite a1 _ (Host.reduce_andi_all _ _ _ _ _ e1)
  obtain ⟨bq, hbq⟩ := coe_of_all_finite a2 _ (Host.reduce_andi_all _ _ _ _ _ e2)
  obtain ⟨wk, hwk⟩ := coe_of_all_finite a3 _ (Host.reduce_andi_all _ _ _ _ _ e3)
  obtain ⟨bk, hbk⟩ := coe_of_all_finite a4 _ (Host.reduce_andi_all _ _ _ _ _ e4)
  obtain ⟨wv, hwv⟩ := coe_of_all_finite a5 _ (Host.reduce_andi_all _ _ _ _ _ e5)
  obtain ⟨bv, hbv⟩ := coe_of_all_finite a6 _ (Host.reduce_andi_all _ _ _ _ _ e6)
  exact ⟨x, wq, bq, wk, bk, wv, bv, hx, hwq, hbq, hwk, hbk, hwv, hbv⟩

end Cert.CausalAttention

end
-- ==== Proof.ProjPayload.lean ====
/-
  The projection kernel's stored value, read at one element, over the extended reals: entry (r, col) of what the
  body stores is the dot product of row r of its activations block with column col of its weight block, over the
  1024 input features, plus entry col of its bias row. The narrowing of the activations to the product's input
  format is the identity on extended reals, the product accumulates into the zero array, and the bias row is
  broadcast down the 2048 rows.
-/
import proofs.«156562_j19267223290409_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjVal

open Cert.KernelIdeal Cert.KernelIdeal.Gen Idealize.ShloMosaic Idealize.ShloMosaic.ValueIdx

/-- The matrix product's dimension numbers: rows of the left operand against columns of the right one. -/
abbrev PD : DotDims S2048x1024 S1024x384 S2048x384 := dot_S2048x1024_S1024x384_S2048x384_1_0_0_1_n_n

theorem lhs_row (i : S2048x384.Idx) (q : PD.contr.Idx) : (PD.lhsIdx i q 0).val = (i 0).val := by
  unfold DotDims.lhsIdx
  rw [dif_neg (show ¬(0 : Fin S2048x1024.rank) ∈ PD.lhsBatch by decide), dif_pos (show (0 : Fin S2048x1024.rank) ∈ PD.lhsNonContracting by decide)]
  rfl
theorem lhs_contr (i : S2048x384.Idx) (q : PD.contr.Idx) : (PD.lhsIdx i q 1).val = (q ⟨0, by decide⟩).val :=
  PD.lhsIdx_val_of_single rfl i q
theorem rhs_contr (i : S2048x384.Idx) (q : PD.contr.Idx) : (PD.rhsIdx i q 0).val = (q ⟨0, by decide⟩).val :=
  PD.rhsIdx_val_of_single rfl i q
theorem rhs_col (i : S2048x384.Idx) (q : PD.contr.Idx) : (PD.rhsIdx i q 1).val = (i 1).val := by
  unfold DotDims.rhsIdx
  rw [dif_neg (show ¬(1 : Fin S1024x384.rank) ∈ PD.rhsBatch by decide), dif_pos (show (1 : Fin S1024x384.rank) ∈ PD.rhsNonContracting by decide)]
  rfl

/-- The body's stored value at row `r`, column `col`: the row of the activations block against the column of the
    weight block, summed over the 1024 input features, plus the bias row's entry of that column. The change of
    format into the product is the identity on extended reals and the product accumulates into zero. -/
theorem pay_apply (x0 : Vec Ideal S2048x1024 .f32) (w0 : Vec Ideal S1024x384 .bf16) (b0 : Vec Ideal S1x384 .f32)
    (r : Fin 2048) (col : Fin 384) :
    k0_pay1 (F := Ideal) x0 w0 b0 (ix2 r col)
      = (∑ d : Fin 1024, x0 (ix2 r d) * w0 (ix2 d col)) + b0 (ix2 (0 : Fin 1) col) := by
  unfold k0_pay1
  refine (ValueIdx.addf_apply _ _ _).trans ?_
  refine congrArg₂ (· + ·) ?_ ?_
  · refine (Ideal.matmul_constant_zero_apply PD none _ _ (ix2 r col)).trans ?_
    rw [← Equiv.sum_comp (contrEquiv1 PD 1024 rfl rfl).symm]
    refine Finset.sum_congr rfl fun k _ => ?_
    have hk := contrEquiv1_symm_val PD 1024 rfl rfl k
    have el : PD.lhsIdx (ix2 r col) ((contrEquiv1 PD 1024 rfl rfl).symm k) = ix2 r k := funext fun a => Fin.ext (by
      match a with
      | ⟨0, _⟩ => exact lhs_row _ _
      | ⟨1, _⟩ => exact (lhs_contr _ _).trans hk)
    have er : PD.rhsIdx (ix2 r col) ((contrEquiv1 PD 1024 rfl rfl).symm k) = ix2 k col := funext fun a => Fin.ext (by
      match a with
      | ⟨0, _⟩ => exact (rhs_contr _ _).trans hk
      | ⟨1, _⟩ => exact rhs_col _ _)
    rw [el, er, shapeCast_self, shapeCast_self]
    rfl
  · rw [shapeCast_self]
    exact broadcastTo_apply b0 broadcasts_S1x384_S2048x384 (ix2 r col) (ix2 (0 : Fin 1) col) (fun a => by
      match a with
      | ⟨0, _⟩ => rfl
      | ⟨1, _⟩ => rfl)

end Cert.KernelIdeal.ProjVal

end
-- ==== Proof.ProjBlocks.lean ====
/-
  From the projection launch's blocks to its result array, at any contents `V` of the core's buffers on entry.
  Grid point t of the eight reads rows 2048 t … 2048 t + 2047 of the flattened activations, the whole weight
  matrix and the whole bias row, and writes back rows 2048 t … 2048 t + 2047 of the result: those rows of ONE
  function of the three arrays, the matrix product plus the bias row. Every row r of the result lies in the
  block of point r / 2048, so the array ends holding that function.
-/
import proofs.«156562_j19267223290409_2_alg».proof.Proof.ProjRegionI
import proofs.«156562_j19267223290409_2_alg».proof.Proof.ProjPayload
import Idealize.ShloMosaic.Lib.Pipeline.Value
import Idealize.ShloMosaic.Lib.ValueIdx

noncomputable section

open scoped BigOperators

namespace Cert.KernelIdeal.ProjVal

open Cert.KernelIdeal Cert.KernelIdeal.Gen Idealize.ShloMosaic Idealize.ShloMosaic.TcCoe Idealize.SL.Sem
open Idealize.ShloMosaic.ValueIdx
open Idealize.ShloMosaic.Pipeline (Dat)

/-- The matrix product plus the bias row, as one function of the three arrays: entry (r, col) is row r of `X`
    against column col of `W` plus entry col of `B`. -/
def projG (X : S16384x1024.Idx → EReal) (W : S1024x384.Idx → EReal) (B : S1x384.Idx → EReal) : S16384x384.Idx → EReal :=
  fun i => (∑ d : Fin 1024, X (ix2 (⟨(i 0).val, idx2_lt0 i⟩ : Fin 16384) d) * W (ix2 d (⟨(i 1).val, idx2_lt1 i⟩ : Fin 384)))
    + B (ix2 (0 : Fin 1) (⟨(i 1).val, idx2_lt1 i⟩ : Fin 384))

theorem hz : (![0, 0] : Fin 2 → Nat) = fun _ => 0 := funext fun a => by fin_cases a <;> rfl

/-- The printed index maps over the grid: the activations' and the result's blocks move down the rows with the
    point, the weights' and the bias row's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block's entry (r, col) of the stored value is entry (2048 t + r, col) of `projG`, when the activations block
    is rows 2048 t … of `X` and the other two blocks are `W` and `B`. -/
theorem block_entry (x0 : Vec Ideal S2048x1024 .f32) (w0 : Vec Ideal S1024x384 .bf16) (b0 : Vec Ideal S1x384 .f32)
    (X : S16384x1024.Idx → EReal) (W : S1024x384.Idx → EReal) (B : S1x384.Idx → EReal) (tv : Nat)
    (hx : ∀ (r : Fin 2048) (d : Fin 1024) (k : Fin 16384), k.val = 2048 * tv + r.val → x0 (ix2 r d) = X (ix2 k d))
    (hw : w0 = W) (hb : b0 = B)
    (r : Fin 2048) (col : Fin 384) (i : S16384x384.Idx) (hi0 : (i 0).val = 2048 * tv + r.val) (hi1 : (i 1).val = col.val) :
    k0_pay1 (F := Ideal) x0 w0 b0 (ix2 r col) = projG X W B i := by
  rw [pay_apply]
  unfold projG
  have ec : (⟨(i 1).val, idx2_lt1 i⟩ : Fin 384) = col := Fin.ext hi1
  rw [ec, hw, hb]
  refine congrArg (· + B (ix2 (0 : Fin 1) col)) ?_
  refine Finset.sum_congr rfl fun d _ => ?_
  rw [hx r d ⟨(i 0).val, idx2_lt0 i⟩ hi0]

section Blocks
variable (V : (c : Dev nD) → (b : Ref sig .tc) → Buf (Elt Ideal) ((c : Thread nD τ).loc b))

/-- The activations' block at point t is rows 2048 t … 2048 t + 2047 of the flattened activations. -/
theorem blk0_apply (c : Dev nD) (t : Fin cfg0.N) (y : S2048x1024.Idx) (k : S16384x1024.Idx)
    (hk0 : (k 0).val = 2048 * t.val + (y 0).val) (hk1 : (k 1).val = (y 1).val) :
    (pblk V c 0 t : Vec Ideal S2048x1024 .f32) y = (V c main_v13 : S16384x1024.Idx → EReal) k := by
  obtain ⟨e0, e1, -⟩ := idx_facts t
  unfold pblk
  rw [View.read_apply]
  show (V c main_v13 : S16384x1024.Idx → EReal) _ = (V c main_v13 : S16384x1024.Idx → EReal) k
  refine congrArg _ ?_
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 1024 + 1 * (y 1).val = (k 1).val; rw [e1, hk1]; omega

/-- The weights' block is the whole weight matrix at every point. -/
theorem blk1_eq (c : Dev nD) (t : Fin cfg0.N) :
    (pblk V c 1 t : Vec Ideal S1024x384 .bf16) = (V c main_v10 : S1024x384.Idx → EReal) := by
  obtain ⟨-, -, e0, e1, -⟩ := idx_facts t
  funext y
  unfold pblk
  rw [View.read_apply]
  show (V c main_v10 : S1024x384.Idx → EReal) _ = (V c main_v10 : S1024x384.Idx → EReal) y
  refine congrArg _ ?_
  funext a
  apply Fin.ext
  match a with
  | ⟨0, _⟩ => show win0_1.index t (0 : Fin 2) * 1024 + 1 * (y 0).val = (y 0).val; rw [e0]; omega
  | ⟨1, _⟩ => show win0_1.index t (1 : Fin 2) * 384 + 1 * (y 1).val = (y 1).val; rw [e1]; omega

/-- The bias row's block is the whole bias row at every point. -/
theorem blk2_eq (c : Dev nD) (t : Fin cfg0.N) :
    (pblk V c 2 t : Vec Ideal S1x384 .f32) = (V c main_v12 : S1x384.Idx → EReal) := by
  obtain ⟨-, -, -, -, e0, e1, -⟩ := idx_facts t
  funext y
  unfold pblk
  rw [View.read_apply]
  show (V c main_v12 : S1x384.Idx → EReal) _ = (V c main_v12 : S1x384.Idx → EReal) y
  refine congrArg _ ?_
  funext a
  apply Fin.ext
  match a with
  | ⟨0, _⟩ => show win0_2.index t (0 : Fin 2) * 1 + 1 * (y 0).val = (y 0).val; rw [e0]; omega
  | ⟨1, _⟩ => show win0_2.index t (1 : Fin 2) * 384 + 1 * (y 1).val = (y 1).val; rw [e1]; omega

/-- What point t writes back is block t of `projG` of the three arrays as the region finds them. -/
theorem flushed_eq (c : Dev nD) (t : Fin cfg0.N) :
    (pdat V c).flushed 3 t = ((cfg0.win 3).blk t).view.read (Elt Ideal)
      (projG (V c main_v13 : S16384x1024.Idx → EReal) (V c main_v10 : S1024x384.Idx → EReal) (V c main_v12 : S1x384.Idx → EReal)) := by
  show (cfg0.win 3).cut (grid0.coords t) ((pdat V c).after 3 t) = _
  rw [pafter3]
  unfold pout
  rw [View.canon_unit_zero hz]
  simp only [View.ld_unit_zero (S := S2048x1024) hz, View.ld_unit_zero (S := S1024x384) hz, View.ld_unit_zero (S := S1x384) hz]
  obtain ⟨-, -, -, -, -, -, e0, e1⟩ := idx_facts t
  funext j
  rw [View.read_apply]
  have hj0 : (j 0).val < 2048 := (j 0).isLt
  have hj1 : (j 1).val < 384 := (j 1).isLt
  show k0_pay1 (F := Ideal) (pblk V c 0 t) (pblk V c 1 t) (pblk V c 2 t) (ix2 (⟨(j 0).val, hj0⟩ : Fin 2048) (⟨(j 1).val, hj1⟩ : Fin 384)) = _
  refine block_entry (pblk V c 0 t) (pblk V c 1 t) (pblk V c 2 t) _ _ _ t.val
    (fun r d k hk => blk0_apply V c t (ix2 r d) (ix2 k d) hk rfl) (blk1_eq V c t) (blk2_eq V c t) _ _ _ ?_ ?_
  · show win0_3.index t (0 : Fin 2) * 2048 + 1 * (j 0).val = 2048 * t.val + (j 0).val
    rw [e0]; omega
  · show win0_3.index t (1 : Fin 2) * 384 + 1 * (j 1).val = (j 1).val
    rw [e1]; omega

/-- An index of the result array is in point t's block iff each coordinate is in the block's range on its axis. -/
theorem mem_blk3 (t : Fin cfg0.N) (i : S16384x384.Idx) :
    i ∈ ((cfg0.win 3).blk t).view.set ↔ ∀ a : Fin 2, win0_3.index t a * S2048x384.size a ≤ (i a).val ∧ (i a).val < win0_3.index t a * S2048x384.size a + S2048x384.size a := by
  show i ∈ ((View.whole main_v14).slice (win0_3.rect t)).set ↔ _
  rw [View.set_slice_whole, Rect.mem_set_unit]
  exact Iff.rfl

/-- Every row of the result lies in the block of the point that is its quotient by 2048. -/
theorem cover (i : S16384x384.Idx) : ∃ t : Fin cfg0.N, (cfg0.win 3).flush t = true ∧ i ∈ ((cfg0.win 3).blk t).view.set := by
  have hi0 : (i 0).val < 16384 := (i 0).isLt
  have hi1 : (i 1).val < 384 := (i 1).isLt
  have hN : cfg0.N = 8 := N_0
  let t : Fin cfg0.N := ⟨(i 0).val / 2048, by rw [hN]; omega⟩
  refine ⟨t, flush0_3 t, ?_⟩
  obtain ⟨-, -, -, -, -, -, e0, e1⟩ := idx_facts t
  have ht : t.val = (i 0).val / 2048 := rfl
  rw [mem_blk3]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 384 ≤ (i 1).val ∧ (i 1).val < win0_3.index t (1 : Fin 2) * 384 + 384; rw [e1]; omega

/-- The result array after the launch: the matrix product plus the bias row, of the three arrays as the region
    finds them. -/
theorem final (c : Dev nD) :
    (pdat V c).arrAt 3 cfg0.N = projG (V c main_v13 : S16384x1024.Idx → EReal) (V c main_v10 : S1024x384.Idx → EReal) (V c main_v12 : S1x384.Idx → EReal) :=
  (pdat V c).arrAt_eq_of_cover 3 _ (fun t _ => flushed_eq V c t) cover

end Blocks

end Cert.KernelIdeal.ProjVal

end
-- ==== Proof.ProjHost.lean ====
/-
  The host operations before the projection launch, read at an index over the reals. Each weight matrix [64, 1024]
  is padded with 64 zero rows, transposed and the three laid side by side as [1024, 384]; each bias [64] is padded
  with 64 zeros and the three laid end to end as one row [1, 384]; the activations [8, 2048, 1024] are flattened to
  [16384, 1024]. So, when the seven arguments hold real numbers:
  * row 2048 b + t of the flattened activations is row (b, t) of the activations;
  * entry (d, 128 g + h) of the weight array is entry (h, d) of the g-th weight matrix for h < 64 and 0 otherwise;
  * entry 128 g + h of the bias row is entry h of the g-th bias for h < 64 and 0 otherwise.
  The padding value is the integer 0 converted to a float, the extended real 0; the change of format of the weight
  array is the identity on extended reals.
-/
import proofs.«156562_j19267223290409_2_alg».proof.Proof.Gen.KernelIdeal.Regions
import proofs.«156562_j19267223290409_2_alg».proof.Proof.Spec
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.ProjVal

open Cert.KernelIdeal Cert.KernelIdeal.Gen Cert.CausalAttention Idealize.ShloMosaic Idealize.ShloMosaic.TcCoe Idealize.SL.Sem
open Idealize.ShloMosaic.StableHlo Idealize.ShloMosaic.ValueIdx

/-! ## The padded and concatenated weights and biases, over the reals -/

/-- A weight matrix padded to 128 rows with zeros, read transposed: entry (d, h). -/
def padW (w : Wgt) (d : Fin 1024) (h : Fin 128) : ℝ := if hh : h.val < 64 then w (ix2 (⟨h.val, hh⟩ : Fin 64) d) else 0
/-- A bias padded to 128 entries with zeros. -/
def padB (b : Bias) (h : Fin 128) : ℝ := if hh : h.val < 64 then b (ix1 (⟨h.val, hh⟩ : Fin 64)) else 0
/-- The three padded weight matrices side by side: columns 0…127, 128…255, 256…383. -/
def wcat (wq wk wv : Wgt) (d : Fin 1024) (col : Fin 384) : ℝ :=
  if h0 : col.val < 128 then padW wq d ⟨col.val, h0⟩
  else if h1 : col.val < 256 then padW wk d ⟨col.val - 128, by omega⟩
  else padW wv d ⟨col.val - 256, by have := col.isLt; omega⟩
/-- The three padded biases end to end. -/
def bcat (bq bk bv : Bias) (col : Fin 384) : ℝ :=
  if h0 : col.val < 128 then padB bq ⟨col.val, h0⟩
  else if h1 : col.val < 256 then padB bk ⟨col.val - 128, by omega⟩
  else padB bv ⟨col.val - 256, by have := col.isLt; omega⟩

/-! ## The host stages, over any contents `W` of the buffers before them -/

/-- A three-operand operation's result, each operand's contents read at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Reads a literal list of host operations at a result buffer: each operation's result at its own buffer is its
    function's value, at any other buffer what was there. -/
local macro "stage_results" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

section Stages
variable (W : Valuation τ sig (Elt Ideal))

/-- The flattened activations: the reshape of the first argument. -/
theorem stage_v13 : (StableHlo.after hostOps0_12 W (Proc.devRef .tc main_v13) : S16384x1024.Idx → EReal)
    = shapeCast S16384x1024 (W (Proc.devRef .tc main_arg0) : S8x2048x1024.Idx → EReal) shapeCasts_S8x2048x1024_S16384x1024 := by
  stage_results
  rfl

/-- The weight array: the three padded matrices transposed, concatenated along the columns, and narrowed. -/
theorem stage_v10 : (StableHlo.after hostOps0_12 W (Proc.devRef .tc main_v10) : S1024x384.Idx → EReal)
    = (truncf .bf16 (concatenate S1024x384 1
        [⟨S1024x128, transpose S1024x128 [1, 0] (W (Proc.devRef .tc main_v0) : S128x1024.Idx → EReal) transposes_S128x1024_S1024x128_1_0⟩,
         ⟨S1024x128, transpose S1024x128 [1, 0] (W (Proc.devRef .tc main_v1) : S128x1024.Idx → EReal) transposes_S128x1024_S1024x128_1_0⟩,
         ⟨S1024x128, transpose S1024x128 [1, 0] (W (Proc.devRef .tc main_v2) : S128x1024.Idx → EReal) transposes_S128x1024_S1024x128_1_0⟩]
        concatenates_S1024x128_S1024x128_S1024x128_S1024x384_d1 : FVec Ideal S1024x384 .f32) bitsLt_bf16_f32 : FVec Ideal S1024x384 .bf16) := by
  stage_results
  rfl

/-- The bias row: the three padded biases concatenated and viewed as one row. -/
theorem stage_v12 : (StableHlo.after hostOps0_12 W (Proc.devRef .tc main_v12) : S1x384.Idx → EReal)
    = shapeCast S1x384 (concatenate S384 0
        [⟨S128, (W (Proc.devRef .tc main_v3) : S128.Idx → EReal)⟩, ⟨S128, (W (Proc.devRef .tc main_v4) : S128.Idx → EReal)⟩,
         ⟨S128, (W (Proc.devRef .tc main_v5) : S128.Idx → EReal)⟩] concatenates_S128_S128_S128_S384_d0) shapeCasts_S384_S1x384 := by
  stage_results
  rfl

/-- The five integer zero constants. -/
theorem stage_c : (StableHlo.after hostOps0 W (Proc.devRef .tc main_c) : IVec S_ 32) = constantI S_ 32 0#32 := by
  stage_results
theorem stage_c_0 : (StableHlo.after hostOps0_2 W (Proc.devRef .tc main_c_0) : IVec S_ 32) = constantI S_ 32 0#32 := by
  stage_results
theorem stage_c_1 : (StableHlo.after hostOps0_4 W (Proc.devRef .tc main_c_1) : IVec S_ 32) = constantI S_ 32 0#32 := by
  stage_results
theorem stage_c_2 : (StableHlo.after hostOps0_6 W (Proc.devRef .tc main_c_2) : IVec S_ 32) = constantI S_ 32 0#32 := by
  stage_results
theorem stage_c_3 : (StableHlo.after hostOps0_8 W (Proc.devRef .tc main_c_3) : IVec S_ 32) = constantI S_ 32 0#32 := by
  stage_results
theorem stage_c_4 : (StableHlo.after hostOps0_10 W (Proc.devRef .tc main_c_4) : IVec S_ 32) = constantI S_ 32 0#32 := by
  stage_results

/-- The three padded weight matrices. -/
theorem stage_v0 : (StableHlo.after hostOps0_1 W (Proc.devRef .tc main_v0) : S128x1024.Idx → EReal)
    = pad S128x1024 ![0, 0] ![64, 0] ![0, 0] (W (Proc.devRef .tc main_arg1) : S64x1024.Idx → EReal)
        (sitofp .f32 (W (Proc.devRef .tc main_c) : IVec S_ 32) : FVec Ideal S_ .f32) pads_S64x1024_S128x1024_0640_000 h_S_ := by
  stage_results
  rfl
theorem stage_v1 : (StableHlo.after hostOps0_3 W (Proc.devRef .tc main_v1) : S128x1024.Idx → EReal)
    = pad S128x1024 ![0, 0] ![64, 0] ![0, 0] (W (Proc.devRef .tc main_arg3) : S64x1024.Idx → EReal)
        (sitofp .f32 (W (Proc.devRef .tc main_c_0) : IVec S_ 32) : FVec Ideal S_ .f32) pads_S64x1024_S128x1024_0640_000 h_S_ := by
  stage_results
  rfl
theorem stage_v2 : (StableHlo.after hostOps0_5 W (Proc.devRef .tc main_v2) : S128x1024.Idx → EReal)
    = pad S128x1024 ![0, 0] ![64, 0] ![0, 0] (W (Proc.devRef .tc main_arg5) : S64x1024.Idx → EReal)
        (sitofp .f32 (W (Proc.devRef .tc main_c_1) : IVec S_ 32) : FVec Ideal S_ .f32) pads_S64x1024_S128x1024_0640_000 h_S_ := by
  stage_results
  rfl
/-- The three padded biases. -/
theorem stage_v3 : (StableHlo.after hostOps0_7 W (Proc.devRef .tc main_v3) : S128.Idx → EReal)
    = pad S128 ![0] ![64] ![0] (W (Proc.devRef .tc main_arg2) : S64.Idx → EReal)
        (sitofp .f32 (W (Proc.devRef .tc main_c_2) : IVec S_ 32) : FVec Ideal S_ .f32) pads_S64_S128_0640 h_S_ := by
  stage_results
  rfl
theorem stage_v4 : (StableHlo.after hostOps0_9 W (Proc.devRef .tc main_v4) : S128.Idx → EReal)
    = pad S128 ![0] ![64] ![0] (W (Proc.devRef .tc main_arg4) : S64.Idx → EReal)
        (sitofp .f32 (W (Proc.devRef .tc main_c_3) : IVec S_ 32) : FVec Ideal S_ .f32) pads_S64_S128_0640 h_S_ := by
  stage_results
  rfl
theorem stage_v5 : (StableHlo.after hostOps0_11 W (Proc.devRef .tc main_v5) : S128.Idx → EReal)
    = pad S128 ![0] ![64] ![0] (W (Proc.devRef .tc main_arg6) : S64.Idx → EReal)
        (sitofp .f32 (W (Proc.devRef .tc main_c_4) : IVec S_ 32) : FVec Ideal S_ .f32) pads_S64_S128_0640 h_S_ := by
  stage_results
  rfl

end Stages

/-! ## The layout operations at an index -/

/-- The integer zero converted to a float is the extended real zero. -/
theorem sitofp_zero (i : S_.Idx) : (sitofp .f32 (constantI S_ 32 0#32) : FVec Ideal S_ .f32) i = 0 := by
  show (((0#32 : BitVec 32).toInt : ℝ) : EReal) = 0
  simp

/-- A padded weight matrix of real entries, read at (h, d). -/
theorem pad_w_read (xw : S64x1024.Idx → EReal) (cz : IVec S_ 32) (w : Wgt) (hx : xw = fun i => ((w i : ℝ) : EReal))
    (hc : cz = constantI S_ 32 0#32) (hh : Fin 128) (d : Fin 1024) :
    pad S128x1024 ![0, 0] ![64, 0] ![0, 0] xw (sitofp .f32 cz : FVec Ideal S_ .f32) pads_S64x1024_S128x1024_0640_000 h_S_ (ix2 hh d)
      = ((padW w d hh : ℝ) : EReal) := by
  subst hx hc
  unfold padW
  by_cases h : hh.val < 64
  · rw [dif_pos h]
    exact pad_apply_of_inside _ _ _ _ _ pads_S64x1024_S128x1024_0640_000 h_S_ (ix2 hh d) (ix2 (⟨hh.val, h⟩ : Fin 64) d) (fun a => by
      match a with
      | ⟨0, _⟩ => show hh.val = 0 + hh.val * (0 + 1); omega
      | ⟨1, _⟩ => show d.val = 0 + d.val * (0 + 1); omega)
  · rw [dif_neg h]
    refine (pad_apply_of_not_inside _ _ _ _ _ pads_S64x1024_S128x1024_0640_000 h_S_ (ix2 hh d) (0 : Fin 2) ?_).trans ((sitofp_zero _).trans EReal.coe_zero.symm)
    show ¬(0 ≤ hh.val ∧ (hh.val - 0) % (0 + 1) = 0 ∧ (hh.val - 0) / (0 + 1) < 64)
    omega

/-- A padded bias of real entries, read at h. -/
theorem pad_b_read (xb : S64.Idx → EReal) (cz : IVec S_ 32) (b : Bias) (hx : xb = fun i => ((b i : ℝ) : EReal))
    (hc : cz = constantI S_ 32 0#32) (hh : Fin 128) :
    pad S128 ![0] ![64] ![0] xb (sitofp .f32 cz : FVec Ideal S_ .f32) pads_S64_S128_0640 h_S_ (ix1 hh) = ((padB b hh : ℝ) : EReal) := by
  subst hx hc
  unfold padB
  by_cases h : hh.val < 64
  · rw [dif_pos h]
    exact pad_apply_of_inside _ _ _ _ _ pads_S64_S128_0640 h_S_ (ix1 hh) (ix1 (⟨hh.val, h⟩ : Fin 64)) (fun a => by
      match a with
      | ⟨0, _⟩ => show hh.val = 0 + hh.val * (0 + 1); omega)
  · rw [dif_neg h]
    refine (pad_apply_of_not_inside _ _ _ _ _ pads_S64_S128_0640 h_S_ (ix1 hh) (0 : Fin 1) ?_).trans ((sitofp_zero _).trans EReal.coe_zero.symm)
    show ¬(0 ≤ hh.val ∧ (hh.val - 0) % (0 + 1) = 0 ∧ (hh.val - 0) / (0 + 1) < 64)
    omega

/-- A transposed matrix read at (d, h) is the matrix at (h, d). -/
theorem transpose_read (A : S128x1024.Idx → EReal) (d : Fin 1024) (hh : Fin 128) :
    transpose S1024x128 [1, 0] A transposes_S128x1024_S1024x128_1_0 (ix2 d hh) = A (ix2 hh d) :=
  transpose_apply _ A _ (ix2 d hh) (ix2 hh d) (fun b => by
    match b with
    | ⟨0, _⟩ => rfl
    | ⟨1, _⟩ => rfl)

/-- Three [1024, 128] matrices side by side, read at column 128 g + h: the g-th at column h. -/
theorem cat_w_read (A : Fin 3 → S1024x128.Idx → EReal) (d : Fin 1024) (col : Fin 384) (g : Fin 3) (hh : Fin 128)
    (hc : col.val = 128 * g.val + hh.val) :
    concatenate S1024x384 1 [⟨S1024x128, A 0⟩, ⟨S1024x128, A 1⟩, ⟨S1024x128, A 2⟩]
      concatenates_S1024x128_S1024x128_S1024x128_S1024x384_d1 (ix2 d col) = A g (ix2 d hh) := by
  match g, hc with
  | ⟨0, _⟩, hc =>
    have hc' : col.val = 128 * 0 + hh.val := hc
    exact concatenate_apply_piece (1 : Fin 2) [⟨S1024x128, A 0⟩, ⟨S1024x128, A 1⟩, ⟨S1024x128, A 2⟩] _ (ix2 d col) 0 (by show (0 : Nat) < 3; omega) S1024x128 (A 0) rfl rfl 0 rfl (ix2 d hh)
      (fun b hb => by match b with | ⟨0, _⟩ => rfl | ⟨1, _⟩ => exact absurd rfl hb)
      (by show 0 + hh.val = col.val; omega)
  | ⟨1, _⟩, hc =>
    have hc' : col.val = 128 * 1 + hh.val := hc
    exact concatenate_apply_piece (1 : Fin 2) [⟨S1024x128, A 0⟩, ⟨S1024x128, A 1⟩, ⟨S1024x128, A 2⟩] _ (ix2 d col) 1 (by show (1 : Nat) < 3; omega) S1024x128 (A 1) rfl rfl 128 rfl (ix2 d hh)
      (fun b hb => by match b with | ⟨0, _⟩ => rfl | ⟨1, _⟩ => exact absurd rfl hb)
      (by show 128 + hh.val = col.val; omega)
  | ⟨2, _⟩, hc =>
    have hc' : col.val = 128 * 2 + hh.val := hc
    exact concatenate_apply_piece (1 : Fin 2) [⟨S1024x128, A 0⟩, ⟨S1024x128, A 1⟩, ⟨S1024x128, A 2⟩] _ (ix2 d col) 2 (by show (2 : Nat) < 3; omega) S1024x128 (A 2) rfl rfl 256 rfl (ix2 d hh)
      (fun b hb => by match b with | ⟨0, _⟩ => rfl | ⟨1, _⟩ => exact absurd rfl hb)
      (by show 256 + hh.val = col.val; omega)

/-- Three vectors of 128 entries end to end, read at entry 128 g + h: the g-th at entry h. -/
theorem cat_b_read (A : Fin 3 → S128.Idx → EReal) (col : Fin 384) (g : Fin 3) (hh : Fin 128)
    (hc : col.val = 128 * g.val + hh.val) :
    concatenate S384 0 [⟨S128, A 0⟩, ⟨S128, A 1⟩, ⟨S128, A 2⟩] concatenates_S128_S128_S128_S384_d0 (ix1 col) = A g (ix1 hh) := by
  match g, hc with
  | ⟨0, _⟩, hc =>
    have hc' : col.val = 128 * 0 + hh.val := hc
    exact concatenate_apply_piece (0 : Fin 1) [⟨S128, A 0⟩, ⟨S128, A 1⟩, ⟨S128, A 2⟩] _ (ix1 col) 0 (by show (0 : Nat) < 3; omega) S128 (A 0) rfl rfl 0 rfl (ix1 hh)
      (fun b hb => by match b with | ⟨0, _⟩ => exact absurd rfl hb)
      (by show 0 + hh.val = col.val; omega)
  | ⟨1, _⟩, hc =>
    have hc' : col.val = 128 * 1 + hh.val := hc
    exact concatenate_apply_piece (0 : Fin 1) [⟨S128, A 0⟩, ⟨S128, A 1⟩, ⟨S128, A 2⟩] _ (ix1 col) 1 (by show (1 : Nat) < 3; omega) S128 (A 1) rfl rfl 128 rfl (ix1 hh)
      (fun b hb => by match b with | ⟨0, _⟩ => exact absurd rfl hb)
      (by show 128 + hh.val = col.val; omega)
  | ⟨2, _⟩, hc =>
    have hc' : col.val = 128 * 2 + hh.val := hc
    exact concatenate_apply_piece (0 : Fin 1) [⟨S128, A 0⟩, ⟨S128, A 1⟩, ⟨S128, A 2⟩] _ (ix1 col) 2 (by show (2 : Nat) < 3; omega) S128 (A 2) rfl rfl 256 rfl (ix1 hh)
      (fun b hb => by match b with | ⟨0, _⟩ => exact absurd rfl hb)
      (by show 256 + hh.val = col.val; omega)

/-! ## The three arrays the launch reads, under real arguments -/

section Carry
variable (m : (ℓ : Loc nD τ sig) → Buf (Elt Ideal) ℓ) (c : Dev nD)

theorem V12_arg0 : V12 m c main_arg0 = m ((c : Thread nD τ).loc main_arg0) :=
  (V12_of m c main_arg0 (by decide)).trans <| (V11_of m c main_arg0 (by decide)).trans <| (V10_of m c main_arg0 (by decide)).trans <|
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide))

/-- Row `2048 b + t` of the flattened activations is row (b, t) of the first argument. -/
theorem host_x (k : Fin 16384) (d : Fin 1024) :
    (V13 m c main_v13 : S16384x1024.Idx → EReal) (ix2 k d)
      = (m ((c : Thread nD τ).loc main_arg0) : S8x2048x1024.Idx → EReal)
          (ix3 (⟨k.val / 2048, by omega⟩ : Fin 8) (⟨k.val % 2048, Nat.mod_lt _ (by norm_num)⟩ : Fin 2048) d) := by
  rw [← V12_arg0 m c]
  refine (congrFun (stage_v13 (V12 m c)) (ix2 k d)).trans ?_
  refine shapeCast_apply _ _ _ _ ?_
  have e1 := Shape.rowMajor_val_three (d := ![8, 2048, 1024])
    (ix3 (⟨k.val / 2048, by omega⟩ : Fin 8) (⟨k.val % 2048, Nat.mod_lt _ (by norm_num)⟩ : Fin 2048) d)
  have e2 := Shape.rowMajor_val_two (d := ![16384, 1024]) (ix2 k d)
  refine e1.trans (Eq.trans ?_ e2.symm)
  show ((k.val / 2048) * 2048 + k.val % 2048) * 1024 + d.val = k.val * 1024 + d.val
  omega

/-- The padded query weights as the last host stretch finds them. -/
theorem host_w0 (wq : Wgt) (h1 : m ((c : Thread nD τ).loc main_arg1) = fun i => ((wq i : ℝ) : EReal)) (hh : Fin 128) (d : Fin 1024) :
    (V12 m c main_v0 : S128x1024.Idx → EReal) (ix2 hh d) = ((padW wq d hh : ℝ) : EReal) := by
  have e : V12 m c main_v0 = V2 m c main_v0 :=
    (V12_of m c main_v0 (by decide)).trans <| (V11_of m c main_v0 (by decide)).trans <| (V10_of m c main_v0 (by decide)).trans <|
    (V9_of m c main_v0 (by decide)).trans <| (V8_of m c main_v0 (by decide)).trans <| (V7_of m c main_v0 (by decide)).trans <|
    (V6_of m c main_v0 (by decide)).trans <| (V5_of m c main_v0 (by decide)).trans <| (V4_of m c main_v0 (by decide)).trans <|
    (V3_of m c main_v0 (by decide))
  have ea : V1 m c main_arg1 = m ((c : Thread nD τ).loc main_arg1) := V1_of m c main_arg1 (by decide)
  rw [e]
  refine (congrFun (stage_v0 (V1 m c)) (ix2 hh d)).trans ?_
  exact pad_w_read _ _ wq (ea.trans h1) (stage_c (V0 m c)) hh d

/-- The padded key weights. -/
theorem host_w1 (wk : Wgt) (h3 : m ((c : Thread nD τ).loc main_arg3) = fun i => ((wk i : ℝ) : EReal)) (hh : Fin 128) (d : Fin 1024) :
    (V12 m c main_v1 : S128x1024.Idx → EReal) (ix2 hh d) = ((padW wk d hh : ℝ) : EReal) := by
  have e : V12 m c main_v1 = V4 m c main_v1 :=
    (V12_of m c main_v1 (by decide)).trans <| (V11_of m c main_v1 (by decide)).trans <| (V10_of m c main_v1 (by decide)).trans <|
    (V9_of m c main_v1 (by decide)).trans <| (V8_of m c main_v1 (by decide)).trans <| (V7_of m c main_v1 (by decide)).trans <|
    (V6_of m c main_v1 (by decide)).trans <| (V5_of m c main_v1 (by decide))
  have ea : V3 m c main_arg3 = m ((c : Thread nD τ).loc main_arg3) :=
    (V3_of m c main_arg3 (by decide)).trans <| (V2_of m c main_arg3 (by decide)).trans <| (V1_of m c main_arg3 (by decide))
  rw [e]
  refine (congrFun (stage_v1 (V3 m c)) (ix2 hh d)).trans ?_
  exact pad_w_read _ _ wk (ea.trans h3) (stage_c_0 (V2 m c)) hh d

/-- The padded value weights. -/
theorem host_w2 (wv : Wgt) (h5 : m ((c : Thread nD τ).loc main_arg5) = fun i => ((wv i : ℝ) : EReal)) (hh : Fin 128) (d : Fin 1024) :
    (V12 m c main_v2 : S128x1024.Idx → EReal) (ix2 hh d) = ((padW wv d hh : ℝ) : EReal) := by
  have e : V12 m c main_v2 = V6 m c main_v2 :=
    (V12_of m c main_v2 (by decide)).trans <| (V11_of m c main_v2 (by decide)).trans <| (V10_of m c main_v2 (by decide)).trans <|
    (V9_of m c main_v2 (by decide)).trans <| (V8_of m c main_v2 (by decide)).trans <| (V7_of m c main_v2 (by decide))
  have ea : V5 m c main_arg5 = m ((c : Thread nD τ).loc main_arg5) :=
    (V5_of m c main_arg5 (by decide)).trans <| (V4_of m c main_arg5 (by decide)).trans <| (V3_of m c main_arg5 (by decide)).trans <|
    (V2_of m c main_arg5 (by decide)).trans <| (V1_of m c main_arg5 (by decide))
  rw [e]
  refine (congrFun (stage_v2 (V5 m c)) (ix2 hh d)).trans ?_
  exact pad_w_read _ _ wv (ea.trans h5) (stage_c_1 (V4 m c)) hh d

/-- The padded query bias. -/
theorem host_b0 (bq : Bias) (h2 : m ((c : Thread nD τ).loc main_arg2) = fun i => ((bq i : ℝ) : EReal)) (hh : Fin 128) :
    (V12 m c main_v3 : S128.Idx → EReal) (ix1 hh) = ((padB bq hh : ℝ) : EReal) := by
  have e : V12 m c main_v3 = V8 m c main_v3 :=
    (V12_of m c main_v3 (by decide)).trans <| (V11_of m c main_v3 (by decide)).trans <| (V10_of m c main_v3 (by decide)).trans <|
    (V9_of m c main_v3 (by decide))
  have ea : V7 m c main_arg2 = m ((c : Thread nD τ).loc main_arg2) :=
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide))
  rw [e]
  refine (congrFun (stage_v3 (V7 m c)) (ix1 hh)).trans ?_
  exact pad_b_read _ _ bq (ea.trans h2) (stage_c_2 (V6 m c)) hh

/-- The padded key bias. -/
theorem host_b1 (bk : Bias) (h4 : m ((c : Thread nD τ).loc main_arg4) = fun i => ((bk i : ℝ) : EReal)) (hh : Fin 128) :
    (V12 m c main_v4 : S128.Idx → EReal) (ix1 hh) = ((padB bk hh : ℝ) : EReal) := by
  have e : V12 m c main_v4 = V10 m c main_v4 :=
    (V12_of m c main_v4 (by decide)).trans <| (V11_of m c main_v4 (by decide))
  have ea : V9 m c main_arg4 = m ((c : Thread nD τ).loc main_arg4) :=
    (V9_of m c main_arg4 (by decide)).trans <| (V8_of m c main_arg4 (by decide)).trans <| (V7_of m c main_arg4 (by decide)).trans <|
    (V6_of m c main_arg4 (by decide)).trans <| (V5_of m c main_arg4 (by decide)).trans <|
    (V4_of m c main_arg4 (by decide)).trans <| (V3_of m c main_arg4 (by decide)).trans <| (V2_of m c main_arg4 (by decide)).trans <|
    (V1_of m c main_arg4 (by decide))
  rw [e]
  refine (congrFun (stage_v4 (V9 m c)) (ix1 hh)).trans ?_
  exact pad_b_read _ _ bk (ea.trans h4) (stage_c_3 (V8 m c)) hh

/-- The padded value bias. -/
theorem host_b2 (bv : Bias) (h6 : m ((c : Thread nD τ).loc main_arg6) = fun i => ((bv i : ℝ) : EReal)) (hh : Fin 128) :
    (V12 m c main_v5 : S128.Idx → EReal) (ix1 hh) = ((padB bv hh : ℝ) : EReal) := by
  have ea : V11 m c main_arg6 = m ((c : Thread nD τ).loc main_arg6) :=
    (V11_of m c main_arg6 (by decide)).trans <| (V10_of m c main_arg6 (by decide)).trans <|
    (V9_of m c main_arg6 (by decide)).trans <| (V8_of m c main_arg6 (by decide)).trans <| (V7_of m c main_arg6 (by decide)).trans <|
    (V6_of m c main_arg6 (by decide)).trans <| (V5_of m c main_arg6 (by decide)).trans <|
    (V4_of m c main_arg6 (by decide)).trans <| (V3_of m c main_arg6 (by decide)).trans <| (V2_of m c main_arg6 (by decide)).trans <|
    (V1_of m c main_arg6 (by decide))
  refine (congrFun (stage_v5 (V11 m c)) (ix1 hh)).trans ?_
  exact pad_b_read _ _ bv (ea.trans h6) (stage_c_4 (V10 m c)) hh

/-- The weight array the launch reads: entry (d, col) is the concatenated padded weights'. -/
theorem host_w (wq wk wv : Wgt) (h1 : m ((c : Thread nD τ).loc main_arg1) = fun i => ((wq i : ℝ) : EReal))
    (h3 : m ((c : Thread nD τ).loc main_arg3) = fun i => ((wk i : ℝ) : EReal))
    (h5 : m ((c : Thread nD τ).loc main_arg5) = fun i => ((wv i : ℝ) : EReal)) (d : Fin 1024) (col : Fin 384) :
    (V13 m c main_v10 : S1024x384.Idx → EReal) (ix2 d col) = ((wcat wq wk wv d col : ℝ) : EReal) := by
  refine (congrFun (stage_v10 (V12 m c)) (ix2 d col)).trans ?_
  refine Eq.trans (truncf_apply (φ := .f32) (ψ := .bf16) _ bitsLt_bf16_f32 (ix2 d col)) ?_
  have hcol := col.isLt
  unfold wcat
  by_cases c0 : col.val < 128
  · rw [dif_pos c0]
    refine (cat_w_read (fun g => match g with
      | ⟨0, _⟩ => transpose S1024x128 [1, 0] (V12 m c main_v0 : S128x1024.Idx → EReal) transposes_S128x1024_S1024x128_1_0
      | ⟨1, _⟩ => transpose S1024x128 [1, 0] (V12 m c main_v1 : S128x1024.Idx → EReal) transposes_S128x1024_S1024x128_1_0
      | ⟨2, _⟩ => transpose S1024x128 [1, 0] (V12 m c main_v2 : S128x1024.Idx → EReal) transposes_S128x1024_S1024x128_1_0)
      d col 0 ⟨col.val, c0⟩ (by show col.val = 128 * 0 + col.val; omega)).trans ?_
    exact (transpose_read _ d _).trans (host_w0 m c wq h1 _ d)
  · rw [dif_neg c0]
    by_cases c1 : col.val < 256
    · rw [dif_pos c1]
      refine (cat_w_read (fun g => match g with
        | ⟨0, _⟩ => transpose S1024x128 [1, 0] (V12 m c main_v0 : S128x1024.Idx → EReal) transposes_S128x1024_S1024x128_1_0
        | ⟨1, _⟩ => transpose S1024x128 [1, 0] (V12 m c main_v1 : S128x1024.Idx → EReal) transposes_S128x1024_S1024x128_1_0
        | ⟨2, _⟩ => transpose S1024x128 [1, 0] (V12 m c main_v2 : S128x1024.Idx → EReal) transposes_S128x1024_S1024x128_1_0)
        d col 1 ⟨col.val - 128, by omega⟩ (by show col.val = 128 * 1 + (col.val - 128); omega)).trans ?_
      exact (transpose_read _ d _).trans (host_w1 m c wk h3 _ d)
    · rw [dif_neg c1]
      refine (cat_w_read (fun g => match g with
        | ⟨0, _⟩ => transpose S1024x128 [1, 0] (V12 m c main_v0 : S128x1024.Idx → EReal) transposes_S128x1024_S1024x128_1_0
        | ⟨1, _⟩ => transpose S1024x128 [1, 0] (V12 m c main_v1 : S128x1024.Idx → EReal) transposes_S128x1024_S1024x128_1_0
        | ⟨2, _⟩ => transpose S1024x128 [1, 0] (V12 m c main_v2 : S128x1024.Idx → EReal) transposes_S128x1024_S1024x128_1_0)
        d col 2 ⟨col.val - 256, by omega⟩ (by show col.val = 128 * 2 + (col.val - 256); omega)).trans ?_
      exact (transpose_read _ d _).trans (host_w2 m c wv h5 _ d)

/-- The bias row the launch reads: entry (0, col) is the concatenated padded biases'. -/
theorem host_b (bq bk bv : Bias) (h2 : m ((c : Thread nD τ).loc main_arg2) = fun i => ((bq i : ℝ) : EReal))
    (h4 : m ((c : Thread nD τ).loc main_arg4) = fun i => ((bk i : ℝ) : EReal))
    (h6 : m ((c : Thread nD τ).loc main_arg6) = fun i => ((bv i : ℝ) : EReal)) (col : Fin 384) :
    (V13 m c main_v12 : S1x384.Idx → EReal) (ix2 (0 : Fin 1) col) = ((bcat bq bk bv col : ℝ) : EReal) := by
  refine (congrFun (stage_v12 (V12 m c)) (ix2 (0 : Fin 1) col)).trans ?_
  refine (shapeCast_apply _ _ (ix2 (0 : Fin 1) col) (ix1 col) ?_).trans ?_
  · have e1 := Shape.rowMajor_val_one (d := ![384]) (ix1 col)
    have e2 := Shape.rowMajor_val_two (d := ![1, 384]) (ix2 (0 : Fin 1) col)
    refine e1.trans (Eq.trans ?_ e2.symm)
    show col.val = 0 * 384 + col.val
    omega
  have hcol := col.isLt
  unfold bcat
  by_cases c0 : col.val < 128
  · rw [dif_pos c0]
    refine (cat_b_read (fun g => match g with
      | ⟨0, _⟩ => (V12 m c main_v3 : S128.Idx → EReal)
      | ⟨1, _⟩ => (V12 m c main_v4 : S128.Idx → EReal)
      | ⟨2, _⟩ => (V12 m c main_v5 : S128.Idx → EReal))
      col 0 ⟨col.val, c0⟩ (by show col.val = 128 * 0 + col.val; omega)).trans ?_
    exact host_b0 m c bq h2 _
  · rw [dif_neg c0]
    by_cases c1 : col.val < 256
    · rw [dif_pos c1]
      refine (cat_b_read (fun g => match g with
        | ⟨0, _⟩ => (V12 m c main_v3 : S128.Idx → EReal)
        | ⟨1, _⟩ => (V12 m c main_v4 : S128.Idx → EReal)
        | ⟨2, _⟩ => (V12 m c main_v5 : S128.Idx → EReal))
        col 1 ⟨col.val - 128, by omega⟩ (by show col.val = 128 * 1 + (col.val - 128); omega)).trans ?_
      exact host_b1 m c bk h4 _
    · rw [dif_neg c1]
      refine (cat_b_read (fun g => match g with
        | ⟨0, _⟩ => (V12 m c main_v3 : S128.Idx → EReal)
        | ⟨1, _⟩ => (V12 m c main_v4 : S128.Idx → EReal)
        | ⟨2, _⟩ => (V12 m c main_v5 : S128.Idx → EReal))
        col 2 ⟨col.val - 256, by omega⟩ (by show col.val = 128 * 2 + (col.val - 256); omega)).trans ?_
      exact host_b2 m c bv h6 _

end Carry

end Cert.KernelIdeal.ProjVal

end
-- ==== Proof.SpecTiles.lean ====
/-
  Causal attention as the tiled kernel sees it, over the reals: the three projections padded from 64 to 128 head
  coordinates with zeros and laid side by side in one array of 384 columns; and, for one query row, the running
  maximum, denominator and numerator over the key positions of a PREFIX of the key axis that the causal mask allows.
  Folding key tiles of 256 positions into these three quantities one after the other, starting from nothing, ends
  at the softmax's maximum, denominator and numerator.
-/
import proofs.«156562_j19267223290409_2_alg».proof.Proof.Spec

noncomputable section

open scoped BigOperators

namespace Cert.CausalAttention

open Idealize.ShloMosaic Idealize.ShloMosaic.ValueIdx

/-- A projection padded with zeros from 64 to 128 head coordinates. -/
def padProj (p : Fin 8 → Fin 2048 → Fin 64 → ℝ) (b : Fin 8) (t : Fin 2048) (h : Fin 128) : ℝ :=
  if hh : h.val < 64 then p b t ⟨h.val, hh⟩ else 0

/-- The fused projection array `[8, 2048, 384]`: columns `0…127` the padded queries, `128…255` the padded keys,
    `256…383` the padded values. -/
def qkv (x : Act) (wq : Wgt) (bq : Bias) (wk : Wgt) (bk : Bias) (wv : Wgt) (bv : Bias)
    (i : (⟨3, ![8, 2048, 384]⟩ : Shape).Idx) : ℝ :=
  if h0 : (i 2).val < 128 then padProj (proj x wq bq) (i 0) (i 1) ⟨(i 2).val, h0⟩
  else if h1 : (i 2).val < 256 then padProj (proj x wk bk) (i 0) (i 1) ⟨(i 2).val - 128, by omega⟩
  else padProj (proj x wv bv) (i 0) (i 1) ⟨(i 2).val - 256, by have h384 : (i 2).val < 384 := (i 2).isLt; omega⟩

/-- The same array with the batch and position axes flattened: row `2048 b + t`. -/
def qkvFlat (x : Act) (wq : Wgt) (bq : Bias) (wk : Wgt) (bk : Bias) (wv : Wgt) (bv : Bias)
    (i : (⟨2, ![16384, 384]⟩ : Shape).Idx) : ℝ :=
  qkv x wq bq wk bk wv bv (ix3 (⟨(i 0).val / 2048, by have h16384 : (i 0).val < 16384 := (i 0).isLt; omega⟩ : Fin 8) (⟨(i 0).val % 2048, Nat.mod_lt _ (by norm_num)⟩ : Fin 2048) (i 1))

/-- The score computed over the padded head axis and scaled by the product with one eighth: the padding
    contributes zeros, and dividing by 8 is multiplying by 1/8. -/
def scoreP (q k : Fin 8 → Fin 2048 → Fin 128 → ℝ) (b : Fin 8) (t u : Fin 2048) : ℝ :=
  (∑ h : Fin 128, q b t h * k b u h) * (1 / 8)

/-- The allowed key positions among the first `n`. -/
def allowedBelow (t : Fin 2048) (n : ℕ) : Finset (Fin 2048) := Finset.univ.filter fun u => u.val < n ∧ u ≤ t

theorem allowedBelow_nonempty (t : Fin 2048) (n : ℕ) (hn : 0 < n) : (allowedBelow t n).Nonempty :=
  ⟨⟨0, by norm_num⟩, Finset.mem_filter.mpr ⟨Finset.mem_univ _, hn, Fin.mk_le_of_le_val (Nat.zero_le _)⟩⟩

/-- The running maximum over the allowed key positions among the first `n` (for `n = 0`, a placeholder). -/
def runMax (s : Fin 2048 → ℝ) (t : Fin 2048) (n : ℕ) : ℝ :=
  if hn : 0 < n then (allowedBelow t n).sup' (allowedBelow_nonempty t n hn) s else 0
/-- The running denominator: the weights relative to the running maximum. -/
def runDen (s : Fin 2048 → ℝ) (t : Fin 2048) (n : ℕ) : ℝ := ∑ u ∈ allowedBelow t n, Real.exp (s u - runMax s t n)
/-- The running numerator against one column `vv` of the values. -/
def runNum (s vv : Fin 2048 → ℝ) (t : Fin 2048) (n : ℕ) : ℝ := ∑ u ∈ allowedBelow t n, Real.exp (s u - runMax s t n) * vv u

end Cert.CausalAttention

end
-- ==== Proof.ProjValue.lean ====
/-
  The projection launch's result array over the reals. The launch leaves the matrix product of the flattened
  activations with the concatenated padded weights, plus the concatenated padded bias row; under real arguments
  that is the fused projection array of the specification, `qkvFlat`: in the columns of a padded head coordinate
  both the weight column and the bias entry are zero, so the entry is zero, and elsewhere it is the projection
  `x[b, t, :] · w[h, :] + bias[h]`. The coercion of the reals into the extended reals commutes with the products
  and the finite sum.
-/
import proofs.«156562_j19267223290409_2_alg».proof.Proof.ProjBlocks
import proofs.«156562_j19267223290409_2_alg».proof.Proof.ProjHost
import proofs.«156562_j19267223290409_2_alg».proof.Proof.SpecTiles

noncomputable section

open scoped BigOperators

namespace Cert.KernelIdeal.ProjVal

open Cert.KernelIdeal Cert.KernelIdeal.Gen Cert.CausalAttention Idealize.ShloMosaic Idealize.ShloMosaic.TcCoe Idealize.SL.Sem
open Idealize.ShloMosaic.ValueIdx

/-- The coercion `ℝ → EReal` commutes with a finite sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A padded projection is the sum against the padded weights plus the padded bias: on a padding coordinate
    every term and the bias are zero. -/
theorem padProj_eq (x : Act) (w : Wgt) (b : Bias) (bb : Fin 8) (t : Fin 2048) (h : Fin 128) :
    padProj (proj x w b) bb t h = (∑ d : Fin 1024, x (ix3 bb t d) * padW w d h) + padB b h := by
  unfold padProj padW padB proj
  by_cases hh : h.val < 64
  · simp only [dif_pos hh]
  · simp only [dif_neg hh, mul_zero, Finset.sum_const_zero, add_zero]

/-- The concatenated weights and biases, and the fused projection array, on each of the three column ranges. -/
theorem wcat_q (wq wk wv : Wgt) (d : Fin 1024) (col : Fin 384) (h : col.val < 128) :
    wcat wq wk wv d col = padW wq d ⟨col.val, h⟩ := by
  unfold wcat; rw [dif_pos h]
theorem wcat_k (wq wk wv : Wgt) (d : Fin 1024) (col : Fin 384) (h0 : ¬col.val < 128) (h1 : col.val < 256) :
    wcat wq wk wv d col = padW wk d ⟨col.val - 128, by omega⟩ := by
  unfold wcat; rw [dif_neg h0, dif_pos h1]
theorem wcat_v (wq wk wv : Wgt) (d : Fin 1024) (col : Fin 384) (h0 : ¬col.val < 128) (h1 : ¬col.val < 256) :
    wcat wq wk wv d col = padW wv d ⟨col.val - 256, by have := col.isLt; omega⟩ := by
  unfold wcat; rw [dif_neg h0, dif_neg h1]
theorem bcat_q (bq bk bv : Bias) (col : Fin 384) (h : col.val < 128) : bcat bq bk bv col = padB bq ⟨col.val, h⟩ := by
  unfold bcat; rw [dif_pos h]
theorem bcat_k (bq bk bv : Bias) (col : Fin 384) (h0 : ¬col.val < 128) (h1 : col.val < 256) :
    bcat bq bk bv col = padB bk ⟨col.val - 128, by omega⟩ := by
  unfold bcat; rw [dif_neg h0, dif_pos h1]
theorem bcat_v (bq bk bv : Bias) (col : Fin 384) (h0 : ¬col.val < 128) (h1 : ¬col.val < 256) :
    bcat bq bk bv col = padB bv ⟨col.val - 256, by have := col.isLt; omega⟩ := by
  unfold bcat; rw [dif_neg h0, dif_neg h1]
theorem qkv_q (x : Act) (wq : Wgt) (bq : Bias) (wk : Wgt) (bk : Bias) (wv : Wgt) (bv : Bias) (b : Fin 8) (t : Fin 2048)
    (col : Fin 384) (h : col.val < 128) :
    qkv x wq bq wk bk wv bv (ix3 b t col) = padProj (proj x wq bq) b t ⟨col.val, h⟩ := by
  unfold qkv; exact dif_pos h
theorem qkv_k (x : Act) (wq : Wgt) (bq : Bias) (wk : Wgt) (bk : Bias) (wv : Wgt) (bv : Bias) (b : Fin 8) (t : Fin 2048)
    (col : Fin 384) (h0 : ¬col.val < 128) (h1 : col.val < 256) :
    qkv x wq bq wk bk wv bv (ix3 b t col) = padProj (proj x wk bk) b t ⟨col.val - 128, by omega⟩ := by
  unfold qkv; exact (dif_neg h0).trans (dif_pos h1)
theorem qkv_v (x : Act) (wq : Wgt) (bq : Bias) (wk : Wgt) (bk : Bias) (wv : Wgt) (bv : Bias) (b : Fin 8) (t : Fin 2048)
    (col : Fin 384) (h0 : ¬col.val < 128) (h1 : ¬col.val < 256) :
    qkv x wq bq wk bk wv bv (ix3 b t col) = padProj (proj x wv bv) b t ⟨col.val - 256, by have := col.isLt; omega⟩ := by
  unfold qkv; exact (dif_neg h0).trans (dif_neg h1)

/-- The fused projection array at (b, t, col), as one sum against the concatenated padded weights plus the
    concatenated padded biases. -/
theorem qkv_eq (x : Act) (wq : Wgt) (bq : Bias) (wk : Wgt) (bk : Bias) (wv : Wgt) (bv : Bias) (b : Fin 8) (t : Fin 2048)
    (col : Fin 384) :
    qkv x wq bq wk bk wv bv (ix3 b t col) = (∑ d : Fin 1024, x (ix3 b t d) * wcat wq wk wv d col) + bcat bq bk bv col := by
  by_cases c0 : col.val < 128
  · refine (qkv_q x wq bq wk bk wv bv b t col c0).trans ((padProj_eq x wq bq b t _).trans ?_)
    refine congrArg₂ (· + ·) (Finset.sum_congr rfl fun d _ => ?_) (bcat_q bq bk bv col c0).symm
    exact congrArg (x (ix3 b t d) * ·) (wcat_q wq wk wv d col c0).symm
  · by_cases c1 : col.val < 256
    · refine (qkv_k x wq bq wk bk wv bv b t col c0 c1).trans ((padProj_eq x wk bk b t _).trans ?_)
      refine congrArg₂ (· + ·) (Finset.sum_congr rfl fun d _ => ?_) (bcat_k bq bk bv col c0 c1).symm
      exact congrArg (x (ix3 b t d) * ·) (wcat_k wq wk wv d col c0 c1).symm
    · refine (qkv_v x wq bq wk bk wv bv b t col c0 c1).trans ((padProj_eq x wv bv b t _).trans ?_)
      refine congrArg₂ (· + ·) (Finset.sum_congr rfl fun d _ => ?_) (bcat_v bq bk bv col c0 c1).symm
      exact congrArg (x (ix3 b t d) * ·) (wcat_v wq wk wv d col c0 c1).symm

/-- The same array flattened: row `2048 b + t`. -/
theorem qkvFlat_eq (x : Act) (wq : Wgt) (bq : Bias) (wk : Wgt) (bk : Bias) (wv : Wgt) (bv : Bias) (i : S16384x384.Idx) :
    qkvFlat x wq bq wk bk wv bv i
      = (∑ d : Fin 1024, x (ix3 (⟨(i 0).val / 2048, by have := idx2_lt0 i; omega⟩ : Fin 8)
            (⟨(i 0).val % 2048, Nat.mod_lt _ (by norm_num)⟩ : Fin 2048) d) * wcat wq wk wv d ⟨(i 1).val, idx2_lt1 i⟩)
          + bcat bq bk bv ⟨(i 1).val, idx2_lt1 i⟩ := by
  unfold qkvFlat
  exact qkv_eq x wq bq wk bk wv bv _ _ ⟨(i 1).val, idx2_lt1 i⟩

/-- THE PROJECTION LAUNCH'S VALUE: when the seven arguments hold real numbers, the launch's result array holds
    the fused projection array of the specification. -/
theorem qkv_value (m : (ℓ : Loc nD τ sig) → Buf (Elt Ideal) ℓ) (c : Dev nD) (x : Act) (wq : Wgt) (bq : Bias) (wk : Wgt) (bk : Bias)
    (wv : Wgt) (bv : Bias)
    (h0 : m ((c : Thread nD τ).loc main_arg0) = fun i => ((x i : ℝ) : EReal))
    (h1 : m ((c : Thread nD τ).loc main_arg1) = fun i => ((wq i : ℝ) : EReal))
    (h2 : m ((c : Thread nD τ).loc main_arg2) = fun i => ((bq i : ℝ) : EReal))
    (h3 : m ((c : Thread nD τ).loc main_arg3) = fun i => ((wk i : ℝ) : EReal))
    (h4 : m ((c : Thread nD τ).loc main_arg4) = fun i => ((bk i : ℝ) : EReal))
    (h5 : m ((c : Thread nD τ).loc main_arg5) = fun i => ((wv i : ℝ) : EReal))
    (h6 : m ((c : Thread nD τ).loc main_arg6) = fun i => ((bv i : ℝ) : EReal)) :
    (pdat (F := Ideal) (fun c b => V13 m c b) c).arrAt 3 cfg0.N
      = fun i => ((qkvFlat x wq bq wk bk wv bv i : ℝ) : EReal) := by
  refine (final (fun c b => V13 m c b) c).trans ?_
  funext i
  rw [qkvFlat_eq, EReal.coe_add, coe_sum]
  unfold projG
  refine congrArg₂ (· + ·) (Finset.sum_congr rfl fun d _ => ?_) ?_
  · rw [EReal.coe_mul]
    refine congrArg₂ (· * ·) ?_ ?_
    · refine (host_x m c ⟨(i 0).val, idx2_lt0 i⟩ d).trans ?_
      rw [h0]
    · exact host_w m c wq wk wv h1 h3 h5 d ⟨(i 1).val, idx2_lt1 i⟩
  · exact host_b m c bq bk bv h2 h4 h6 ⟨(i 1).val, idx2_lt1 i⟩

end Cert.KernelIdeal.ProjVal

end
-- ==== Proof.QkvArray.lean ====
/-
  The attention region's input array is the projection region's result array with its rows regrouped: row
  `2048 b + t` of the flat `[16384, 384]` array is entry `(b, t)` of the `[8, 2048, 384]` array.
-/
import proofs.«156562_j19267223290409_2_alg».proof.Proof.RunDataI
import proofs.«156562_j19267223290409_2_alg».proof.Proof.SpecTiles
import Idealize.ShloMosaic.Lib.Pipeline.Value
import Idealize.ShloMosaic.Lib.ValueIdx
import Idealize.ShloMosaic.Lib.StableHlo.Run

noncomputable section

namespace Cert.KernelIdeal.KVal

open Cert.KernelIdeal Cert.KernelIdeal.Gen Cert.CausalAttention Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The reshape between the two regions, as a function of the projection region's result. -/
theorem v15_eq : (Vr15 m c main_v15 : S8x2048x384.Idx → EReal)
    = shapeCast S8x2048x384 (o14 m c : S16384x384.Idx → EReal) shapeCasts_S16384x384_S8x2048x384 := by
  show StableHlo.after hostOps1 (V14 m (outsA m) c) (Proc.devRef .tc main_v15) = _
  after_results
  unfold V14
  rw [Function.update_self, outsA_14]
  rfl

theorem v15_value (x : Act) (wq : Wgt) (bq : Bias) (wk : Wgt) (bk : Bias) (wv : Wgt) (bv : Bias)
    (h14 : (o14 m c : S16384x384.Idx → EReal) = fun i => ((qkvFlat x wq bq wk bk wv bv i : ℝ) : EReal)) :
    (Vr15 m c main_v15 : S8x2048x384.Idx → EReal) = fun i => ((qkv x wq bq wk bk wv bv i : ℝ) : EReal) := by
  rw [v15_eq, h14]
  funext j
  obtain ⟨b, t, col, rfl⟩ : ∃ (b : Fin 8) (t : Fin 2048) (col : Fin 384), j = ix3 b t col := ⟨j 0, j 1, j 2, eq_ix3 j⟩
  have hb : b.val * 2048 + t.val < 16384 := by have := b.isLt; have := t.isLt; omega
  rw [shapeCast_apply _ _ _ (ix2 (⟨b.val * 2048 + t.val, hb⟩ : Fin 16384) col) (by
    rw [Shape.rowMajor_val_two, Shape.rowMajor_val_three]
    show (b.val * 2048 + t.val) * 384 + col.val = (b.val * 2048 + t.val) * 384 + col.val
    rfl)]
  unfold qkvFlat
  have h1 : (b.val * 2048 + t.val) / 2048 = b.val := by have := t.isLt; omega
  have h2 : (b.val * 2048 + t.val) % 2048 = t.val := by have := t.isLt; omega
  show ((qkv x wq bq wk bk wv bv (ix3 (⟨(b.val * 2048 + t.val) / 2048, _⟩ : Fin 8) (⟨(b.val * 2048 + t.val) % 2048, _⟩ : Fin 2048) col) : ℝ) : EReal) = _
  congr 2
  funext a
  match a with
  | ⟨0, _⟩ => exact Fin.ext h1
  | ⟨1, _⟩ => exact Fin.ext h2
  | ⟨2, _⟩ => rfl

end Cert.KernelIdeal.KVal

end
-- ==== Proof.FlashFoldDefsI.lean ====
/-
  The attention body's arithmetic on its carried buffers, named: the reset values, one key tile folded into the
  running maximum, denominator and accumulator, and the final division.
-/
import proofs.«156562_j19267223290409_2_alg».proof.Proof.FlashFrameI
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid point's query-tile and key-tile numbers as the body's words. -/
abbrev fa1 (i : grid1.Coords) : BitVec 32 := BitVec.ofNat 32 (i 1).val
abbrev fa2 (i : grid1.Coords) : BitVec 32 := BitVec.ofNat 32 (i 2).val

/-- The reset values: maximum `-∞`, denominator `0`, accumulator `0`. -/
def finit : FState F := (fjunk3, k1_pay1, k1_pay2, k1_pay3)

/-- One key tile folded into the running maximum, denominator and accumulator. -/
def ffold (i : grid1.Coords) (x0 x1 x2 : Vec F S1x256x128 .f32) (s : FState F) : FState F :=
  (fjunk3,
   k1_pay6 (k1_pay10 (fa1 i) (fa2 i) x0 x1 s.2.1),
   k1_pay4 (k1_pay13 (fa1 i) (fa2 i) x0 x1 s.2.1 s.2.1 s.2.2.1) (k1_pay14 (fa1 i) (fa2 i) x0 x1 s.2.1),
   k1_pay5 (k1_pay8 x2) (k1_pay11 (fa1 i) (fa2 i) x0 x1 s.2.1 s.2.1) (k1_pay12 (fa1 i) (fa2 i) x0 x1 s.2.1) s.2.2.2)

/-- The accumulator's first 64 columns. -/
abbrev rAcc64 : Rect S256x128 := Rect.unit (s := S256x128) ![0, 0] S256x64.size inb_S256x128_S256x64_0_0

/-- The result tile: the accumulator's first 64 columns divided by the denominator, row by row. -/
def fdiv (s : FState F) : Vec F S1x256x64 .f32 := k1_pay7 (View.ld s.2.2.2 rAcc64) s.2.2.1

/-- The result tile stored, the carried buffers as they are. -/
def ffin (s : FState F) : FState F := (fdiv s, s.2.1, s.2.2.1, s.2.2.2)

end Cert.KernelIdeal.Gen

end
-- ==== Proof.KVDefs.lean ====
/-
  The row-wise meaning of the attention region's carried buffers: for the query tile `qi` and its row `r` (query
  position `256 qi + r`), after the key positions below `n` have been folded in, the running-maximum buffer holds
  the largest allowed score, the running-denominator buffer the sum of the weights relative to it, and the
  accumulator's column `h` the weighted sum of the padded values' column `h`.
-/
import proofs.«156562_j19267223290409_2_alg».proof.Proof.FlashFoldDefsI
import proofs.«156562_j19267223290409_2_alg».proof.Proof.SpecTiles
import Idealize.ShloMosaic.Lib.ValueIdx

noncomputable section

namespace Cert.KernelIdeal.KVal

open Cert.KernelIdeal Cert.KernelIdeal.Gen Cert.CausalAttention Idealize.ShloMosaic Idealize.ShloMosaic.ValueIdx

/-- The query position of row `r` of query tile `qi`. -/
def rowPos (qi : Fin 8) (r : Fin 256) : Fin 2048 := ⟨qi.val * 256 + r.val, by have := qi.isLt; have := r.isLt; omega⟩
/-- The key position of column `cc` of key tile `ki`. -/
def keyPos (ki : Fin 8) (cc : Fin 256) : Fin 2048 := ⟨ki.val * 256 + cc.val, by have := ki.isLt; have := cc.isLt; omega⟩

/-- The carried buffers hold the running maximum, denominator and numerators over the allowed key positions below `n`,
    for one batch entry with scores `sR pos u` and padded values `vR u h`. -/
def RowInv (sR : Fin 2048 → Fin 2048 → ℝ) (vR : Fin 2048 → Fin 128 → ℝ) (qi : Fin 8) (n : ℕ) (s : FState Ideal) : Prop :=
  ∀ r : Fin 256,
    (s.2.1 : S256x1.Idx → EReal) (ix2 r (0 : Fin 1)) = ((runMax (sR (rowPos qi r)) (rowPos qi r) n : ℝ) : EReal)
    ∧ (s.2.2.1 : S256x1.Idx → EReal) (ix2 r (0 : Fin 1)) = ((runDen (sR (rowPos qi r)) (rowPos qi r) n : ℝ) : EReal)
    ∧ ∀ h : Fin 128, (s.2.2.2 : S256x128.Idx → EReal) (ix2 r h) = ((runNum (sR (rowPos qi r)) (fun u => vR u h) (rowPos qi r) n : ℝ) : EReal)

end Cert.KernelIdeal.KVal

end
-- ==== Proof.FlashPiecesI.lean ====
/-
  What a control case of the attention body leaves in the three carried buffers and in the result tile, as
  functions of the query, key and value tiles and of what the point before left: folding one key tile into the
  running maximum, denominator and accumulator (`ffold`), starting from the reset values (`finit`), and dividing
  the accumulator's first 64 columns by the denominator (`fdiv`).
-/
import proofs.«156562_j19267223290409_2_alg».proof.Proof.FlashFoldDefsI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- A load through any rectangle of what ONE whole-buffer store left reads the stored value through that rectangle. -/
theorem readCov_whole_piece {sig' : RefSig} {κ : Kind} {sp : Space} {S : Shape} {e : EltTy} {Val : EltTy → Type} [∀ e, Nonempty (Val e)]
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

section
variable (c : Dev nD) (i : grid1.Coords) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x64 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole)
variable (x0 : Vec F S1x256x128 .f32) (x1 : Vec F S1x256x128 .f32) (x2 : Vec F S1x256x128 .f32)

theorem fstB_eq (hc1 : ¬fc1 i) (hc2 : fc2 i) (hc3 : ¬fc3 i) (s : FState F) :
    fstB c i arg3 harg3 arg4 harg4 arg5 harg5 arg6 harg6 arg7 harg7 arg8 harg8 arg9 harg9 x0 x1 x2 hc1 hc2 hc3 s = ffold i x0 x1 x2 s := by
  unfold fstB ffold
  refine Prod.ext rfl (Prod.ext ?_ (Prod.ext ?_ ?_))
  · show VSmax.read (Elt F) _ = _
    rw [View.read_writes_eq_canon _ _ _ (fcovB0 c i arg3 harg3 arg4 harg4 arg5 harg5 arg6 harg6 arg7 harg7 arg8 harg8 arg9 harg9 x0 x1 x2 s.2.1 s.2.2.1 s.2.2.2 hc1 hc2 hc3)]
    unfold flashRunB; dsimp only; sl_unfold_words
    refine (View.canon_unit_zero hz2 _ _).trans ?_
    simp only [View.readAt_eq_ld, Memref.IsWhole.read_unread, View.ld_unit_zero (S := S1x256x128) hz3, View.ld_unit_zero (S := S256x1) hz2, View.ld_unit_zero (S := S256x128) hz2]
  · show VSden.read (Elt F) _ = _
    rw [View.read_writes_eq_canon _ _ _ (fcovB1 c i arg3 harg3 arg4 harg4 arg5 harg5 arg6 harg6 arg7 harg7 arg8 harg8 arg9 harg9 x0 x1 x2 s.2.1 s.2.2.1 s.2.2.2 hc1 hc2 hc3)]
    unfold flashRunB; dsimp only; sl_unfold_words
    refine (View.canon_unit_zero hz2 _ _).trans ?_
    simp only [View.readAt_eq_ld, Memref.IsWhole.read_unread, View.ld_unit_zero (S := S1x256x128) hz3, View.ld_unit_zero (S := S256x1) hz2, View.ld_unit_zero (S := S256x128) hz2]
  · show VSacc.read (Elt F) _ = _
    rw [View.read_writes_eq_canon _ _ _ (fcovB2 c i arg3 harg3 arg4 harg4 arg5 harg5 arg6 harg6 arg7 harg7 arg8 harg8 arg9 harg9 x0 x1 x2 s.2.1 s.2.2.1 s.2.2.2 hc1 hc2 hc3)]
    unfold flashRunB; dsimp only; sl_unfold_words
    refine (View.canon_unit_zero hz2 _ _).trans ?_
    simp only [View.readAt_eq_ld, Memref.IsWhole.read_unread, View.ld_unit_zero (S := S1x256x128) hz3, View.ld_unit_zero (S := S256x1) hz2, View.ld_unit_zero (S := S256x128) hz2]

theorem fstA_eq (hc1 : fc1 i) (hc2 : fc2 i) (hc3 : ¬fc3 i) :
    fstA c i arg3 harg3 arg4 harg4 arg5 harg5 arg6 harg6 arg7 harg7 arg8 harg8 arg9 harg9 x0 x1 x2 hc1 hc2 hc3 = ffold i x0 x1 x2 finit := by
  unfold fstA ffold finit
  refine Prod.ext rfl (Prod.ext ?_ (Prod.ext ?_ ?_))
  · show VSmax.read (Elt F) _ = _
    rw [View.read_writes_eq_canon _ _ _ (fcovA0 c i arg3 harg3 arg4 harg4 arg5 harg5 arg6 harg6 arg7 harg7 arg8 harg8 arg9 harg9 x0 x1 x2 hc1 hc2 hc3)]
    unfold flashRunA; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

  · show VSden.read (Elt F) _ = _
    rw [View.read_writes_eq_canon _ _ _ (fcovA1 c i arg3 harg3 arg4 harg4 arg5 harg5 arg6 harg6 arg7 harg7 arg8 harg8 arg9 harg9 x0 x1 x2 hc1 hc2 hc3)]
    unfold flashRunA; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

  · show VSacc.read (Elt F) _ = _
    rw [View.read_writes_eq_canon _ _ _ (fcovA2 c i arg3 harg3 arg4 harg4 arg5 harg5 arg6 harg6 arg7 harg7 arg8 harg8 arg9 harg9 x0 x1 x2 hc1 hc2 hc3)]
    unfold flashRunA; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

set_option maxHeartbeats 3200000 in
theorem fstC_eq (hc1 : ¬fc1 i) (hc2 : fc2 i) (hc3 : fc3 i) (s : FState F) :
    fstC c i arg3 harg3 arg4 harg4 arg5 harg5 arg6 harg6 arg7 harg7 arg8 harg8 arg9 harg9 x0 x1 x2 hc1 hc2 hc3 s = ffin (ffold i x0 x1 x2 s) := by
  unfold fstC ffin fdiv ffold; dsimp only
  refine Prod.ext ?_ (Prod.ext ?_ (Prod.ext ?_ ?_))
  · show VO3.read (Elt F) _ = _
    rw [View.read_writes_eq_canon _ _ _ (fcovC3 c i arg3 harg3 arg4 harg4 arg5 harg5 arg6 harg6 arg7 harg7 arg8 harg8 arg9 harg9 x0 x1 x2 s.2.1 s.2.2.1 s.2.2.2 hc1 hc2 hc3)]
    unfold flashRunC; dsimp only; sl_unfold_words
    refine (View.canon_cons_unit_zero hz3 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

  · show VSmax.read (Elt F) _ = _
    rw [View.read_writes_eq_canon _ _ _ (fcovC0 c i arg3 harg3 arg4 harg4 arg5 harg5 arg6 harg6 arg7 harg7 arg8 harg8 arg9 harg9 x0 x1 x2 s.2.1 s.2.2.1 s.2.2.2 hc1 hc2 hc3)]
    unfold flashRunC; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

  · show VSden.read (Elt F) _ = _
    rw [View.read_writes_eq_canon _ _ _ (fcovC1 c i arg3 harg3 arg4 harg4 arg5 harg5 arg6 harg6 arg7 harg7 arg8 harg8 arg9 harg9 x0 x1 x2 s.2.1 s.2.2.1 s.2.2.2 hc1 hc2 hc3)]
    unfold flashRunC; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

  · show VSacc.read (Elt F) _ = _
    rw [View.read_writes_eq_canon _ _ _ (fcovC2 c i arg3 harg3 arg4 harg4 arg5 harg5 arg6 harg6 arg7 harg7 arg8 harg8 arg9 harg9 x0 x1 x2 s.2.1 s.2.2.1 s.2.2.2 hc1 hc2 hc3)]
    unfold flashRunC; dsimp only; sl_unfold_words
    refine (View.canon_cons_unit_zero hz2 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

set_option maxHeartbeats 3200000 in
theorem fstE_eq (hc1 : ¬fc1 i) (hc2 : ¬fc2 i) (hc3 : fc3 i) (s : FState F) :
    fstE c i arg3 harg3 arg4 harg4 arg5 harg5 arg6 harg6 arg7 harg7 arg8 harg8 arg9 harg9 x0 x1 x2 hc1 hc2 hc3 s = ffin s := by
  unfold fstE ffin fdiv; dsimp only
  refine Prod.ext ?_ rfl
  · show VO3.read (Elt F) _ = _
    rw [View.read_writes_eq_canon _ _ _ (fcovE3 c i arg3 harg3 arg4 harg4 arg5 harg5 arg6 harg6 arg7 harg7 arg8 harg8 arg9 harg9 x0 x1 x2 s.2.1 s.2.2.1 s.2.2.2 hc1 hc2 hc3)]
    unfold flashRunE; dsimp only; sl_unfold_words
    refine (View.canon_cons_unit_zero hz3 _ _ _).trans ?_
    simp only [View.readAt_eq_ld, Memref.IsWhole.read_unread, View.ld_unit_zero (S := S1x256x128) hz3, View.ld_unit_zero (S := S256x1) hz2, View.ld_unit_zero (S := S256x128) hz2, View.readCov_unit_zero (S := S256x1) _ hz2, View.readCov_unit_zero (S := S256x128) _ hz2, readCov_whole_piece (S := S256x128) _ hz2, readCov_whole_piece (S := S256x1) _ hz2]

end

end Cert.KernelIdeal.Gen

end
-- ==== Proof.FlashArray.lean ====
/-
  The attention region's tiles as parts of its two arrays.

  The region's grid is 8 × 8 × 8: point `t` is batch entry `b = t / 64`, query tile `qi = t / 8 % 8` and key tile
  `ki = t % 8`, each tile 256 positions. Its three input windows are tiles `[1, 256, 128]` of one array
  `[8, 2048, 384]` whose last axis holds the query, key and value columns in three groups of 128: the query tile is
  rows `256 qi + r` of the first group, the key and value tiles rows `256 (min ki qi) + r` of the second and third.
  The result window is a tile `[1, 256, 64]` of the result array `[8, 2048, 64]` at rows `256 qi + r`, written back
  after the last key tile only (`ki = 7`). Those 64 written tiles are disjoint and cover the result array, so when
  each of them is its tile of one array `G`, the result array ends holding `G`.
-/
import proofs.«156562_j19267223290409_2_alg».proof.Proof.FlashFrameI
import Idealize.ShloMosaic.Lib.Pipeline.Value
import Idealize.ShloMosaic.Lib.ValueIdx

set_option maxRecDepth 16384

noncomputable section

namespace Cert.KernelIdeal.FlashArr

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-- The attention launch's four index maps over its 512 grid points in order: point `t` is batch entry `t / 64`,
    query tile `t / 8 % 8`, key tile `t % 8`; the key and value windows stop at the diagonal tile. -/
theorem fidx_facts : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = min (t.val % 8) (t.val / 8 % 8) ∧ win1_1.index t (2 : Fin 3) = 1
    ∧ win1_2.index t (0 : Fin 3) = t.val / 64 ∧ win1_2.index t (1 : Fin 3) = min (t.val % 8) (t.val / 8 % 8) ∧ win1_2.index t (2 : Fin 3) = 2
    ∧ win1_3.index t (0 : Fin 3) = t.val / 64 ∧ win1_3.index t (1 : Fin 3) = t.val / 8 % 8 ∧ win1_3.index t (2 : Fin 3) = 0 :=
  (by decide +kernel : ∀ t : Fin grid1.N, _)

/-- The grid has 512 points, so a point's batch entry is below 8. -/
theorem fbatch_lt (t : Fin cfg1.N) : t.val / 64 < 8 := by
  have := t.isLt; have : cfg1.N = 512 := N_1; omega

/-- The query tile at point `t`: rows `256 (t / 8 % 8) + r` of batch entry `t / 64`, columns `h` of the first group. -/
theorem fblk0_apply (c : Dev nD) (t : Fin cfg1.N) (r : Fin 256) (h : Fin 128) :
    (fblk V c 0 t : S1x256x128.Idx → Elt F .f32) (ix3 0 r h)
      = (V c main_v15 : S8x2048x384.Idx → Elt F .f32) (ix3 (⟨t.val / 64, fbatch_lt t⟩ : Fin 8)
          (⟨t.val / 8 % 8 * 256 + r.val, by have := r.isLt; omega⟩ : Fin 2048) (⟨h.val, by have := h.isLt; omega⟩ : Fin 384)) := by
  unfold fblk
  rw [View.read_apply]
  show V c main_v15 (((cfg1.win 0).blk t).view.emb (ix3 0 r h)) = V c main_v15 _
  obtain ⟨e0, e1, e2, -⟩ := fidx_facts t
  refine congrArg (V c main_v15) (funext fun a => Fin.ext ?_)
  match a with
  | ⟨0, _⟩ => show win1_0.index t (0 : Fin 3) * 1 + 1 * (0 : Nat) = t.val / 64; omega
  | ⟨1, _⟩ => show win1_0.index t (1 : Fin 3) * 256 + 1 * r.val = t.val / 8 % 8 * 256 + r.val; omega
  | ⟨2, _⟩ => show win1_0.index t (2 : Fin 3) * 128 + 1 * h.val = h.val; omega

/-- The key tile at point `t`: rows `256 (min (t % 8) (t / 8 % 8)) + r`, columns `128 + h` (the second group). -/
theorem fblk1_apply (c : Dev nD) (t : Fin cfg1.N) (r : Fin 256) (h : Fin 128) :
    (fblk V c 1 t : S1x256x128.Idx → Elt F .f32) (ix3 0 r h)
      = (V c main_v15 : S8x2048x384.Idx → Elt F .f32) (ix3 (⟨t.val / 64, fbatch_lt t⟩ : Fin 8)
          (⟨min (t.val % 8) (t.val / 8 % 8) * 256 + r.val, by have := r.isLt; omega⟩ : Fin 2048)
          (⟨128 + h.val, by have := h.isLt; omega⟩ : Fin 384)) := by
  unfold fblk
  rw [View.read_apply]
  show V c main_v15 (((cfg1.win 1).blk t).view.emb (ix3 0 r h)) = V c main_v15 _
  obtain ⟨-, -, -, e0, e1, e2, -⟩ := fidx_facts t
  refine congrArg (V c main_v15) (funext fun a => Fin.ext ?_)
  match a with
  | ⟨0, _⟩ => show win1_1.index t (0 : Fin 3) * 1 + 1 * (0 : Nat) = t.val / 64; omega
  | ⟨1, _⟩ => show win1_1.index t (1 : Fin 3) * 256 + 1 * r.val = min (t.val % 8) (t.val / 8 % 8) * 256 + r.val; omega
  | ⟨2, _⟩ => show win1_1.index t (2 : Fin 3) * 128 + 1 * h.val = 128 + h.val; omega

/-- The value tile at point `t`: the same rows, columns `256 + h` (the third group). -/
theorem fblk2_apply (c : Dev nD) (t : Fin cfg1.N) (r : Fin 256) (h : Fin 128) :
    (fblk V c 2 t : S1x256x128.Idx → Elt F .f32) (ix3 0 r h)
      = (V c main_v15 : S8x2048x384.Idx → Elt F .f32) (ix3 (⟨t.val / 64, fbatch_lt t⟩ : Fin 8)
          (⟨min (t.val % 8) (t.val / 8 % 8) * 256 + r.val, by have := r.isLt; omega⟩ : Fin 2048)
          (⟨256 + h.val, by have := h.isLt; omega⟩ : Fin 384)) := by
  unfold fblk
  rw [View.read_apply]
  show V c main_v15 (((cfg1.win 2).blk t).view.emb (ix3 0 r h)) = V c main_v15 _
  obtain ⟨-, -, -, -, -, -, e0, e1, e2, -⟩ := fidx_facts t
  refine congrArg (V c main_v15) (funext fun a => Fin.ext ?_)
  match a with
  | ⟨0, _⟩ => show win1_2.index t (0 : Fin 3) * 1 + 1 * (0 : Nat) = t.val / 64; omega
  | ⟨1, _⟩ => show win1_2.index t (1 : Fin 3) * 256 + 1 * r.val = min (t.val % 8) (t.val / 8 % 8) * 256 + r.val; omega
  | ⟨2, _⟩ => show win1_2.index t (2 : Fin 3) * 128 + 1 * h.val = 256 + h.val; omega

/-! ## The result array from its tiles -/

/-- An index of the result array is in point `t`'s tile iff each coordinate is in the tile's range on its axis. -/
theorem fmem_blk3 (t : Fin cfg1.N) (i : S8x2048x64.Idx) :
    i ∈ ((cfg1.win 3).blk t).view.set ↔ ∀ a : Fin 3, win1_3.index t a * S1x256x64.size a ≤ (i a).val
      ∧ (i a).val < win1_3.index t a * S1x256x64.size a + S1x256x64.size a := by
  show i ∈ ((View.whole main_v16).slice (win1_3.rect t)).set ↔ _
  rw [View.set_slice_whole, Rect.mem_set_unit]
  exact Iff.rfl

/-- Every index `(b, pos, h)` of the result array lies in the tile written back at the point
    `64 b + 8 (pos / 256) + 7`: the last key tile of query tile `pos / 256` of batch entry `b`. -/
theorem fcover3 (i : S8x2048x64.Idx) :
    ∃ t : Fin cfg1.N, (cfg1.win 3).flush t = true ∧ i ∈ ((cfg1.win 3).blk t).view.set := by
  have hN : cfg1.N = 512 := N_1
  have h0 : (i 0).val < 8 := (i 0).isLt
  have h1 : (i 1).val < 2048 := (i 1).isLt
  have h2 : (i 2).val < 64 := (i 2).isLt
  obtain ⟨t, ht⟩ : ∃ t : Fin cfg1.N, t.val = 64 * (i 0).val + 8 * ((i 1).val / 256) + 7 :=
    ⟨⟨64 * (i 0).val + 8 * ((i 1).val / 256) + 7, by omega⟩, rfl⟩
  refine ⟨t, (flush1_3 t).mpr (by omega), ?_⟩
  rw [fmem_blk3]
  obtain ⟨-, -, -, -, -, -, -, -, -, e0, e1, e2⟩ := fidx_facts t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 64 ≤ (i 2).val ∧ (i 2).val < win1_3.index t (2 : Fin 3) * 64 + 64; omega

/-- When every stored result tile is its tile of ONE array `G`, the result array ends holding `G`: what a point
    with `t % 8 = 7` writes back is rows `256 (t / 8 % 8) + r` of batch entry `t / 64`, and those tiles cover
    the array. -/
theorem ffinal (c : Dev nD) (G : S8x2048x64.Idx → Elt F .f32)
    (hG : ∀ t : Fin cfg1.N, t.val % 8 = 7 → ∀ (r : Fin 256) (h : Fin 64),
      ((fstate V c t.val t.isLt).1 : S1x256x64.Idx → Elt F .f32) (ix3 0 r h)
        = G (ix3 (⟨t.val / 64, fbatch_lt t⟩ : Fin 8) (⟨t.val / 8 % 8 * 256 + r.val, by have := r.isLt; omega⟩ : Fin 2048) h)) :
    (fdat V c).arrAt 3 cfg1.N = G := by
  refine (fdat V c).arrAt_eq_of_cover 3 G (fun t hf => ?_) fcover3
  have h7 : t.val % 8 = 7 := (flush1_3 t).mp hf
  show (cfg1.win 3).cut (grid1.coords t) ((fdat V c).after 3 t) = _
  rw [fafter3]
  refine funext fun (y : S1x256x64.Idx) => ?_
  obtain ⟨z, r, h, rfl⟩ : ∃ (z : Fin 1) (r : Fin 256) (h : Fin 64), y = ix3 z r h := ⟨y 0, y 1, y 2, eq_ix3 y⟩
  obtain rfl : z = 0 := Subsingleton.elim _ _
  rw [View.read_apply]
  show ((fstate V c t.val t.isLt).1 : S1x256x64.Idx → Elt F .f32) (ix3 0 r h) = G (((cfg1.win 3).blk t).view.emb (ix3 0 r h))
  rw [hG t h7 r h]
  obtain ⟨-, -, -, -, -, -, -, -, -, e0, e1, e2⟩ := fidx_facts t
  refine congrArg G (funext fun a => Fin.ext ?_)
  match a with
  | ⟨0, _⟩ => show t.val / 64 = win1_3.index t (0 : Fin 3) * 1 + 1 * (0 : Nat); omega
  | ⟨1, _⟩ => show t.val / 8 % 8 * 256 + r.val = win1_3.index t (1 : Fin 3) * 256 + 1 * r.val; omega
  | ⟨2, _⟩ => show h.val = win1_3.index t (2 : Fin 3) * 64 + 1 * h.val; omega

end Cert.KernelIdeal.FlashArr

end
-- ==== Proof.LibColumnLayout.lean ====
/-
  Column (keepdims) layout operations read at an index given by coordinates: a vector `[a]` cast to the column
  `[a, 1]`, and a column `[a, 1]` broadcast along its unit axis to `[a, b]`. Companions of the leading-unit-axis casts
  and the row broadcast `[1, b] → [a, b]`: each is the general read-at-an-index lemma of the operation with both indices
  written by coordinates and the coordinates' arithmetic discharged.
-/
import Idealize.ShloMosaic.Lib.ValueIdx
import Idealize.ShloMosaic.Lib.ValueLayout
import Idealize.ShloMosaic.Lib.Pipeline.Value

namespace Cert.ColumnLayout

open Idealize.ShloMosaic Idealize.ShloMosaic.ValueIdx

variable {α : Type}

/-- An `[a]` array cast to the column `[a, 1]` reads, at `(i, u)`, the operand at `i`, whatever the unit coordinate
`u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's one entry of row `p`: the broadcast
keeps the coordinate of the non-unit axis and puts `0` on the unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.ColumnLayout
-- ==== Proof.FlashPayloads.lean ====
/-
  The attention kernel's arithmetic read at one index, over the extended reals: every payload of the kernel body —
  the value one store writes, as a function of the values the body loaded — at one row `r` (and one column `c` or one
  head coordinate `h`), as the textbook expression. A tile of scores is the masked, scaled product of a query tile with a
  key tile; the running maximum, the two rescaling factors, the running denominator and the running numerator are the
  online-softmax updates of one key tile.
-/
import proofs.«156562_j19267223290409_2_alg».proof.Proof.Gen.KernelIdeal.Skeleton
import proofs.«156562_j19267223290409_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FlashPay

open Cert.KernelIdeal Cert.KernelIdeal.Gen Idealize.ShloMosaic Idealize.ShloMosaic.ValueIdx Cert.ColumnLayout

/-! ## The stores that only move or initialise a value -/

/-- The new running maximum is stored as it is: the cast to its own shape is the identity. -/
theorem pay6_eq (v36 : FVec Ideal S256x1 .f32) : k1_pay6 (F := Ideal) v36 = v36 := by
  unfold k1_pay6
  exact shapeCast_self _ _

/-- The running maximum starts at `-∞`. -/
theorem pay1_apply (r : Fin 256) : k1_pay1 (F := Ideal) (ix2 r (0 : Fin 1)) = ⊥ := by
  unfold k1_pay1
  rw [shapeCast_self]
  show Ideal.ofBits .f32 0xFF800000#32 = ⊥
  simp [Ideal.ofBits, Ideal.ieee]

/-- The running denominator starts at `0`. -/
theorem pay2_apply (r : Fin 256) : k1_pay2 (F := Ideal) (ix2 r (0 : Fin 1)) = 0 := by
  unfold k1_pay2
  rw [shapeCast_self]
  exact Ideal.ofBits_zero_f32

/-- The running numerator starts at `0`. -/
theorem pay3_apply (r : Fin 256) (h : Fin 128) : k1_pay3 (F := Ideal) (ix2 r h) = 0 := by
  unfold k1_pay3
  rw [shapeCast_self]
  exact Ideal.ofBits_zero_f32

/-- The new running denominator: the rescaled old one plus the tile's row sum. -/
theorem pay4_apply (v44 v46 : FVec Ideal S256x1 .f32) (r : Fin 256) :
    k1_pay4 (F := Ideal) v44 v46 (ix2 r (0 : Fin 1)) = v44 (ix2 r (0 : Fin 1)) + v46 (ix2 r (0 : Fin 1)) := by
  unfold k1_pay4
  rw [shapeCast_self]
  rfl

/-- The value tile as the second matmul takes it: the block's unit axis dropped, the format change the identity. -/
theorem pay8_apply (v : Vec Ideal S1x256x128 .f32) (c : Fin 256) (h : Fin 128) :
    k1_pay8 (F := Ideal) v (ix2 c h) = v (ix3 (0 : Fin 1) c h) := by
  unfold k1_pay8
  exact shapeCast_1ab_ab_apply v _ c h

/-- The output block: the numerator's first 64 columns divided by the row's denominator. -/
theorem pay7_apply (v9 : Vec Ideal S256x64 .f32) (v10 : Vec Ideal S256x1 .f32) (r : Fin 256) (h : Fin 64) :
    k1_pay7 (F := Ideal) v9 v10 (ix3 (0 : Fin 1) r h) = Ideal.div (v9 (ix2 r h)) (v10 (ix2 r (0 : Fin 1))) := by
  unfold k1_pay7
  refine (shapeCast_ab_1ab_apply _ _ (0 : Fin 1) r h).trans ?_
  refine (divf_apply _ _ _).trans ?_
  rw [broadcastTo_a1_ab_apply]

/-! ## Operations read at an index: the elementwise exponential, a row's sum and maximum, the two matmuls -/

/-- The elementwise exponential at an index is the exponential of the element. -/
theorem exp_apply {s : Shape} {φ : FTy} (a : FVec Ideal s φ) (i : s.Idx) : exp a i = Ideal.exp (a i) := rfl

/-- The index a row reduction of a `256 × 256` tile inserts: row `r`, column `c`. -/
theorem lift_row (h : S256x256.Reduces [1] S256) (r c : Fin 256) : h.lift (ix1 r) c = ix2 r c := by
  funext a
  match a with
  | ⟨0, _⟩ => exact Fin.ext rfl
  | ⟨1, _⟩ => exact Fin.ext rfl

/-- The sum along the columns of a `256 × 256` tile, at row `r`, is the sum over the columns of the row's entries. -/
theorem rowSum_apply (src : FVec Ideal S256x256 .f32) (h : S256x256.Reduces [1] S256) (hφ : FKind.Formats .f32)
    (hacc : (0x00000000#32 : BitVec 32) = 0x00000000#32) (r : Fin 256) :
    multiReduction .add [1] S256 src 0x00000000#32 h hφ hacc (ix1 r) = ∑ c : Fin 256, src (ix2 r c) := by
  refine (Ideal.multiReduction_add_single src 0x00000000#32 h hφ hacc (ix1 r)).trans ?_
  exact Finset.sum_congr rfl fun c _ => congrArg src (lift_row h r c)

/-- The maximum along the columns of a `256 × 256` tile, at row `r`, is the fold of `max` from `-∞` over the row's
entries. -/
theorem rowMax_apply (src : FVec Ideal S256x256 .f32) (h : S256x256.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 256)).fold max ⊥ (fun c => src (ix2 r c)) := by
  refine (Ideal.multiReduction_maximumf_single src 0xFF800000#32 h hφ hacc (ix1 r)).trans ?_
  have e1 : FloatOps.ofBits (F := Ideal) .f32 0xFF800000#32 = (⊥ : EReal) := by
    show Ideal.ofBits .f32 0xFF800000#32 = ⊥
    simp [Ideal.ofBits, Ideal.ieee]
  have e2 : (src ∘ h.lift (ix1 r)) = fun c : Fin 256 => src (ix2 r c) :=
    funext fun c => congrArg src (lift_row h r c)
  rw [e1, e2]
  rfl

/-- The left operand's index of the probabilities-times-values matmul keeps the output's row … -/
theorem pv_lhs_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl
/-- … and takes the contraction coordinate as its column. -/
theorem pv_lhs_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
/-- The right operand's index takes the contraction coordinate as its row … -/
theorem pv_rhs_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
/-- … and keeps the output's column. -/
theorem pv_rhs_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- The probabilities-times-values matmul at `(r, h)`: the sum over the tile's 256 keys. -/
theorem matmulPV_apply (p : FVec Ideal S256x256 .bf16) (v : FVec Ideal S256x128 .bf16) (r : Fin 256) (h : Fin 128) :
    matmul dot_S256x256_S256x128_S256x128_1_0_0_1_n_n none p v (constant S256x128 .f32 0x00000000#32) (ix2 r h)
      = ∑ c : Fin 256, p (ix2 r c) * v (ix2 c h) := by
  simp only [matmul]
  rw [Ideal.matmul_constant_zero_apply,
    ← Equiv.sum_comp (contrEquiv1 dot_S256x256_S256x128_S256x128_1_0_0_1_n_n 256 rfl rfl).symm]
  refine Finset.sum_congr rfl fun c _ => ?_
  have hk := contrEquiv1_symm_val dot_S256x256_S256x128_S256x128_1_0_0_1_n_n 256 rfl rfl c
  have el : dot_S256x256_S256x128_S256x128_1_0_0_1_n_n.lhsIdx (ix2 r h)
      ((contrEquiv1 dot_S256x256_S256x128_S256x128_1_0_0_1_n_n 256 rfl rfl).symm c) = ix2 r c :=
    funext fun a => Fin.ext (by
      match a with
      | ⟨0, _⟩ => exact pv_lhs_0 _ _
      | ⟨1, _⟩ => exact (pv_lhs_1 _ _).trans hk)
  have er : dot_S256x256_S256x128_S256x128_1_0_0_1_n_n.rhsIdx (ix2 r h)
      ((contrEquiv1 dot_S256x256_S256x128_S256x128_1_0_0_1_n_n 256 rfl rfl).symm c) = ix2 c h :=
    funext fun a => Fin.ext (by
      match a with
      | ⟨0, _⟩ => exact (pv_rhs_0 _ _).trans hk
      | ⟨1, _⟩ => exact pv_rhs_1 _ _)
  rw [el, er]

/-! ## The online-softmax updates of one key tile -/

/-- The rescaled old denominator: the old-maximum factor times the old denominator. -/
theorem pay13_apply (a1 a2 : BitVec 32) (q k : Vec Ideal S1x256x128 .f32) (mOld m37 l : Vec Ideal S256x1 .f32) (r : Fin 256) :
    k1_pay13 (F := Ideal) a1 a2 q k mOld m37 l (ix2 r (0 : Fin 1))
      = k1_pay11 (F := Ideal) a1 a2 q k mOld m37 (ix2 r (0 : Fin 1)) * l (ix2 r (0 : Fin 1)) := by
  unfold k1_pay13
  exact mulf_apply _ _ _

/-- The old-maximum factor: the exponential of the old maximum minus the new one. -/
theorem pay11_apply (a1 a2 : BitVec 32) (q k : Vec Ideal S1x256x128 .f32) (mOld m37 : Vec Ideal S256x1 .f32) (r : Fin 256) :
    k1_pay11 (F := Ideal) a1 a2 q k mOld m37 (ix2 r (0 : Fin 1))
      = Ideal.exp (m37 (ix2 r (0 : Fin 1)) - k1_pay10 (F := Ideal) a1 a2 q k mOld (ix2 r (0 : Fin 1))) := by
  unfold k1_pay11
  refine (exp_apply _ _).trans ?_
  exact congrArg Ideal.exp (subf_apply _ _ _)

/-- The tile's unnormalised probabilities: the exponential of the score minus the row's new maximum. -/
theorem pay12_apply (a1 a2 : BitVec 32) (q k : Vec Ideal S1x256x128 .f32) (mOld : Vec Ideal S256x1 .f32) (r c : Fin 256) :
    k1_pay12 (F := Ideal) a1 a2 q k mOld (ix2 r c)
      = Ideal.exp (k1_pay9 (F := Ideal) a1 a2 q k (ix2 r c) - k1_pay10 (F := Ideal) a1 a2 q k mOld (ix2 r (0 : Fin 1))) := by
  unfold k1_pay12
  refine (exp_apply _ _).trans ?_
  refine congrArg Ideal.exp ?_
  refine (subf_apply _ _ _).trans ?_
  exact congrArg (fun x => k1_pay9 (F := Ideal) a1 a2 q k (ix2 r c) - x) (broadcastTo_a1_ab_apply _ _ r c)

/-- The tile's row sum of the unnormalised probabilities. -/
theorem pay14_apply (a1 a2 : BitVec 32) (q k : Vec Ideal S1x256x128 .f32) (mOld : Vec Ideal S256x1 .f32) (r : Fin 256) :
    k1_pay14 (F := Ideal) a1 a2 q k mOld (ix2 r (0 : Fin 1))
      = ∑ c : Fin 256, k1_pay12 (F := Ideal) a1 a2 q k mOld (ix2 r c) := by
  unfold k1_pay14
  refine (shapeCast_a_a1_apply _ _ r (0 : Fin 1)).trans ?_
  exact rowSum_apply _ _ _ _ r

/-- The new running maximum: the old one against the tile's row maximum of the scores. -/
theorem pay10_apply (a1 a2 : BitVec 32) (q k : Vec Ideal S1x256x128 .f32) (mOld : Vec Ideal S256x1 .f32) (r : Fin 256) :
    k1_pay10 (F := Ideal) a1 a2 q k mOld (ix2 r (0 : Fin 1))
      = max (mOld (ix2 r (0 : Fin 1)))
          ((Finset.univ : Finset (Fin 256)).fold max ⊥ (fun c => k1_pay9 (F := Ideal) a1 a2 q k (ix2 r c))) := by
  unfold k1_pay10
  refine (maximumf_apply _ _ _).trans ?_
  refine congrArg (max (mOld (ix2 r (0 : Fin 1)))) ?_
  refine (shapeCast_a_a1_apply _ _ r (0 : Fin 1)).trans ?_
  exact rowMax_apply _ _ _ _ r

/-- The new running numerator: the rescaled old one plus the probabilities times the value tile. -/
theorem pay5_apply (v17 : FVec Ideal S256x128 .bf16) (v39 : FVec Ideal S256x1 .f32) (v42 : FVec Ideal S256x256 .f32)
    (v51 : Vec Ideal S256x128 .f32) (r : Fin 256) (h : Fin 128) :
    k1_pay5 (F := Ideal) v17 v39 v42 v51 (ix2 r h)
      = v39 (ix2 r (0 : Fin 1)) * v51 (ix2 r h) + ∑ c : Fin 256, v42 (ix2 r c) * v17 (ix2 c h) := by
  unfold k1_pay5
  rw [shapeCast_self]
  refine (addf_apply _ _ _).trans ?_
  refine congrArg₂ (· + ·) ?_ ?_
  · refine (mulf_apply _ _ _).trans ?_
    exact congrArg (fun x => x * v51 (ix2 r h)) (broadcastTo_a1_ab_apply _ _ r h)
  · exact matmulPV_apply _ _ r h

/-! ## The tile of scores: the scaled product of the query and key tiles under the causal mask -/

/-- The left operand's index of the queries-times-keys matmul keeps the output's row … -/
theorem qk_lhs_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide),
    dif_pos (show (0 : Fin S256x128.rank) ∈ dot_S256x128_S128x256_S256x256_1_0_0_1_n_n.lhsNonContracting by decide)]
  rfl
/-- … and takes the contraction coordinate as its column. -/
theorem qk_lhs_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
/-- The right operand's index takes the contraction coordinate as its row … -/
theorem qk_rhs_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
/-- … and keeps the output's column. -/
theorem qk_rhs_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide),
    dif_pos (show (1 : Fin S128x256.rank) ∈ dot_S256x128_S128x256_S256x256_1_0_0_1_n_n.rhsNonContracting by decide)]
  rfl

/-- The queries-times-keys matmul at `(r, c)`: the sum over the 128 head coordinates. -/
theorem matmulQK_apply (a : FVec Ideal S256x128 .bf16) (b : FVec Ideal S128x256 .bf16) (r c : Fin 256) :
    matmul dot_S256x128_S128x256_S256x256_1_0_0_1_n_n none a b (constant S256x256 .f32 0x00000000#32) (ix2 r c)
      = ∑ h : Fin 128, a (ix2 r h) * b (ix2 h c) := by
  simp only [matmul]
  rw [Ideal.matmul_constant_zero_apply,
    ← Equiv.sum_comp (contrEquiv1 dot_S256x128_S128x256_S256x256_1_0_0_1_n_n 128 rfl rfl).symm]
  refine Finset.sum_congr rfl fun h _ => ?_
  have hk := contrEquiv1_symm_val dot_S256x128_S128x256_S256x256_1_0_0_1_n_n 128 rfl rfl h
  have el : dot_S256x128_S128x256_S256x256_1_0_0_1_n_n.lhsIdx (ix2 r c)
      ((contrEquiv1 dot_S256x128_S128x256_S256x256_1_0_0_1_n_n 128 rfl rfl).symm h) = ix2 r h :=
    funext fun a => Fin.ext (by
      match a with
      | ⟨0, _⟩ => exact qk_lhs_0 _ _
      | ⟨1, _⟩ => exact (qk_lhs_1 _ _).trans hk)
  have er : dot_S256x128_S128x256_S256x256_1_0_0_1_n_n.rhsIdx (ix2 r c)
      ((contrEquiv1 dot_S256x128_S128x256_S256x256_1_0_0_1_n_n 128 rfl rfl).symm h) = ix2 h c :=
    funext fun a => Fin.ext (by
      match a with
      | ⟨0, _⟩ => exact (qk_rhs_0 _ _).trans hk
      | ⟨1, _⟩ => exact qk_rhs_1 _ _)
  rw [el, er]

/-- A tile's global position as one word: tile number times 256 plus the position inside the tile (no wrap-around:
the value is below 2048). -/
theorem word_eq (n : Fin 8) (r : Fin 256) :
    BitVec.ofNat 32 n.val * 256#32 + BitVec.ofNat 32 r.val = BitVec.ofNat 32 (n.val * 256 + r.val) := by
  apply BitVec.eq_of_toNat_eq
  simp only [BitVec.toNat_add, BitVec.toNat_mul, BitVec.toNat_ofNat]
  have := n.isLt; have := r.isLt
  omega

/-- A word below 2048 read as a signed integer is the number itself. -/
theorem toInt_small (a : Nat) (ha : a < 2048) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- So the signed comparison of two such words is the comparison of the numbers. -/
theorem sle_small (a b : Nat) (ha : a < 2048) (hb : b < 2048) :
    (BitVec.ofNat 32 a).sle (BitVec.ofNat 32 b) = decide (a ≤ b) := by
  rw [BitVec.sle_eq_decide, toInt_small a ha, toInt_small b hb]
  simp only [Int.ofNat_le]

/-- The mask bit `a ≥ b` (signed) of two words below 2048. -/
theorem cmpi_sge_small (a b : Nat) (ha : a < 2048) (hb : b < 2048) :
    IntOp.cmpi .sge (BitVec.ofNat 32 a) (BitVec.ofNat 32 b) = if b ≤ a then 1#1 else 0#1 := by
  show BitVec.ofBool ((BitVec.ofNat 32 b).sle (BitVec.ofNat 32 a)) = _
  rw [sle_small b a hb ha]
  by_cases h : b ≤ a
  · rw [if_pos h, decide_eq_true h]; rfl
  · rw [if_neg h, decide_eq_false h]; rfl

/-- The causal select at `(r, c)` of query tile `qi` and key tile `ki`: the first value where the key's global
position is at most the query's, the second elsewhere. -/
theorem causal_select {α : Type} (qi ki : Fin 8) (r c : Fin 256) (x y : α)
    (h0 : S256x256.Iotas .tc 32 [0]) (h1 : S256x256.Iotas .tc 32 [1]) :
    Scalar.select
        ((cmpi .sge (addi (broadcast S256x256 (Scalar.muli (BitVec.ofNat 32 qi.val) 256#32)) (iota .tc S256x256 32 [0] h0))
          (addi (broadcast S256x256 (Scalar.muli (BitVec.ofNat 32 ki.val) 256#32)) (iota .tc S256x256 32 [1] h1)))
          (ix2 r c)) x y
      = if ki.val * 256 + c.val ≤ qi.val * 256 + r.val then x else y := by
  have e0 : iota .tc S256x256 32 [0] h0 (ix2 r c) = BitVec.ofNat 32 r.val := iota_single_apply _ _ _ _ _ _
  have e1 : iota .tc S256x256 32 [1] h1 (ix2 r c) = BitVec.ofNat 32 c.val := iota_single_apply _ _ _ _ _ _
  show Scalar.select (IntOp.cmpi .sge
      (BitVec.ofNat 32 qi.val * 256#32 + iota .tc S256x256 32 [0] h0 (ix2 r c))
      (BitVec.ofNat 32 ki.val * 256#32 + iota .tc S256x256 32 [1] h1 (ix2 r c))) x y = _
  have hq := qi.isLt; have hk := ki.isLt; have hr := r.isLt; have hc := c.isLt
  rw [e0, e1, word_eq, word_eq, cmpi_sge_small _ _ (by omega) (by omega)]
  by_cases h : ki.val * 256 + c.val ≤ qi.val * 256 + r.val
  · rw [if_pos h, if_pos h]; exact select_one x y
  · rw [if_neg h, if_neg h]; exact select_zero x y

/-- THE SCORES. At `(r, c)` of query tile `qi` against key tile `ki`: where the key is not after the query, the inner
product of query row `r` and key row `c` over the 128 head coordinates times the scale `1/8`; elsewhere `-∞`, which
the named constant of the mask denotes over the extended reals. -/
theorem pay9_apply (qi ki : Fin 8) (q k : Vec Ideal S1x256x128 .f32) (r c : Fin 256) :
    k1_pay9 (F := Ideal) (BitVec.ofNat 32 qi.val) (BitVec.ofNat 32 ki.val) q k (ix2 r c)
      = if ki.val * 256 + c.val ≤ qi.val * 256 + r.val then
          (∑ h : Fin 128, q (ix3 (0 : Fin 1) r h) * k (ix3 (0 : Fin 1) c h)) * Ideal.ofBits .f32 0x3E000000#32
        else ⊥ := by
  unfold k1_pay9
  refine (select_apply _ _ _ _).trans ?_
  refine (causal_select qi ki r c _ _ _ _).trans ?_
  by_cases hm : ki.val * 256 + c.val ≤ qi.val * 256 + r.val
  · rw [if_pos hm, if_pos hm]
    refine (mulf_apply _ _ _).trans ?_
    refine congrArg₂ (· * ·) ?_ rfl
    refine (matmulQK_apply _ _ r c).trans ?_
    refine Finset.sum_congr rfl fun h _ => ?_
    refine congrArg₂ (· * ·) ?_ ?_
    · exact shapeCast_1ab_ab_apply q _ r h
    · refine (transpose_ix2_apply _ _ h c).trans ?_
      exact shapeCast_1ab_ab_apply k _ c h
  · rw [if_neg hm, if_neg hm]
    rfl

end Cert.KernelIdeal.FlashPay

end
-- ==== Proof.OnlineSoftmax.lean ====
/-
  The online softmax recurrence over the extended reals.

  A query row `t` sweeps the key axis in tiles of 256 positions.  Before tile `j` it carries the maximum `m`, the
  denominator `l` and the numerator `a` of the allowed key positions below `256 j` (for `j = 0`: `⊥`, `0`, `0`).
  Tile `j` contributes the scores of its columns, a masked column being `⊥`.  With `m'` the larger of `m` and the
  tile's maximum, the new denominator is `exp (m - m') * l + ∑ exp (e c - m')`, and likewise the numerator.

  * `online_step`: the three updated quantities are the running maximum, denominator and numerator below
    `256 (j + 1)`.  The allowed positions below `256 (j + 1)` are the disjoint union of those below `256 j` and of the
    unmasked columns of the tile; `exp (M - M') * exp (s u - M) = exp (s u - M')`; a masked column gives
    `exp (⊥ - M') = exp ⊥ = 0`.
  * `online_final`: once the prefix covers every allowed position, numerator over denominator is the softmax
    average of the values.
  * `scoreP_pad`: the score over the zero-padded head axis, scaled by the product with `1/8`, is the score.
-/
import proofs.«156562_j19267223290409_2_alg».proof.Proof.SpecTiles
import proofs.«156562_j19267223290409_2_alg».proof.Proof.LibERealCoe
import Idealize.ShloMosaic.PureOps.Ideal

noncomputable section

open scoped BigOperators

namespace Cert.CausalAttention

open Idealize.ShloMosaic

/-! ### The padded score -/

/-- The padding contributes zeros to the head sum, and the product with `1/8` is the quotient by `8`. -/
theorem scoreP_pad (p q : Fin 8 → Fin 2048 → Fin 64 → ℝ) (b : Fin 8) (t u : Fin 2048) :
    scoreP (padProj p) (padProj q) b t u = score p q b t u := by
  unfold scoreP score
  have hsum : (∑ h : Fin 128, padProj p b t h * padProj q b u h) = ∑ h : Fin 64, p b t h * q b u h := by
    have h := Fin.sum_univ_add (a := 64) (b := 64) (fun h : Fin (64 + 64) => padProj p b t h * padProj q b u h)
    refine h.trans ?_
    have h1 : ∀ i : Fin 64, padProj p b t (Fin.castAdd 64 i) * padProj q b u (Fin.castAdd 64 i)
        = p b t i * q b u i := by
      intro i
      simp [padProj]
    have h2 : ∀ i : Fin 64, padProj p b t (Fin.natAdd 64 i) * padProj q b u (Fin.natAdd 64 i) = 0 := by
      intro i
      simp [padProj]
    simp only [h1, h2, Finset.sum_const_zero, add_zero]
  rw [hsum]
  ring

/-! ### The whole row -/

/-- A prefix that reaches past `t` holds every allowed key position. -/
theorem allowedBelow_eq_allowed (t : Fin 2048) (n : ℕ) (hn : t.val < n) : allowedBelow t n = allowed t := by
  ext u
  simp only [allowedBelow, allowed, Finset.mem_filter, Finset.mem_univ, true_and]
  constructor
  · exact fun h => h.2
  · intro h
    exact ⟨lt_of_le_of_lt (Fin.le_def.mp h) hn, h⟩

theorem runMax_eq_rowMax (s : Fin 2048 → ℝ) (t : Fin 2048) (n : ℕ) (hn : t.val < n) :
    runMax s t n = rowMax s t := by
  have h0 : 0 < n := by omega
  unfold runMax rowMax
  rw [dif_pos h0]
  exact Finset.sup'_congr _ (allowedBelow_eq_allowed t n hn) (fun _ _ => rfl)

theorem runDen_eq_denom (s : Fin 2048 → ℝ) (t : Fin 2048) (n : ℕ) (hn : t.val < n) :
    runDen s t n = denom s t := by
  unfold runDen denom weight
  rw [allowedBelow_eq_allowed t n hn, runMax_eq_rowMax s t n hn]
  unfold allowed
  rw [Finset.sum_filter]

theorem runNum_eq_sum_weight (s vv : Fin 2048 → ℝ) (t : Fin 2048) (n : ℕ) (hn : t.val < n) :
    runNum s vv t n = ∑ u : Fin 2048, weight s t u * vv u := by
  unfold runNum weight
  rw [allowedBelow_eq_allowed t n hn, runMax_eq_rowMax s t n hn]
  unfold allowed
  rw [Finset.sum_filter]
  refine Finset.sum_congr rfl (fun u _ => ?_)
  split_ifs
  · rfl
  · rw [zero_mul]

/-- Every term of a running denominator over a nonempty prefix is positive. -/
theorem runDen_pos (s : Fin 2048 → ℝ) (t : Fin 2048) (n : ℕ) (hn : 0 < n) : 0 < runDen s t n :=
  Finset.sum_pos (fun _ _ => Real.exp_pos _) (allowedBelow_nonempty t n hn)

/-- Numerator over denominator, once the prefix holds every allowed position, is the softmax average. -/
theorem online_final (s vv : Fin 2048 → ℝ) (t : Fin 2048) (n : ℕ) (hn : t.val < n) :
    Ideal.div ((runNum s vv t n : ℝ) : EReal) ((runDen s t n : ℝ) : EReal)
      = ((∑ u : Fin 2048, (weight s t u / denom s t) * vv u : ℝ) : EReal) := by
  have hD : runDen s t n ≠ 0 := (runDen_pos s t n (by omega)).ne'
  rw [Ideal.div_coe hD, ← EReal.coe_mul, EReal.coe_eq_coe_iff,
    runNum_eq_sum_weight s vv t n hn, runDen_eq_denom s t n hn, Finset.sum_mul]
  exact Finset.sum_congr rfl (fun u _ => by ring)

/-! ### One tile -/

/-- The key position of column `c` of tile `j`. -/
def tilePos (j : ℕ) (hj : (j + 1) * 256 ≤ 2048) (c : Fin 256) : Fin 2048 :=
  ⟨j * 256 + c.val, by have := c.isLt; omega⟩

theorem tilePos_injective (j : ℕ) (hj : (j + 1) * 256 ≤ 2048) : Function.Injective (tilePos j hj) := by
  intro a b h
  have h' := congrArg Fin.val h
  simp only [tilePos] at h'
  exact Fin.ext (by omega)

/-- The columns of tile `j` that the causal mask keeps for the query position `t`. -/
def tileCols (t : Fin 2048) (j : ℕ) : Finset (Fin 256) := Finset.univ.filter fun c => j * 256 + c.val ≤ t.val

/-- A tile that starts at or before `t` keeps its first column. -/
theorem tileCols_nonempty (t : Fin 2048) (j : ℕ) (hjt : j * 256 ≤ t.val) : (tileCols t j).Nonempty :=
  ⟨⟨0, by norm_num⟩, Finset.mem_filter.mpr ⟨Finset.mem_univ _, by show j * 256 + 0 ≤ t.val; omega⟩⟩

/-- The allowed positions below `256 (j + 1)`: those below `256 j`, and the kept columns of tile `j`. -/
theorem allowedBelow_succ (t : Fin 2048) (j : ℕ) (hj : (j + 1) * 256 ≤ 2048) :
    allowedBelow t ((j + 1) * 256) = allowedBelow t (j * 256) ∪ (tileCols t j).image (tilePos j hj) := by
  ext u
  simp only [allowedBelow, tileCols, Finset.mem_union, Finset.mem_image, Finset.mem_filter, Finset.mem_univ,
    true_and, Fin.le_def]
  constructor
  · rintro ⟨h1, h2⟩
    by_cases h : u.val < j * 256
    · exact Or.inl ⟨h, h2⟩
    · refine Or.inr ⟨⟨u.val - j * 256, by omega⟩, ?_, ?_⟩
      · show j * 256 + (u.val - j * 256) ≤ t.val
        omega
      · apply Fin.ext
        show j * 256 + (u.val - j * 256) = u.val
        omega
  · rintro (⟨h1, h2⟩ | ⟨c, hc, rfl⟩)
    · exact ⟨by omega, h2⟩
    · have hc256 := c.isLt
      constructor
      · show j * 256 + c.val < (j + 1) * 256
        omega
      · show j * 256 + c.val ≤ t.val
        exact hc

theorem allowedBelow_disjoint_tile (t : Fin 2048) (j : ℕ) (hj : (j + 1) * 256 ≤ 2048) :
    Disjoint (allowedBelow t (j * 256)) ((tileCols t j).image (tilePos j hj)) := by
  rw [Finset.disjoint_left]
  intro u hu hu'
  simp only [allowedBelow, Finset.mem_filter, Finset.mem_univ, true_and] at hu
  obtain ⟨c, _, rfl⟩ := Finset.mem_image.mp hu'
  have h1 : j * 256 + c.val < j * 256 := hu.1
  omega

/-- No position lies below `0`. -/
theorem allowedBelow_zero (t : Fin 2048) (n : ℕ) (hn : n = 0) : allowedBelow t n = ∅ := by
  subst hn
  ext u
  simp [allowedBelow]

/-- The maximum over the tile's entries, a masked column being `⊥`, is the largest score among the kept columns. -/
theorem tile_max (s : Fin 2048 → ℝ) (t : Fin 2048) (j : ℕ) (hj : (j + 1) * 256 ≤ 2048) (hjt : j * 256 ≤ t.val)
    (e : Fin 256 → EReal)
    (he : ∀ c : Fin 256, e c = if j * 256 + c.val ≤ t.val then ((s (tilePos j hj c) : ℝ) : EReal) else ⊥) :
    (Finset.univ : Finset (Fin 256)).fold max ⊥ e
      = (((tileCols t j).sup' (tileCols_nonempty t j hjt) (fun c => s (tilePos j hj c)) : ℝ) : EReal) := by
  have hfun : e = fun c => if j * 256 + c.val ≤ t.val then ((s (tilePos j hj c) : ℝ) : EReal) else ⊥ :=
    funext he
  rw [hfun]
  exact ERealCoe.fold_max_bot_ite_coe Finset.univ (fun c : Fin 256 => j * 256 + c.val ≤ t.val)
    (fun c => s (tilePos j hj c)) (tileCols_nonempty t j hjt)

/-- The coercion of the reals into the extended reals commutes with the maximum of two reals. -/
theorem coe_max_real (a b : ℝ) : ((max a b : ℝ) : EReal) = max (a : EReal) (b : EReal) :=
  EReal.coe_strictMono.monotone.map_max

/-- The larger of the maximum below `256 j` (or `⊥` when `j = 0`) and of the tile's maximum is the maximum below
    `256 (j + 1)`: the maximum over a union is the larger of the two maxima. -/
theorem runMax_succ_coe (s : Fin 2048 → ℝ) (t : Fin 2048) (j : ℕ) (hj : (j + 1) * 256 ≤ 2048)
    (hjt : j * 256 ≤ t.val) (mOld : EReal)
    (hm : (j = 0 ∧ mOld = ⊥) ∨ (0 < j ∧ mOld = ((runMax s t (j * 256) : ℝ) : EReal))) :
    max mOld (((tileCols t j).sup' (tileCols_nonempty t j hjt) (fun c => s (tilePos j hj c)) : ℝ) : EReal)
      = ((runMax s t ((j + 1) * 256) : ℝ) : EReal) := by
  have hpos : 0 < (j + 1) * 256 := by omega
  have hI : ((tileCols t j).image (tilePos j hj)).Nonempty := (tileCols_nonempty t j hjt).image _
  have hImg : ((tileCols t j).image (tilePos j hj)).sup' hI s
      = (tileCols t j).sup' (tileCols_nonempty t j hjt) (fun c => s (tilePos j hj c)) :=
    Finset.sup'_image hI s
  have hB : runMax s t ((j + 1) * 256)
      = (allowedBelow t ((j + 1) * 256)).sup' (allowedBelow_nonempty t _ hpos) s := dif_pos hpos
  rw [← hImg, hB]
  rcases hm with ⟨h0, hm⟩ | ⟨hp, hm⟩
  · have hset : (tileCols t j).image (tilePos j hj) = allowedBelow t ((j + 1) * 256) := by
      rw [allowedBelow_succ t j hj, allowedBelow_zero t _ (by omega), Finset.empty_union]
    rw [hm, max_eq_right bot_le, EReal.coe_eq_coe_iff]
    exact Finset.sup'_congr hI hset (fun _ _ => rfl)
  · have hApos : 0 < j * 256 := by omega
    have hA : runMax s t (j * 256) = (allowedBelow t (j * 256)).sup' (allowedBelow_nonempty t _ hApos) s :=
      dif_pos hApos
    rw [hm, hA, ← coe_max_real, EReal.coe_eq_coe_iff]
    exact (Finset.sup'_union (allowedBelow_nonempty t _ hApos) hI s).symm.trans
      (Finset.sup'_congr _ (allowedBelow_succ t j hj).symm (fun _ _ => rfl))

/-- The tile's contribution at the new maximum `M`, against a column `g` of values: a kept column gives
    `exp (s u - M) * g u`, a masked one `exp (⊥ - M) * g u = 0`. -/
theorem tile_sum (s g : Fin 2048 → ℝ) (t : Fin 2048) (j : ℕ) (hj : (j + 1) * 256 ≤ 2048) (M : ℝ)
    (e : Fin 256 → EReal)
    (he : ∀ c : Fin 256, e c = if j * 256 + c.val ≤ t.val then ((s (tilePos j hj c) : ℝ) : EReal) else ⊥) :
    ∑ c : Fin 256, Ideal.exp (e c - (M : EReal)) * ((g (tilePos j hj c) : ℝ) : EReal)
      = ((∑ u ∈ (tileCols t j).image (tilePos j hj), Real.exp (s u - M) * g u : ℝ) : EReal) := by
  rw [Finset.sum_image (fun a _ b _ h => tilePos_injective j hj h), tileCols, Finset.sum_filter,
    ERealCoe.coe_finset_sum]
  refine Finset.sum_congr rfl (fun c _ => ?_)
  rw [he c]
  split_ifs with h
  · rw [← EReal.coe_sub, Ideal.exp_coe, ← EReal.coe_mul]
  · rw [EReal.bot_sub, Ideal.exp_bot, zero_mul, EReal.coe_zero]

/-- The carried quantity rescaled to the new maximum `M`: `exp (m - M) * exp (s u - m) = exp (s u - M)`; with
    nothing carried, `exp (⊥ - M) * 0 = 0`, the empty sum. -/
theorem carried_rescale (s g : Fin 2048 → ℝ) (t : Fin 2048) (j : ℕ) (M : ℝ) (mOld aOld : EReal)
    (hstate : (j = 0 ∧ mOld = ⊥ ∧ aOld = 0) ∨
      (0 < j ∧ mOld = ((runMax s t (j * 256) : ℝ) : EReal) ∧
        aOld = ((∑ u ∈ allowedBelow t (j * 256), Real.exp (s u - runMax s t (j * 256)) * g u : ℝ) : EReal))) :
    Ideal.exp (mOld - (M : EReal)) * aOld
      = ((∑ u ∈ allowedBelow t (j * 256), Real.exp (s u - M) * g u : ℝ) : EReal) := by
  rcases hstate with ⟨h0, _, ha⟩ | ⟨_, hm, ha⟩
  · rw [ha, mul_zero, allowedBelow_zero t _ (by omega), Finset.sum_empty, EReal.coe_zero]
  · rw [hm, ha, ← EReal.coe_sub, Ideal.exp_coe, ← EReal.coe_mul, EReal.coe_eq_coe_iff, Finset.mul_sum]
    refine Finset.sum_congr rfl (fun u _ => ?_)
    rw [← mul_assoc, ← Real.exp_add]
    congr 2
    ring

/-- One step of the recurrence for a column `g` of values, at any new reference point `M`. -/
theorem step_general (s g : Fin 2048 → ℝ) (t : Fin 2048) (j : ℕ) (hj : (j + 1) * 256 ≤ 2048) (M : ℝ)
    (mOld aOld : EReal)
    (hstate : (j = 0 ∧ mOld = ⊥ ∧ aOld = 0) ∨
      (0 < j ∧ mOld = ((runMax s t (j * 256) : ℝ) : EReal) ∧
        aOld = ((∑ u ∈ allowedBelow t (j * 256), Real.exp (s u - runMax s t (j * 256)) * g u : ℝ) : EReal)))
    (e : Fin 256 → EReal)
    (he : ∀ c : Fin 256, e c = if j * 256 + c.val ≤ t.val then ((s (tilePos j hj c) : ℝ) : EReal) else ⊥) :
    Ideal.exp (mOld - (M : EReal)) * aOld
        + ∑ c : Fin 256, Ideal.exp (e c - (M : EReal)) * ((g (tilePos j hj c) : ℝ) : EReal)
      = ((∑ u ∈ allowedBelow t ((j + 1) * 256), Real.exp (s u - M) * g u : ℝ) : EReal) := by
  rw [carried_rescale s g t j M mOld aOld hstate, tile_sum s g t j hj M e he, ← EReal.coe_add,
    ← Finset.sum_union (allowedBelow_disjoint_tile t j hj), ← allowedBelow_succ t j hj]

/-- One tile of the online softmax: the updated maximum, denominator and numerator are the running ones below
    `256 (j + 1)`. -/
theorem online_step (s vv : Fin 2048 → ℝ) (t : Fin 2048) (j : ℕ) (hj : (j + 1) * 256 ≤ 2048) (hjt : j * 256 ≤ t.val)
    (mOld lOld aOld : EReal)
    (hstate : (j = 0 ∧ mOld = ⊥ ∧ lOld = 0 ∧ aOld = 0) ∨
      (0 < j ∧ mOld = ((runMax s t (j * 256) : ℝ) : EReal) ∧ lOld = ((runDen s t (j * 256) : ℝ) : EReal) ∧ aOld = ((runNum s vv t (j * 256) : ℝ) : EReal)))
    (e : Fin 256 → EReal) (he : ∀ c : Fin 256, e c = if j * 256 + c.val ≤ t.val then ((s ⟨j * 256 + c.val, by have := c.isLt; omega⟩ : ℝ) : EReal) else ⊥)
    (w : Fin 256 → EReal) (hw : ∀ c : Fin 256, w c = ((vv ⟨j * 256 + c.val, by have := c.isLt; omega⟩ : ℝ) : EReal)) :
    max mOld ((Finset.univ : Finset (Fin 256)).fold max ⊥ e) = ((runMax s t ((j + 1) * 256) : ℝ) : EReal)
    ∧ Ideal.exp (mOld - max mOld ((Finset.univ : Finset (Fin 256)).fold max ⊥ e)) * lOld + ∑ c : Fin 256, Ideal.exp (e c - max mOld ((Finset.univ : Finset (Fin 256)).fold max ⊥ e)) = ((runDen s t ((j + 1) * 256) : ℝ) : EReal)
    ∧ Ideal.exp (mOld - max mOld ((Finset.univ : Finset (Fin 256)).fold max ⊥ e)) * aOld + ∑ c : Fin 256, Ideal.exp (e c - max mOld ((Finset.univ : Finset (Fin 256)).fold max ⊥ e)) * w c = ((runNum s vv t ((j + 1) * 256) : ℝ) : EReal) := by
  have he' : ∀ c : Fin 256,
      e c = if j * 256 + c.val ≤ t.val then ((s (tilePos j hj c) : ℝ) : EReal) else ⊥ := he
  have hw' : w = fun c : Fin 256 => ((vv (tilePos j hj c) : ℝ) : EReal) := funext hw
  have hmax : max mOld ((Finset.univ : Finset (Fin 256)).fold max ⊥ e)
      = ((runMax s t ((j + 1) * 256) : ℝ) : EReal) := by
    rw [tile_max s t j hj hjt e he']
    refine runMax_succ_coe s t j hj hjt mOld ?_
    rcases hstate with ⟨h0, hm, _⟩ | ⟨hp, hm, _⟩
    · exact Or.inl ⟨h0, hm⟩
    · exact Or.inr ⟨hp, hm⟩
  refine ⟨hmax, ?_, ?_⟩
  · rw [hmax]
    have hst : (j = 0 ∧ mOld = ⊥ ∧ lOld = 0) ∨
        (0 < j ∧ mOld = ((runMax s t (j * 256) : ℝ) : EReal) ∧
          lOld = ((∑ u ∈ allowedBelow t (j * 256),
            Real.exp (s u - runMax s t (j * 256)) * (fun _ : Fin 2048 => (1 : ℝ)) u : ℝ) : EReal)) := by
      rcases hstate with ⟨h0, hm, hl, _⟩ | ⟨hp, hm, hl, _⟩
      · exact Or.inl ⟨h0, hm, hl⟩
      · refine Or.inr ⟨hp, hm, ?_⟩
        rw [hl]
        simp only [runDen, mul_one]
    have h := step_general s (fun _ => (1 : ℝ)) t j hj (runMax s t ((j + 1) * 256)) mOld lOld hst e he'
    simp only [mul_one, EReal.coe_one] at h
    exact h
  · rw [hmax, hw']
    have hst : (j = 0 ∧ mOld = ⊥ ∧ aOld = 0) ∨
        (0 < j ∧ mOld = ((runMax s t (j * 256) : ℝ) : EReal) ∧
          aOld = ((∑ u ∈ allowedBelow t (j * 256),
            Real.exp (s u - runMax s t (j * 256)) * vv u : ℝ) : EReal)) := by
      rcases hstate with ⟨h0, hm, _, ha⟩ | ⟨hp, hm, _, ha⟩
      · exact Or.inl ⟨h0, hm, ha⟩
      · exact Or.inr ⟨hp, hm, ha⟩
    exact step_general s vv t j hj (runMax s t ((j + 1) * 256)) mOld aOld hst e he'

end Cert.CausalAttention

end
-- ==== Proof.KVRow.lean ====
/-
  One query row through the attention body's arithmetic, over the extended reals.

  * `score_tile`: the body's tile of scores at row `r`, column `c` is the scaled score of the query position of `r`
    against the key position of `c` where the causal mask allows it, and `⊥` elsewhere (the scale constant is `1/8`,
    and the coercion of the reals passes through the sum over the head coordinates).
  * `ffold_row`: folding key tile `ki` into buffers that hold the running maximum, denominator and numerators below
    `256 ki` (or the reset values when `ki = 0`) leaves those below `256 (ki + 1)`: the online-softmax step, row by row.
  * `ffin_row`: once the prefix covers the whole query tile, the final division is the softmax average of the values.
-/
import proofs.«156562_j19267223290409_2_alg».proof.Proof.KVDefs
import proofs.«156562_j19267223290409_2_alg».proof.Proof.FlashPayloads
import proofs.«156562_j19267223290409_2_alg».proof.Proof.OnlineSoftmax

noncomputable section

open scoped BigOperators

namespace Cert.KernelIdeal.KVal

open Cert.KernelIdeal Cert.KernelIdeal.Gen Cert.KernelIdeal.FlashPay Cert.CausalAttention
open Idealize.ShloMosaic Idealize.ShloMosaic.ValueIdx

/-- The scale constant of the scores denotes `1/8`: exponent field `124`, significand `1`. -/
theorem scale_eq : Ideal.ofBits .f32 0x3E000000#32 = ((1 / 8 : ℝ) : EReal) := by
  simp [Ideal.ofBits, Ideal.ieee, -EReal.coe_mul]
  norm_num

/-- The tile of scores at `(r, c)`: the score of the row's query position against the column's key position under
    the causal mask, `⊥` where the key comes after the query. -/
theorem score_tile (sR : Fin 2048 → Fin 2048 → ℝ) (qR kR : Fin 2048 → Fin 128 → ℝ)
    (hsR : ∀ t u, sR t u = (∑ h : Fin 128, qR t h * kR u h) * (1 / 8))
    (qi ki : Fin 8) (x0 x1 : Vec Ideal S1x256x128 .f32)
    (hx0 : ∀ (r : Fin 256) (h : Fin 128), x0 (ix3 (0 : Fin 1) r h) = ((qR (rowPos qi r) h : ℝ) : EReal))
    (hx1 : ∀ (cc : Fin 256) (h : Fin 128), x1 (ix3 (0 : Fin 1) cc h) = ((kR (keyPos ki cc) h : ℝ) : EReal))
    (r c : Fin 256) :
    k1_pay9 (F := Ideal) (BitVec.ofNat 32 qi.val) (BitVec.ofNat 32 ki.val) x0 x1 (ix2 r c)
      = if ki.val * 256 + c.val ≤ (rowPos qi r).val then ((sR (rowPos qi r) (keyPos ki c) : ℝ) : EReal) else ⊥ := by
  refine (pay9_apply qi ki x0 x1 r c).trans ?_
  have hsum : (∑ h : Fin 128, x0 (ix3 (0 : Fin 1) r h) * x1 (ix3 (0 : Fin 1) c h))
      = ((∑ h : Fin 128, qR (rowPos qi r) h * kR (keyPos ki c) h : ℝ) : EReal) := by
    rw [ERealCoe.coe_finset_sum]
    refine Finset.sum_congr rfl (fun h _ => ?_)
    rw [hx0 r h, hx1 c h, EReal.coe_mul]
  rw [hsum, scale_eq, ← EReal.coe_mul, ← hsR]
  rfl

/-- One key tile folded into one row of the carried buffers: the online-softmax step. -/
theorem row_step (sR : Fin 2048 → Fin 2048 → ℝ) (vR qR kR : Fin 2048 → Fin 128 → ℝ)
    (hsR : ∀ t u, sR t u = (∑ h : Fin 128, qR t h * kR u h) * (1 / 8))
    (qi ki : Fin 8) (hk : ki.val ≤ qi.val) (x0 x1 x2 : Vec Ideal S1x256x128 .f32)
    (hx0 : ∀ (r : Fin 256) (h : Fin 128), x0 (ix3 (0 : Fin 1) r h) = ((qR (rowPos qi r) h : ℝ) : EReal))
    (hx1 : ∀ (cc : Fin 256) (h : Fin 128), x1 (ix3 (0 : Fin 1) cc h) = ((kR (keyPos ki cc) h : ℝ) : EReal))
    (hx2 : ∀ (cc : Fin 256) (h : Fin 128), x2 (ix3 (0 : Fin 1) cc h) = ((vR (keyPos ki cc) h : ℝ) : EReal))
    (m l : Vec Ideal S256x1 .f32) (acc : Vec Ideal S256x128 .f32) (r : Fin 256)
    (hst : (ki.val = 0 ∧ (m : S256x1.Idx → EReal) (ix2 r (0 : Fin 1)) = ⊥
              ∧ (l : S256x1.Idx → EReal) (ix2 r (0 : Fin 1)) = 0
              ∧ ∀ h : Fin 128, (acc : S256x128.Idx → EReal) (ix2 r h) = 0)
        ∨ (0 < ki.val
              ∧ (m : S256x1.Idx → EReal) (ix2 r (0 : Fin 1))
                  = ((runMax (sR (rowPos qi r)) (rowPos qi r) (ki.val * 256) : ℝ) : EReal)
              ∧ (l : S256x1.Idx → EReal) (ix2 r (0 : Fin 1))
                  = ((runDen (sR (rowPos qi r)) (rowPos qi r) (ki.val * 256) : ℝ) : EReal)
              ∧ ∀ h : Fin 128, (acc : S256x128.Idx → EReal) (ix2 r h)
                  = ((runNum (sR (rowPos qi r)) (fun u => vR u h) (rowPos qi r) (ki.val * 256) : ℝ) : EReal))) :
    (k1_pay10 (F := Ideal) (BitVec.ofNat 32 qi.val) (BitVec.ofNat 32 ki.val) x0 x1 m : S256x1.Idx → EReal)
        (ix2 r (0 : Fin 1))
      = ((runMax (sR (rowPos qi r)) (rowPos qi r) ((ki.val + 1) * 256) : ℝ) : EReal)
    ∧ (k1_pay4 (F := Ideal)
          (k1_pay13 (F := Ideal) (BitVec.ofNat 32 qi.val) (BitVec.ofNat 32 ki.val) x0 x1 m m l)
          (k1_pay14 (F := Ideal) (BitVec.ofNat 32 qi.val) (BitVec.ofNat 32 ki.val) x0 x1 m) : S256x1.Idx → EReal)
        (ix2 r (0 : Fin 1))
      = ((runDen (sR (rowPos qi r)) (rowPos qi r) ((ki.val + 1) * 256) : ℝ) : EReal)
    ∧ ∀ h : Fin 128,
        (k1_pay5 (F := Ideal) (k1_pay8 (F := Ideal) x2)
          (k1_pay11 (F := Ideal) (BitVec.ofNat 32 qi.val) (BitVec.ofNat 32 ki.val) x0 x1 m m)
          (k1_pay12 (F := Ideal) (BitVec.ofNat 32 qi.val) (BitVec.ofNat 32 ki.val) x0 x1 m) acc
            : S256x128.Idx → EReal) (ix2 r h)
        = ((runNum (sR (rowPos qi r)) (fun u => vR u h) (rowPos qi r) ((ki.val + 1) * 256) : ℝ) : EReal) := by
  have hki := ki.isLt
  have hj : (ki.val + 1) * 256 ≤ 2048 := by omega
  have hjt : ki.val * 256 ≤ (rowPos qi r).val := by
    show ki.val * 256 ≤ qi.val * 256 + r.val
    omega
  have he : ∀ c : Fin 256,
      k1_pay9 (F := Ideal) (BitVec.ofNat 32 qi.val) (BitVec.ofNat 32 ki.val) x0 x1 (ix2 r c)
        = if ki.val * 256 + c.val ≤ (rowPos qi r).val then
            ((sR (rowPos qi r) ⟨ki.val * 256 + c.val, by have := c.isLt; omega⟩ : ℝ) : EReal)
          else ⊥ :=
    fun c => score_tile sR qR kR hsR qi ki x0 x1 hx0 hx1 r c
  have h10 := pay10_apply (BitVec.ofNat 32 qi.val) (BitVec.ofNat 32 ki.val) x0 x1 m r
  -- the step for one column of the values
  have step : ∀ h : Fin 128, _ := fun h =>
    online_step (sR (rowPos qi r)) (fun u => vR u h) (rowPos qi r) ki.val hj hjt
      ((m : S256x1.Idx → EReal) (ix2 r (0 : Fin 1))) ((l : S256x1.Idx → EReal) (ix2 r (0 : Fin 1)))
      ((acc : S256x128.Idx → EReal) (ix2 r h))
      (by
        rcases hst with ⟨h0, hm, hl, ha⟩ | ⟨hp, hm, hl, ha⟩
        · exact Or.inl ⟨h0, hm, hl, ha h⟩
        · exact Or.inr ⟨hp, hm, hl, ha h⟩)
      (fun c => k1_pay9 (F := Ideal) (BitVec.ofNat 32 qi.val) (BitVec.ofNat 32 ki.val) x0 x1 (ix2 r c)) he
      (fun c => k1_pay8 (F := Ideal) x2 (ix2 c h))
      (fun c => (pay8_apply x2 c h).trans (hx2 c h))
  refine ⟨h10.trans (step ⟨0, by norm_num⟩).1, ?_, ?_⟩
  · refine (pay4_apply _ _ r).trans ?_
    rw [pay13_apply, pay11_apply, pay14_apply]
    simp only [pay12_apply]
    rw [h10]
    exact (step ⟨0, by norm_num⟩).2.1
  · intro h
    refine (pay5_apply _ _ _ _ r h).trans ?_
    rw [pay11_apply]
    simp only [pay12_apply]
    rw [h10]
    exact (step h).2.2

/-- Folding key tile `ki` (not after the query tile `qi`) into the carried buffers moves the row invariant from the
    key positions below `256 ki` to those below `256 (ki + 1)`. -/
theorem ffold_row (sR : Fin 2048 → Fin 2048 → ℝ) (vR qR kR : Fin 2048 → Fin 128 → ℝ) (hsR : ∀ t u, sR t u = (∑ h : Fin 128, qR t h * kR u h) * (1 / 8))
    (qi ki : Fin 8) (hk : ki.val ≤ qi.val) (i : grid1.Coords) (hi1 : (i 1).val = qi.val) (hi2 : (i 2).val = ki.val)
    (x0 x1 x2 : Vec Ideal S1x256x128 .f32)
    (hx0 : ∀ (r : Fin 256) (h : Fin 128), x0 (ix3 (0 : Fin 1) r h) = ((qR (rowPos qi r) h : ℝ) : EReal))
    (hx1 : ∀ (cc : Fin 256) (h : Fin 128), x1 (ix3 (0 : Fin 1) cc h) = ((kR (keyPos ki cc) h : ℝ) : EReal))
    (hx2 : ∀ (cc : Fin 256) (h : Fin 128), x2 (ix3 (0 : Fin 1) cc h) = ((vR (keyPos ki cc) h : ℝ) : EReal))
    (s : Gen.FState Ideal) (hstate : (ki.val = 0 ∧ s = Gen.finit) ∨ (0 < ki.val ∧ RowInv sR vR qi (ki.val * 256) s)) :
    RowInv sR vR qi ((ki.val + 1) * 256) (Gen.ffold i x0 x1 x2 s) := by
  have ha1 : Gen.fa1 i = BitVec.ofNat 32 qi.val := congrArg (BitVec.ofNat 32) hi1
  have ha2 : Gen.fa2 i = BitVec.ofNat 32 ki.val := congrArg (BitVec.ofNat 32) hi2
  unfold RowInv
  intro r
  have hst : (ki.val = 0 ∧ (s.2.1 : S256x1.Idx → EReal) (ix2 r (0 : Fin 1)) = ⊥
              ∧ (s.2.2.1 : S256x1.Idx → EReal) (ix2 r (0 : Fin 1)) = 0
              ∧ ∀ h : Fin 128, (s.2.2.2 : S256x128.Idx → EReal) (ix2 r h) = 0)
        ∨ (0 < ki.val
              ∧ (s.2.1 : S256x1.Idx → EReal) (ix2 r (0 : Fin 1))
                  = ((runMax (sR (rowPos qi r)) (rowPos qi r) (ki.val * 256) : ℝ) : EReal)
              ∧ (s.2.2.1 : S256x1.Idx → EReal) (ix2 r (0 : Fin 1))
                  = ((runDen (sR (rowPos qi r)) (rowPos qi r) (ki.val * 256) : ℝ) : EReal)
              ∧ ∀ h : Fin 128, (s.2.2.2 : S256x128.Idx → EReal) (ix2 r h)
                  = ((runNum (sR (rowPos qi r)) (fun u => vR u h) (rowPos qi r) (ki.val * 256) : ℝ) : EReal)) := by
    rcases hstate with ⟨h0, hs⟩ | ⟨hp, hinv⟩
    · subst hs
      exact Or.inl ⟨h0, pay1_apply r, pay2_apply r, fun h => pay3_apply r h⟩
    · exact Or.inr ⟨hp, (hinv r).1, (hinv r).2.1, (hinv r).2.2⟩
  obtain ⟨g1, g2, g3⟩ := row_step sR vR qR kR hsR qi ki hk x0 x1 x2 hx0 hx1 hx2 s.2.1 s.2.2.1 s.2.2.2 r hst
  unfold Gen.ffold
  rw [ha1, ha2]
  refine ⟨?_, g2, g3⟩
  show (k1_pay6 (F := Ideal) (k1_pay10 (F := Ideal) (BitVec.ofNat 32 qi.val) (BitVec.ofNat 32 ki.val) x0 x1 s.2.1)
      : S256x1.Idx → EReal) (ix2 r (0 : Fin 1)) = _
  rw [pay6_eq]
  exact g1

/-- The accumulator's first 64 columns sit at the same coordinates of the accumulator. -/
theorem rAcc64_idx (r : Fin 256) (h : Fin 64) :
    Gen.rAcc64.idx (ix2 r h) = (ix2 r (⟨h.val, by have := h.isLt; omega⟩ : Fin 128) : S256x128.Idx) := by
  funext a
  apply Fin.ext
  match a with
  | ⟨0, _⟩ =>
    show 0 + 1 * r.val = r.val
    omega
  | ⟨1, _⟩ =>
    show 0 + 1 * h.val = h.val
    omega

/-- The result tile once every allowed key position of the query tile has been folded in: the softmax average of the
    values, column by column. -/
theorem ffin_row (sR : Fin 2048 → Fin 2048 → ℝ) (vR : Fin 2048 → Fin 128 → ℝ) (qi : Fin 8) (n : ℕ) (hn : qi.val * 256 + 255 < n) (s : Gen.FState Ideal) (hs : RowInv sR vR qi n s) (r : Fin 256) (h : Fin 64) :
    (Gen.fdiv s : S1x256x64.Idx → EReal) (ix3 (0 : Fin 1) r h) = ((∑ u : Fin 2048, (weight (sR (rowPos qi r)) (rowPos qi r) u / denom (sR (rowPos qi r)) (rowPos qi r)) * vR u ⟨h.val, by have := h.isLt; omega⟩ : ℝ) : EReal) := by
  obtain ⟨_, hden, hnum⟩ := hs r
  have hlt : (rowPos qi r).val < n := by
    show qi.val * 256 + r.val < n
    have := r.isLt
    omega
  unfold Gen.fdiv
  refine (pay7_apply _ _ r h).trans ?_
  have hld : View.ld s.2.2.2 Gen.rAcc64 (ix2 r h)
      = (s.2.2.2 : S256x128.Idx → EReal) (ix2 r (⟨h.val, by have := h.isLt; omega⟩ : Fin 128)) :=
    congrArg (s.2.2.2 : S256x128.Idx → EReal) (rAcc64_idx r h)
  rw [hld, hnum, hden]
  exact online_final (sR (rowPos qi r)) (fun u => vR u ⟨h.val, by have := h.isLt; omega⟩) (rowPos qi r) n hlt

end Cert.KernelIdeal.KVal

end
-- ==== Proof.KVInduct.lean ====
/-
  The attention region's value, by induction over its 512 grid points.

  Point `t` is batch entry `b = t / 64`, query tile `qi = t / 8 % 8`, key tile `ki = t % 8`. When the fused projection
  array holds the padded queries, keys and values of real inputs, the three tiles the point reads are the padded
  queries at the rows of query tile `qi` and the padded keys and values at the rows of key tile `min ki qi`. The
  invariant: after point `t` the three carried buffers hold, row by row, the running maximum, denominator and
  numerators of batch entry `b` and query tile `qi` over the key positions below `256 (min ki qi + 1)`. A point with
  `ki = 0` folds its tile into the reset values; a point with `0 < ki ≤ qi` folds its tile into what the point
  before left (same `b` and `qi`, key tile `ki - 1`); a point with `ki > qi` leaves the carried buffers as they
  were, and `min ki qi = qi = min (ki - 1) qi`. At `ki = 7` the prefix is `256 (qi + 1)`, past every allowed key
  position of the tile's rows, so the stored tile — numerators over denominator — is the softmax average of the
  values: causal attention, the padding contributing zeros to the scores and nothing to the first 64 value
  columns. The stored tiles cover the result array.
-/
import proofs.«156562_j19267223290409_2_alg».proof.Proof.KVDefs
import proofs.«156562_j19267223290409_2_alg».proof.Proof.FlashPiecesI
import proofs.«156562_j19267223290409_2_alg».proof.Proof.FlashArray
import proofs.«156562_j19267223290409_2_alg».proof.Proof.KVRow
import proofs.«156562_j19267223290409_2_alg».proof.Proof.OnlineSoftmax
import proofs.«156562_j19267223290409_2_alg».proof.Proof.SpecTiles

set_option maxRecDepth 16384

noncomputable section

open scoped BigOperators

namespace Cert.KernelIdeal.KVal

open Cert.KernelIdeal Cert.KernelIdeal.Gen Cert.CausalAttention Idealize.ShloMosaic Idealize.ShloMosaic.TcCoe
open Idealize.ShloMosaic.ValueIdx Idealize.SL.Sem
open Idealize.ShloMosaic.Pipeline (Dat)

/-! ## The grid's coordinates and the fused projection array's three column groups -/

/-- Point `t` of the 8 × 8 × 8 grid, in order: batch entry `t / 64`, query tile `t / 8 % 8`, key tile `t % 8`. -/
theorem fcoords : ∀ t : Fin cfg1.N, ((grid1.coords t) 0).val = t.val / 64 ∧ ((grid1.coords t) 1).val = t.val / 8 % 8
    ∧ ((grid1.coords t) 2).val = t.val % 8 :=
  (by decide +kernel : ∀ t : Fin grid1.N, _)

/-- The batch entry, query tile and key tile of the point numbered `n`. -/
def bN (n : ℕ) : Fin 8 := ⟨n / 64 % 8, Nat.mod_lt _ (by norm_num)⟩
def qiN (n : ℕ) : Fin 8 := ⟨n / 8 % 8, Nat.mod_lt _ (by norm_num)⟩
def kiN (n : ℕ) : Fin 8 := ⟨n % 8, Nat.mod_lt _ (by norm_num)⟩
/-- How far along the key axis the carried buffers have got after point `n`: past the key tile `min ki qi`. -/
def nOf (n : ℕ) : ℕ := (min (n % 8) (n / 8 % 8) + 1) * 256

section
variable (x : Act) (wq : Wgt) (bq : Bias) (wk : Wgt) (bk : Bias) (wv : Wgt) (bv : Bias)

/-- Columns `0 … 127` of the fused array are the padded queries, -/
theorem qkv_q (b : Fin 8) (p : Fin 2048) (h : Fin 128) (j : Fin 384) (hj : j.val = h.val) :
    qkv x wq bq wk bk wv bv (ix3 b p j) = padProj (proj x wq bq) b p h := by
  have h128 := h.isLt
  unfold qkv
  split
  · next h0 => exact congrArg (padProj (proj x wq bq) b p) (Fin.ext hj)
  · next h0 => exact absurd (show j.val < 128 by omega) h0
/-- columns `128 … 255` the padded keys, -/
theorem qkv_k (b : Fin 8) (p : Fin 2048) (h : Fin 128) (j : Fin 384) (hj : j.val = 128 + h.val) :
    qkv x wq bq wk bk wv bv (ix3 b p j) = padProj (proj x wk bk) b p h := by
  have h128 := h.isLt
  unfold qkv
  split
  · next h0 => exact absurd (show j.val < 128 from h0) (by omega)
  · next h0 =>
    split
    · next h1 => exact congrArg (padProj (proj x wk bk) b p) (Fin.ext (by show j.val - 128 = h.val; omega))
    · next h1 => exact absurd (show j.val < 256 by omega) h1
/-- columns `256 … 383` the padded values. -/
theorem qkv_v (b : Fin 8) (p : Fin 2048) (h : Fin 128) (j : Fin 384) (hj : j.val = 256 + h.val) :
    qkv x wq bq wk bk wv bv (ix3 b p j) = padProj (proj x wv bv) b p h := by
  have h128 := h.isLt
  unfold qkv
  split
  · next h0 => exact absurd (show j.val < 128 from h0) (by omega)
  · next h0 =>
    split
    · next h1 => exact absurd (show j.val < 256 from h1) (by omega)
    · next h1 => exact congrArg (padProj (proj x wv bv) b p) (Fin.ext (by show j.val - 256 = h.val; omega))

/-- One batch entry's padded queries, keys, values and scores. -/
abbrev qR (b : Fin 8) : Fin 2048 → Fin 128 → ℝ := padProj (proj x wq bq) b
abbrev kR (b : Fin 8) : Fin 2048 → Fin 128 → ℝ := padProj (proj x wk bk) b
abbrev vR (b : Fin 8) : Fin 2048 → Fin 128 → ℝ := padProj (proj x wv bv) b
abbrev sR (b : Fin 8) (t u : Fin 2048) : ℝ := scoreP (padProj (proj x wq bq)) (padProj (proj x wk bk)) b t u

variable (V : (c : Dev nD) → (b : Ref sig .tc) → Buf (Elt Ideal) ((c : Thread nD τ).loc b)) (c : Dev nD)
variable (hV : (V c main_v15 : S8x2048x384.Idx → EReal) = fun i => ((qkv x wq bq wk bk wv bv i : ℝ) : EReal))

/-! ## The three tiles at a point -/

include hV in
/-- The query tile at point `t`: the padded queries at the rows of query tile `qi`. -/
theorem tile0 (t : Fin cfg1.N) (r : Fin 256) (h : Fin 128) :
    (fblk V c 0 t : S1x256x128.Idx → EReal) (ix3 (0 : Fin 1) r h)
      = ((qR x wq bq (bN t.val) (rowPos (qiN t.val) r) h : ℝ) : EReal) := by
  refine (FlashArr.fblk0_apply V c t r h).trans ((congrFun hV _).trans ?_)
  have hb := FlashArr.fbatch_lt t
  have e := qkv_q x wq bq wk bk wv bv (bN t.val) (rowPos (qiN t.val) r) h ⟨h.val, by have := h.isLt; omega⟩ rfl
  refine (congrArg (fun z : ℝ => (z : EReal)) ?_)
  refine Eq.trans (congrArg (qkv x wq bq wk bk wv bv) (funext fun a => Fin.ext ?_)) e
  match a with
  | ⟨0, _⟩ => show t.val / 64 = t.val / 64 % 8; omega
  | ⟨1, _⟩ => rfl
  | ⟨2, _⟩ => rfl

include hV in
/-- The key tile at point `t`: the padded keys at the rows of key tile `kk = min ki qi`. -/
theorem tile1 (t : Fin cfg1.N) (kk : Fin 8) (hkk : kk.val = min (t.val % 8) (t.val / 8 % 8)) (cc : Fin 256) (h : Fin 128) :
    (fblk V c 1 t : S1x256x128.Idx → EReal) (ix3 (0 : Fin 1) cc h)
      = ((kR x wk bk (bN t.val) (keyPos kk cc) h : ℝ) : EReal) := by
  refine (FlashArr.fblk1_apply V c t cc h).trans ((congrFun hV _).trans ?_)
  have hb := FlashArr.fbatch_lt t
  have e := qkv_k x wq bq wk bk wv bv (bN t.val) (keyPos kk cc) h ⟨128 + h.val, by have := h.isLt; omega⟩ rfl
  refine (congrArg (fun z : ℝ => (z : EReal)) ?_)
  refine Eq.trans (congrArg (qkv x wq bq wk bk wv bv) (funext fun a => Fin.ext ?_)) e
  match a with
  | ⟨0, _⟩ => show t.val / 64 = t.val / 64 % 8; omega
  | ⟨1, _⟩ => show min (t.val % 8) (t.val / 8 % 8) * 256 + cc.val = kk.val * 256 + cc.val; rw [hkk]
  | ⟨2, _⟩ => rfl

include hV in
/-- The value tile at point `t`: the padded values at the same rows. -/
theorem tile2 (t : Fin cfg1.N) (kk : Fin 8) (hkk : kk.val = min (t.val % 8) (t.val / 8 % 8)) (cc : Fin 256) (h : Fin 128) :
    (fblk V c 2 t : S1x256x128.Idx → EReal) (ix3 (0 : Fin 1) cc h)
      = ((vR x wv bv (bN t.val) (keyPos kk cc) h : ℝ) : EReal) := by
  refine (FlashArr.fblk2_apply V c t cc h).trans ((congrFun hV _).trans ?_)
  have hb := FlashArr.fbatch_lt t
  have e := qkv_v x wq bq wk bk wv bv (bN t.val) (keyPos kk cc) h ⟨256 + h.val, by have := h.isLt; omega⟩ rfl
  refine (congrArg (fun z : ℝ => (z : EReal)) ?_)
  refine Eq.trans (congrArg (qkv x wq bq wk bk wv bv) (funext fun a => Fin.ext ?_)) e
  match a with
  | ⟨0, _⟩ => show t.val / 64 = t.val / 64 % 8; omega
  | ⟨1, _⟩ => show min (t.val % 8) (t.val / 8 % 8) * 256 + cc.val = kk.val * 256 + cc.val; rw [hkk]
  | ⟨2, _⟩ => rfl

/-! ## The invariant over the grid's points -/

/-- Storing the result tile does not touch the carried buffers. -/
theorem rowInv_ffin (sR : Fin 2048 → Fin 2048 → ℝ) (vR : Fin 2048 → Fin 128 → ℝ) (qi : Fin 8) (n : ℕ) (s : FState Ideal) :
    RowInv sR vR qi n (ffin s) ↔ RowInv sR vR qi n s := Iff.rfl

/-- After point `n` the carried buffers are the running maximum, denominator and numerators of the point's batch
    entry and query tile over the key positions below `256 (min ki qi + 1)`. -/
abbrev InvAt (n : ℕ) (hn : n < cfg1.N) : Prop :=
  RowInv (sR x wq bq wk bk (bN n)) (vR x wv bv (bN n)) (qiN n) (nOf n) (fstate V c n hn)

include hV in
/-- Folding the key tile of a point on or below the diagonal advances the invariant by that tile. -/
theorem fold_inv (t : Fin cfg1.N) (h2 : t.val % 8 ≤ t.val / 8 % 8) (s : FState Ideal)
    (hs : (t.val % 8 = 0 ∧ s = finit) ∨ (0 < t.val % 8 ∧
      RowInv (sR x wq bq wk bk (bN t.val)) (vR x wv bv (bN t.val)) (qiN t.val) (t.val % 8 * 256) s)) :
    RowInv (sR x wq bq wk bk (bN t.val)) (vR x wv bv (bN t.val)) (qiN t.val) (nOf t.val)
      (ffold (grid1.coords t) (fblk V c 0 t) (fblk V c 1 t) (fblk V c 2 t) s) := by
  obtain ⟨-, c1, c2⟩ := fcoords t
  have hn : nOf t.val = ((kiN t.val).val + 1) * 256 := by
    unfold nOf kiN; rw [min_eq_left h2]
  rw [hn]
  exact ffold_row (sR x wq bq wk bk (bN t.val)) (vR x wv bv (bN t.val)) (qR x wq bq (bN t.val)) (kR x wk bk (bN t.val))
    (fun _ _ => rfl) (qiN t.val) (kiN t.val) h2 (grid1.coords t) c1 c2
    (fblk V c 0 t) (fblk V c 1 t) (fblk V c 2 t)
    (tile0 x wq bq wk bk wv bv V c hV t)
    (tile1 x wq bq wk bk wv bv V c hV t (kiN t.val) (min_eq_left h2).symm)
    (tile2 x wq bq wk bk wv bv V c hV t (kiN t.val) (min_eq_left h2).symm) s hs

/-- The state after a point in terms of the fold and the final division, case by case. -/
theorem fstate_fold_A (t : Fin cfg1.N) (h1 : t.val % 8 = 0) :
    fstate V c t.val t.isLt = ffold (grid1.coords t) (fblk V c 0 t) (fblk V c 1 t) (fblk V c 2 t) finit :=
  (fstate_A V c t h1).trans (fstA_eq c (grid1.coords t) (fm0 t) (fh0 t) (fm1 t) (fh1 t) (fm2 t) (fh2 t) (fm3 t) (fh3 t)
    scMax (Memref.isWhole_whole _) scDen (Memref.isWhole_whole _) scAcc (Memref.isWhole_whole _)
    (fblk V c 0 t) (fblk V c 1 t) (fblk V c 2 t) (fcaseA t h1).1 (fcaseA t h1).2.1 (fcaseA t h1).2.2)
theorem fstate_fold_B (t : Fin cfg1.N) (h1 : ¬t.val % 8 = 0) (h2 : t.val % 8 ≤ t.val / 8 % 8) (h3 : ¬t.val % 8 = 7) :
    fstate V c t.val t.isLt = ffold (grid1.coords t) (fblk V c 0 t) (fblk V c 1 t) (fblk V c 2 t) (fprev V c t) :=
  (fstate_B V c t h1 h2 h3).trans (fstB_eq c (grid1.coords t) (fm0 t) (fh0 t) (fm1 t) (fh1 t) (fm2 t) (fh2 t) (fm3 t) (fh3 t)
    scMax (Memref.isWhole_whole _) scDen (Memref.isWhole_whole _) scAcc (Memref.isWhole_whole _)
    (fblk V c 0 t) (fblk V c 1 t) (fblk V c 2 t) (fcaseB t h1 h2 h3).1 (fcaseB t h1 h2 h3).2.1 (fcaseB t h1 h2 h3).2.2 (fprev V c t))
theorem fstate_fold_C (t : Fin cfg1.N) (h1 : ¬t.val % 8 = 0) (h2 : t.val % 8 ≤ t.val / 8 % 8) (h3 : t.val % 8 = 7) :
    fstate V c t.val t.isLt = ffin (ffold (grid1.coords t) (fblk V c 0 t) (fblk V c 1 t) (fblk V c 2 t) (fprev V c t)) :=
  (fstate_C V c t h1 h2 h3).trans (fstC_eq c (grid1.coords t) (fm0 t) (fh0 t) (fm1 t) (fh1 t) (fm2 t) (fh2 t) (fm3 t) (fh3 t)
    scMax (Memref.isWhole_whole _) scDen (Memref.isWhole_whole _) scAcc (Memref.isWhole_whole _)
    (fblk V c 0 t) (fblk V c 1 t) (fblk V c 2 t) (fcaseC t h1 h2 h3).1 (fcaseC t h1 h2 h3).2.1 (fcaseC t h1 h2 h3).2.2 (fprev V c t))
theorem fstate_fold_E (t : Fin cfg1.N) (h1 : ¬t.val % 8 = 0) (h2 : ¬t.val % 8 ≤ t.val / 8 % 8) (h3 : t.val % 8 = 7) :
    fstate V c t.val t.isLt = ffin (fprev V c t) :=
  (fstate_E V c t h1 h2 h3).trans (fstE_eq c (grid1.coords t) (fm0 t) (fh0 t) (fm1 t) (fh1 t) (fm2 t) (fh2 t) (fm3 t) (fh3 t)
    scMax (Memref.isWhole_whole _) scDen (Memref.isWhole_whole _) scAcc (Memref.isWhole_whole _)
    (fblk V c 0 t) (fblk V c 1 t) (fblk V c 2 t) (fcaseE t h1 h2 h3).1 (fcaseE t h1 h2 h3).2.1 (fcaseE t h1 h2 h3).2.2 (fprev V c t))

include hV in
/-- One point: from the invariant after the point before (when the point is not the first of its query tile). -/
theorem inv_step (t : Fin cfg1.N)
    (hprev : ¬t.val % 8 = 0 → InvAt x wq bq wk bk wv bv V c (t.val - 1) (Nat.lt_of_le_of_lt (Nat.sub_le _ _) t.isLt)) :
    InvAt x wq bq wk bk wv bv V c t.val t.isLt := by
  by_cases h1 : t.val % 8 = 0
  · show RowInv _ _ _ _ (fstate V c t.val t.isLt)
    rw [fstate_fold_A V c t h1]
    exact fold_inv x wq bq wk bk wv bv V c hV t (by omega) finit (Or.inl ⟨h1, rfl⟩)
  · have hp := hprev h1
    have eb : bN (t.val - 1) = bN t.val := Fin.ext (by show (t.val - 1) / 64 % 8 = t.val / 64 % 8; omega)
    have eq : qiN (t.val - 1) = qiN t.val := Fin.ext (by show (t.val - 1) / 8 % 8 = t.val / 8 % 8; omega)
    have hp' : RowInv (sR x wq bq wk bk (bN t.val)) (vR x wv bv (bN t.val)) (qiN t.val) (nOf (t.val - 1)) (fprev V c t) := by
      have := hp
      unfold InvAt at this
      rw [eb, eq] at this
      exact this
    have hk1 : (t.val - 1) % 8 = t.val % 8 - 1 := by omega
    have hq1 : (t.val - 1) / 8 % 8 = t.val / 8 % 8 := by omega
    by_cases h2 : t.val % 8 ≤ t.val / 8 % 8
    · have hn1 : nOf (t.val - 1) = t.val % 8 * 256 := by
        unfold nOf
        rw [min_eq_left (show (t.val - 1) % 8 ≤ (t.val - 1) / 8 % 8 by omega), hk1]
        omega
      rw [hn1] at hp'
      have hf := fold_inv x wq bq wk bk wv bv V c hV t h2 (fprev V c t) (Or.inr ⟨by omega, hp'⟩)
      by_cases h3 : t.val % 8 = 7
      · show RowInv _ _ _ _ (fstate V c t.val t.isLt)
        rw [fstate_fold_C V c t h1 h2 h3]
        exact hf
      · show RowInv _ _ _ _ (fstate V c t.val t.isLt)
        rw [fstate_fold_B V c t h1 h2 h3]
        exact hf
    · have hn1 : nOf (t.val - 1) = nOf t.val := by
        unfold nOf
        rw [min_eq_right (show (t.val - 1) / 8 % 8 ≤ (t.val - 1) % 8 by omega),
          min_eq_right (show t.val / 8 % 8 ≤ t.val % 8 by omega), hq1]
      rw [hn1] at hp'
      by_cases h3 : t.val % 8 = 7
      · show RowInv _ _ _ _ (fstate V c t.val t.isLt)
        rw [fstate_fold_E V c t h1 h2 h3]
        exact hp'
      · show RowInv _ _ _ _ (fstate V c t.val t.isLt)
        rw [fstate_D V c t h1 h2 h3]
        exact hp'

include hV in
/-- The invariant after every point, by induction on the point. -/
theorem inv_all : ∀ (n : ℕ) (hn : n < cfg1.N), InvAt x wq bq wk bk wv bv V c n hn
  | 0, hn => inv_step x wq bq wk bk wv bv V c hV ⟨0, hn⟩ (fun h => absurd (Nat.zero_mod 8) h)
  | n + 1, hn => inv_step x wq bq wk bk wv bv V c hV ⟨n + 1, hn⟩ (fun _ => inv_all n (Nat.lt_of_succ_lt hn))

/-! ## The result -/

/-- Causal attention at `[b, pos, h]` over the padded projections of batch entry `b`: the padding adds zeros to
    each score, and the first 64 padded value columns are the values. -/
theorem attn_eq (b : Fin 8) (pos : Fin 2048) (h : Fin 64) :
    attn x wq bq wk bk wv bv (ix3 b pos h)
      = ∑ u : Fin 2048, (weight (sR x wq bq wk bk b pos) pos u / denom (sR x wq bq wk bk b pos) pos)
          * vR x wv bv b u ⟨h.val, by have := h.isLt; omega⟩ := by
  have hs : sR x wq bq wk bk b pos = score (proj x wq bq) (proj x wk bk) b pos :=
    funext fun u => scoreP_pad (proj x wq bq) (proj x wk bk) b pos u
  have hv : ∀ u : Fin 2048, vR x wv bv b u ⟨h.val, by have := h.isLt; omega⟩ = proj x wv bv b u h := fun u => by
    show padProj (proj x wv bv) b u ⟨h.val, _⟩ = _
    unfold padProj
    rw [dif_pos (show h.val < 64 from h.isLt)]
  rw [hs]
  simp only [hv]
  rfl

include hV in
/-- The attention region leaves causal attention of the inputs in its result array. -/
theorem kernel_value_aux :
    (fdat (F := Ideal) V c).arrAt 3 cfg1.N = fun i => ((attn x wq bq wk bk wv bv i : ℝ) : EReal) := by
  refine FlashArr.ffinal V c _ (fun t h7 r h => ?_)
  have h1 : ¬t.val % 8 = 0 := by omega
  have hinv := inv_all x wq bq wk bk wv bv V c hV t.val t.isLt
  obtain ⟨s', hs'⟩ : ∃ s' : FState Ideal, fstate V c t.val t.isLt = ffin s' := by
    by_cases h2 : t.val % 8 ≤ t.val / 8 % 8
    · exact ⟨_, fstate_fold_C V c t h1 h2 h7⟩
    · exact ⟨_, fstate_fold_E V c t h1 h2 h7⟩
  have hinv' : RowInv (sR x wq bq wk bk (bN t.val)) (vR x wv bv (bN t.val)) (qiN t.val) (nOf t.val) s' := by
    have := hinv
    unfold InvAt at this
    rw [hs'] at this
    exact this
  have hq : (qiN t.val).val * 256 + 255 < nOf t.val := by
    unfold nOf
    rw [min_eq_right (show t.val / 8 % 8 ≤ t.val % 8 by omega)]
    show t.val / 8 % 8 * 256 + 255 < (t.val / 8 % 8 + 1) * 256
    omega
  rw [hs']
  refine (ffin_row _ _ (qiN t.val) (nOf t.val) hq s' hinv' r h).trans ?_
  have hb := FlashArr.fbatch_lt t
  have ei : (ix3 (⟨t.val / 64, FlashArr.fbatch_lt t⟩ : Fin 8) (⟨t.val / 8 % 8 * 256 + r.val, by have := r.isLt; omega⟩ : Fin 2048) h
      : (⟨3, ![8, 2048, 64]⟩ : Shape).Idx) = ix3 (bN t.val) (rowPos (qiN t.val) r) h := funext fun a => Fin.ext (by
    match a with
    | ⟨0, _⟩ => show t.val / 64 = t.val / 64 % 8; omega
    | ⟨1, _⟩ => rfl
    | ⟨2, _⟩ => rfl)
  show _ = ((attn x wq bq wk bk wv bv (ix3 (⟨t.val / 64, FlashArr.fbatch_lt t⟩ : Fin 8) (⟨t.val / 8 % 8 * 256 + r.val, _⟩ : Fin 2048) h) : ℝ) : EReal)
  rw [ei, attn_eq]

end

end Cert.KernelIdeal.KVal

namespace Cert.KernelIdeal.KVal

open Cert.KernelIdeal Cert.KernelIdeal.Gen Cert.CausalAttention Idealize.ShloMosaic Idealize.ShloMosaic.TcCoe
open Idealize.SL.Sem

/-- The attention region leaves causal attention of the inputs in its result array, when it finds the fused
    projection array holding the padded projections of real inputs. -/
theorem kernel_value (V : (c : Dev nD) → (b : Ref sig .tc) → Buf (Elt Ideal) ((c : Thread nD τ).loc b)) (c : Dev nD)
    (x : Act) (wq : Wgt) (bq : Bias) (wk : Wgt) (bk : Bias) (wv : Wgt) (bv : Bias)
    (hV : (V c main_v15 : S8x2048x384.Idx → EReal) = fun i => ((qkv x wq bq wk bk wv bv i : ℝ) : EReal)) :
    (Gen.fdat (F := Ideal) V c).arrAt 3 cfg1.N = fun i => ((attn x wq bq wk bk wv bv i : ℝ) : EReal) :=
  kernel_value_aux x wq bq wk bk wv bv V c hV

end Cert.KernelIdeal.KVal

end
-- ==== Proof.Algebraic.lean ====
/-
  The two idealized programs compute one function.
  With every input finite, the reference's result is causal softmax attention over the reals (index by index:
  projections, scaled scores, the causal mask as `-∞`, the row maximum, the exponentials, their sum, the
  quotient, the product with the values), and the kernel's result array is the same real function: its first
  launch leaves the three padded projections side by side, its second folds the key tiles into a running maximum,
  denominator and accumulator and divides at the last key tile, which is the same softmax by the law
  `exp (M - M') · exp (s - M) = exp (s - M')` and because the zero padding adds nothing to a dot product.
-/
import proofs.«156562_j19267223290409_2_alg».proof.Proof.Frames
import proofs.«156562_j19267223290409_2_alg».proof.Proof.Gen.ReferenceIdeal.Read
import proofs.«156562_j19267223290409_2_alg».proof.Proof.RefValue
import proofs.«156562_j19267223290409_2_alg».proof.Proof.Finite
import proofs.«156562_j19267223290409_2_alg».proof.Proof.ProjValue
import proofs.«156562_j19267223290409_2_alg».proof.Proof.QkvArray
import proofs.«156562_j19267223290409_2_alg».proof.Proof.KVInduct

noncomputable section

namespace Cert.Proof.Claims

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Gen.o16 (F := Ideal) m c, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x, wq, bq, wk, bk, wv, bv, h0, h1, h2, h3, h4, h5, h6⟩ := Cert.CausalAttention.real_of_finite _ _ _ _ _ _ _ (hpre c)
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2, h0, h1, h2, h3, h4, h5, h6,
    Cert.ReferenceIdeal.RefValue.ref_value]
  have hq := Cert.KernelIdeal.ProjVal.qkv_value m c x wq bq wk bk wv bv h0 h1 h2 h3 h4 h5 h6
  have h15 := Cert.KernelIdeal.KVal.v15_value m c x wq bq wk bk wv bv hq
  exact (Cert.KernelIdeal.KVal.kernel_value (Cert.KernelIdeal.Gen.Vr15 (F := Ideal) m) c x wq bq wk bk wv bv h15).symm

end Cert.Proof.Claims

end
-- ==== Proof.lean ====
/-
  Single-head causal attention: a tiled kernel (a fused query/key/value projection launch, then an online-softmax
  attention launch over 256 × 256 tiles) against the plain softmax-attention reference. The certificate's five
  claims: the three programs run and leave their arguments unchanged; the kernel's idealization renames one constant
  (the masked score, `-∞`); and at the ideal instance, with finite inputs, kernel and reference compute the same
  extended reals, element by element.
-/
import proofs.«156562_j19267223290409_2_alg».proof.Defs
import proofs.«156562_j19267223290409_2_alg».proof.Proof.Gen.Kernel
import proofs.«156562_j19267223290409_2_alg».proof.Proof.Gen.KernelIdeal
import proofs.«156562_j19267223290409_2_alg».proof.Proof.Gen.ReferenceIdeal
import proofs.«156562_j19267223290409_2_alg».proof.Proof.Gen.Pre_finite_inputs
import proofs.«156562_j19267223290409_2_alg».proof.Proof.Frames
import proofs.«156562_j19267223290409_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
